-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S1000000x16 : Shape := ⟨2, ![1000000, 16]⟩
abbrev S100000 : Shape := ⟨1, ![100000]⟩
abbrev S2000 : Shape := ⟨1, ![2000]⟩
abbrev S4x16x64 : Shape := ⟨3, ![4, 16, 64]⟩
abbrev S4x64x64 : Shape := ⟨3, ![4, 64, 64]⟩
abbrev S4x64 : Shape := ⟨2, ![4, 64]⟩
abbrev S4 : Shape := ⟨1, ![4]⟩
abbrev S65x64 : Shape := ⟨2, ![65, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x16 : S_.BroadcastsInDim S1000000x16 (![] : Fin 0 → Fin S1000000x16.rank)
  reducesTo_S1000000x16_S_d0_1 : S1000000x16.ReducesTo [0, 1] S_
  bcast_S_S2000 : S_.BroadcastsInDim S2000 (![] : Fin 0 → Fin S2000.rank)
  reducesTo_S2000_S_d0 : S2000.ReducesTo [0] S_
  bcast_S_S4x16x64 : S_.BroadcastsInDim S4x16x64 (![] : Fin 0 → Fin S4x16x64.rank)
  reducesTo_S4x16x64_S_d0_1_2 : S4x16x64.ReducesTo [0, 1, 2] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S4 : S_.BroadcastsInDim S4 (![] : Fin 0 → Fin S4.rank)
  reducesTo_S4_S_d0 : S4.ReducesTo [0] S_
  bcast_S_S65x64 : S_.BroadcastsInDim S65x64 (![] : Fin 0 → Fin S65x64.rank)
  reducesTo_S65x64_S_d0_1 : S65x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S64x1 .f32) (main_arg14 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg13
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S4x64 .f32) (main_arg10 : FVec F S4 .f32) (main_arg11 : FVec F S65x64 .f32) (main_arg12 : FVec F S64 .f32) (main_arg13 : FVec F S64x1 .f32) (main_arg14 : FVec F S1 .f32) (main_v33 : IVec S_ 1) : IVec S_ 1 :=
  let main_v34 : FVec F S4x64 .f32 := Host.absf main_arg9
  let main_cst_12 : FVec F S_ .f32 := constant S_ .f32 0x7F800000#32
  let main_v35 : FVec F S4x64 .f32 := broadcastInDim S4x64 ![] bcast_S_S4x64 main_cst_12
  let main_v36 : IVec S4x64 1 := cmpf .olt main_v34 main_v35
  let main_c_13 : IVec S_ 1 := constantI S_ 1 1#1
  let main_v37 : IVec S_ 1 := (fun x v => Host.reduce IntOp.andi x v reducesTo_S4x64_S_d0_1 h_S_) main_v36 main_c_13
  let main_v38 : IVec S_ 1 := andi main_v33 main_v37
  let main_v39 : FVec F S4 .f32 := Host.absf main_arg10
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  let main_v44 : FVec F S65x64 .f32 := Host.absf main_arg11
  let main_cst_16 : FVec F S_ .f32 := constant S_ .f32 0x7F800000#32
  let main_v45 : FVec F S65x64 .f32 := broadcastInDim S65x64 ![] bcast_S_S65x64 main_cst_16
  let main_v46 : IVec S65x64 1 := cmpf .olt main_v44 main_v45
  let main_c_17 : IVec S_ 1 := constantI S_ 1 1#1
  let main_v47 : IVec S_ 1 := (fun x v => Host.reduce IntOp.andi x v reducesTo_S65x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S4x64x64 .f32) (main_arg7 : FVec F S4x64 .f32) (main_arg8 : FVec F S4x64x64 .f32) (main_arg9 : FVec F S4x64 .f32) (main_arg10 : FVec F S4 .f32) (main_arg11 : FVec F S65x64 .f32) (main_arg12 : FVec F S64 .f32) (main_arg13 : FVec F S64x1 .f32) (main_arg14 : FVec F S1 .f32) (main_v13 : IVec S_ 1) (main_v16 : IVec S4x16x64 1) : IVec S_ 1 :=
  let main_c_5 : IVec S_ 1 := constantI S_ 1 1#1
  let main_v17 : IVec S_ 1 := (fun x v => Host.reduce IntOp.andi x v reducesTo_S4x16x64_S_d0_1_2 h_S_) main_v16 main_c_5
  let main_v18 : IVec S_ 1 := andi main_v13 main_v17
  let main_v19 : FVec F S4x64x64 .f32 := Host.absf main_arg6
  let main_cst_6 : FVec F S_ .f32 := constant S_ .f32 0x7F800000#32
  let main_v20 : FVec F S4x64x64 .f32 := broadcastInDim S4x64x64 ![] bcast_S_S4x64x64 main_cst_6
  let main_v21 : IVec S4x64x64 1 := cmpf .olt main_v19 main_v20
  let main_c_7 : IVec S_ 1 := constantI S_ 1 1#1
  let main_v22 : IVec S_ 1 := (fun x v => Host.reduce IntOp.andi x v reducesTo_S4x64x64_S_d0_1_2 h_S_) main_v21 main_c_7
  let main_v23 : IVec S_ 1 := andi main_v18 main_v22
  let main_v24 : FVec F S4x64 .f32 := Host.absf main_arg7
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S4x64x64 .f32 := Host.absf main_arg8
  let main_cst_10 : FVec F S_ .f32 := constant S_ .f32 0x7F800000#32
  let main_v30 : FVec F S4x64x64 .f32 := broadcastInDim S4x64x64 ![] bcast_S_S4x64x64 main_cst_10
  let main_v31 : IVec S4x64x64 1 := cmpf .olt main_v29 main_v30
  let main_c_11 : IVec S_ 1 := constantI S_ 1 1#1
  let main_v32 : IVec S_ 1 := (fun x v => Host.reduce IntOp.andi x v reducesTo_S4x64x64_S_d0_1_2 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x64 .f32) (main_arg1 : IVec S2x1000000 32) (main_arg2 : FVec F S1000000x16 .f32) (main_arg3 : IVec S100000 32) (main_arg4 : FVec F S2000 .f32) (main_arg5 : FVec F S4x16x64 .f32) (main_arg6 : FVec F S4x64x64 .f32) (main_arg7 : FVec F S4x64 .f32) (main_arg8 : FVec F S4x64x64 .f32) (main_arg9 : FVec F S4x64 .f32) (main_arg10 : FVec F S4 .f32) (main_arg11 : FVec F S65x64 .f32) (main_arg12 : FVec F S64 .f32) (main_arg13 : FVec F S64x1 .f32) (main_arg14 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x16 .f32 := Host.absf main_arg2
  let main_cst_0 : FVec F S_ .f32 := constant S_ .f32 0x7F800000#32
  let main_v5 : FVec F S1000000x16 .f32 := broadcastInDim S1000000x16 ![] bcast_S_S1000000x16 main_cst_0
  let main_v6 : IVec S1000000x16 1 := cmpf .olt main_v4 main_v5
  let main_c_1 : IVec S_ 1 := constantI S_ 1 1#1
  let main_v7 : IVec S_ 1 := (fun x v => Host.reduce IntOp.andi x v reducesTo_S1000000x16_S_d0_1 h_S_) main_v6 main_c_1
  let main_v8 : IVec S_ 1 := andi main_v3 main_v7
  let main_v9 : FVec F S2000 .f32 := Host.absf main_arg4
  let main_cst_2 : FVec F S_ .f32 := constant S_ .f32 0x7F800000#32
  let main_v10 : FVec F S2000 .f32 := broadcastInDim S2000 ![] bcast_S_S2000 main_cst_2
  let main_v11 : IVec S2000 1 := cmpf .olt main_v9 main_v10
  let main_c_3 : IVec S_ 1 := constantI S_ 1 1#1
  let main_v12 : IVec S_ 1 := (fun x v => Host.reduce IntOp.andi x v reducesTo_S2000_S_d0 h_S_) main_v11 main_c_3
  let main_v13 : IVec S_ 1 := andi main_v8 main_v12
  let main_v14 : FVec F S4x16x64 .f32 := Host.absf main_arg5
  let main_cst_4 : FVec F S_ .f32 := constant S_ .f32 0x7F800000#32
  let main_v15 : FVec F S4x16x64 .f32 := broadcastInDim S4x16x64 ![] bcast_S_S4x16x64 main_cst_4
  let main_v16 : IVec S4x16x64 1 := cmpf .olt main_v14 main_v15
  fn_part1 (F := F) main_arg6 main_arg7 main_arg8 main_arg9 main_arg10 main_arg11 main_arg12 main_arg13 main_arg14 main_v13 main_v16
-- ==== Kernel.lean ====
abbrev S100000x64 : Shape := ⟨2, ![100000, 64]⟩
abbrev S2x1000000 : Shape := ⟨2, ![2, 1000000]⟩
abbrev S1000000x16 : Shape := ⟨2, ![1000000, 16]⟩
abbrev S100000 : Shape := ⟨1, ![100000]⟩
abbrev S2000 : Shape := ⟨1, ![2000]⟩
abbrev S4x16x64 : Shape := ⟨3, ![4, 16, 64]⟩
abbrev S4x64x64 : Shape := ⟨3, ![4, 64, 64]⟩
abbrev S4x64 : Shape := ⟨2, ![4, 64]⟩
abbrev S4 : Shape := ⟨1, ![4]⟩
abbrev S65x64 : Shape := ⟨2, ![65, 64]⟩
abbrev S64 : Shape := ⟨1, ![64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S1x16x64 : Shape := ⟨3, ![1, 16, 64]⟩
abbrev S16x64 : Shape := ⟨2, ![16, 64]⟩
abbrev S1000000x64 : Shape := ⟨2, ![1000000, 64]⟩
abbrev S_ : Shape := ⟨0, ![]⟩
abbrev S1000000x1 : Shape := ⟨2, ![1000000, 1]⟩
abbrev S1x64x64 : Shape := ⟨3, ![1, 64, 64]⟩
abbrev S64x64 : Shape := ⟨2, ![64, 64]⟩
abbrev S1x64 : Shape := ⟨2, ![1, 64]⟩
abbrev S1x1 : Shape := ⟨2, ![1, 1]⟩
abbrev S10000x64 : Shape := ⟨2, ![10000, 64]⟩
abbrev S2000x64 : Shape := ⟨2, ![2000, 64]⟩
abbrev S100000x1 : Shape := ⟨2, ![100000, 1]⟩
abbrev S2000x1 : Shape := ⟨2, ![2000, 1]⟩
abbrev S2000x65 : Shape := ⟨2, ![2000, 65]⟩

abbrev nBuf : Space → Nat
  | .hbm => 175
  | .vmem => 50
  | .smem => 0
  | _ => 0

abbrev hbmTy0_0 (i : Nat) : BufTy := match i % 128 with
  | 0 => ⟨S100000x64, .f32⟩
  | 1 => ⟨S2x1000000, .i32⟩
  | 2 => ⟨S1000000x16, .f32⟩
  | 3 => ⟨S100000, .i32⟩
  | 4 => ⟨S2000, .f32⟩
  | 5 => ⟨S4x16x64, .f32⟩
  | 6 => ⟨S4x64x64, .f32⟩
  | 7 => ⟨S4x64, .f32⟩
  | 8 => ⟨S4x64x64, .f32⟩
  | 9 => ⟨S4x64, .f32⟩
  | 10 => ⟨S4, .f32⟩
  | 11 => ⟨S65x64, .f32⟩
  | 12 => ⟨S64, .f32⟩
  | 13 => ⟨S64x1, .f32⟩
  | 14 => ⟨S1, .f32⟩
  | 15 => ⟨S1x1000000, .i32⟩
  | 16 => ⟨S1000000, .i32⟩
  | 17 => ⟨S1x1000000, .i32⟩
  | 18 => ⟨S1000000, .i32⟩
  | 19 => ⟨S1x16x64, .f32⟩
  | 20 => ⟨S16x64, .f32⟩
  | 21 => ⟨S1000000x64, .f32⟩
  | 22 => ⟨S_, .i32⟩
  | 23 => ⟨S1000000, .i32⟩
  | 24 => ⟨S1000000, .i1⟩
  | 25 => ⟨S_, .i32⟩
  | 26 => ⟨S1000000, .i32⟩
  | 27 => ⟨S1000000, .i32⟩
  | 28 => ⟨S1000000, .i32⟩
  | 29 => ⟨S1000000x1, .i32⟩
  | 30 => ⟨S1000000x64, .f32⟩
  | 31 => ⟨S1000000x64, .f32⟩
  | 32 => ⟨S_, .f32⟩
  | 33 => ⟨S1000000x64, .f32⟩
  | 34 => ⟨S1000000x64, .f32⟩
  | 35 => ⟨S_, .f32⟩
  | 36 => ⟨S100000x64, .f32⟩
  | 37 => ⟨S1000000x1, .i32⟩
  | 38 => ⟨S100000x64, .f32⟩
  | 39 => ⟨S1, .f32⟩
  | 40 => ⟨S_, .f32⟩
  | 41 => ⟨S1x64x64, .f32⟩
  | 42 => ⟨S64x64, .f32⟩
  | 43 => ⟨S1x64, .f32⟩
  | 44 => ⟨S64, .f32⟩
  | 45 => ⟨S1x64x64, .f32⟩
  | 46 => ⟨S64x64, .f32⟩
  | 47 => ⟨S1x64, .f32⟩
  | 48 => ⟨S64, .f32⟩
  | 49 => ⟨S1x1, .f32⟩
  | 50 => ⟨S1x64, .f32⟩
  | 51 => ⟨S1x64, .f32⟩
  | 52 => ⟨S100000x64, .f32⟩
  | 53 => ⟨S1x16x64, .f32⟩
  | 54 => ⟨S16x64, .f32⟩
  | 55 => ⟨S1000000x64, .f32⟩
  | 56 => ⟨S_, .i32⟩
  | 57 => ⟨S1000000, .i32⟩
  | 58 => ⟨S1000000, .i1⟩
  | 59 => ⟨S_, .i32⟩
  | 60 => ⟨S1000000, .i32⟩
  | 61 => ⟨S1000000, .i32⟩
  | 62 => ⟨S1000000, .i32⟩
  | 63 => ⟨S1000000x1, .i32⟩
  | 64 => ⟨S1000000x64, .f32⟩
  | 65 => ⟨S1000000x64, .f32⟩
  | 66 => ⟨S_, .f32⟩
  | 67 => ⟨S1000000x64, .f32⟩
  | 68 => ⟨S1000000x64, .f32⟩
  | 69 => ⟨S_, .f32⟩
  | 70 => ⟨S100000x64, .f32⟩
  | 71 => ⟨S1000000x1, .i32⟩
  | 72 => ⟨S100000x64, .f32⟩
  | 73 => ⟨S1, .f32⟩
  | 74 => ⟨S_, .f32⟩
  | 75 => ⟨S1x64x64, .f32⟩
  | 76 => ⟨S64x64, .f32⟩
  | 77 => ⟨S1x64, .f32⟩
  | 78 => ⟨S64, .f32⟩
  | 79 => ⟨S1x64x64, .f32⟩
  | 80 => ⟨S64x64, .f32⟩
  | 81 => ⟨S1x64, .f32⟩
  | 82 => ⟨S64, .f32⟩
  | 83 => ⟨S1x1, .f32⟩
  | 84 => ⟨S1x64, .f32⟩
  | 85 => ⟨S1x64, .f32⟩
  | 86 => ⟨S100000x64, .f32⟩
  | 87 => ⟨S1x16x64, .f32⟩
  | 88 => ⟨S16x64, .f32⟩
  | 89 => ⟨S1000000x64, .f32⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S1000000x1, .i32⟩
  | 98 => ⟨S1000000x64, .f32⟩
  | 99 => ⟨S1000000x64, .f32⟩
  | 100 => ⟨S_, .f32⟩
  | 101 => ⟨S1000000x64, .f32⟩
  | 102 => ⟨S1000000x64, .f32⟩
  | 103 => ⟨S_, .f32⟩
  | 104 => ⟨S100000x64, .f32⟩
  | 105 => ⟨S1000000x1, .i32⟩
  | 106 => ⟨S100000x64, .f32⟩
  | 107 => ⟨S1, .f32⟩
  | 108 => ⟨S_, .f32⟩
  | 109 => ⟨S1x64x64, .f32⟩
  | 110 => ⟨S64x64, .f32⟩
  | 111 => ⟨S1x64, .f32⟩
  | 112 => ⟨S64, .f32⟩
  | 113 => ⟨S1x64x64, .f32⟩
  | 114 => ⟨S64x64, .f32⟩
  | 115 => ⟨S1x64, .f32⟩
  | 116 => ⟨S64, .f32⟩
  | 117 => ⟨S1x1, .f32⟩
  | 118 => ⟨S1x64, .f32⟩
  | 119 => ⟨S1x64, .f32⟩
  | 120 => ⟨S100000x64, .f32⟩
  | 121 => ⟨S1x16x64, .f32⟩
  | 122 => ⟨S16x64, .f32⟩
  | 123 => ⟨S1000000x64, .f32⟩
  | 124 => ⟨S_, .i32⟩
  | 125 => ⟨S1000000, .i32⟩
  | 126 => ⟨S1000000, .i1⟩
  | 127 => ⟨S_, .i32⟩
  | _ => ⟨S100000x64, .f32⟩

abbrev hbmTy0_1 (i : Nat) : BufTy := match i % 128 with
  | 0 => ⟨S1000000, .i32⟩
  | 1 => ⟨S1000000, .i32⟩
  | 2 => ⟨S1000000, .i32⟩
  | 3 => ⟨S1000000x1, .i32⟩
  | 4 => ⟨S1000000x64, .f32⟩
  | 5 => ⟨S1000000x64, .f32⟩
  | 6 => ⟨S_, .f32⟩
  | 7 => ⟨S1000000x64, .f32⟩
  | 8 => ⟨S1000000x64, .f32⟩
  | 9 => ⟨S_, .f32⟩
  | 10 => ⟨S100000x64, .f32⟩
  | 11 => ⟨S1000000x1, .i32⟩
  | 12 => ⟨S100000x64, .f32⟩
  | 13 => ⟨S1, .f32⟩
  | 14 => ⟨S_, .f32⟩
  | 15 => ⟨S1x64x64, .f32⟩
  | 16 => ⟨S64x64, .f32⟩
  | 17 => ⟨S1x64, .f32⟩
  | 18 => ⟨S64, .f32⟩
  | 19 => ⟨S1x64x64, .f32⟩
  | 20 => ⟨S64x64, .f32⟩
  | 21 => ⟨S1x64, .f32⟩
  | 22 => ⟨S64, .f32⟩
  | 23 => ⟨S1x1, .f32⟩
  | 24 => ⟨S1x64, .f32⟩
  | 25 => ⟨S1x64, .f32⟩
  | 26 => ⟨S100000x64, .f32⟩
  | 27 => ⟨S_, .f32⟩
  | 28 => ⟨S2000x64, .f32⟩
  | 29 => ⟨S100000x1, .i32⟩
  | 30 => ⟨S2000x64, .f32⟩
  | 31 => ⟨S_, .f32⟩
  | 32 => ⟨S100000x1, .f32⟩
  | 33 => ⟨S_, .f32⟩
  | 34 => ⟨S2000x1, .f32⟩
  | 35 => ⟨S100000x1, .i32⟩
  | 36 => ⟨S2000x1, .f32⟩
  | 37 => ⟨S_, .f32⟩
  | 38 => ⟨S2000x1, .f32⟩
  | 39 => ⟨S2000x1, .f32⟩
  | 40 => ⟨S2000x64, .f32⟩
  | 41 => ⟨S2000x64, .f32⟩
  | 42 => ⟨S2000x1, .f32⟩
  | 43 => ⟨S2000x65, .f32⟩
  | 44 => ⟨S1x64, .f32⟩
  | 45 => ⟨S1x1, .f32⟩
  | 46 => ⟨S2000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S1x1, .f32⟩
  | .local _ .vmem, ⟨5, _⟩ => ⟨S64x64, .f32⟩
  | .local _ .vmem, ⟨6, _⟩ => ⟨S1x64, .f32⟩
  | .local _ .vmem, ⟨7, _⟩ => ⟨S64x64, .f32⟩
  | .local _ .vmem, ⟨8, _⟩ => ⟨S1x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S1x1, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S1x1, .f32⟩
  | .local _ .vmem, ⟨27, _⟩ => ⟨S64x64, .f32⟩
  | .local _ .vmem, ⟨28, _⟩ => ⟨S1x64, .f32⟩
  | .local _ .vmem, ⟨29, _⟩ => ⟨S64x64, .f32⟩
  | .local _ .vmem, ⟨30, _⟩ => ⟨S1x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S1x1, .f32⟩
  | .local _ .vmem, ⟨38, _⟩ => ⟨S64x64, .f32⟩
  | .local _ .vmem, ⟨39, _⟩ => ⟨S1x64, .f32⟩
  | .local _ .vmem, ⟨40, _⟩ => ⟨S64x64, .f32⟩
  | .local _ .vmem, ⟨41, _⟩ => ⟨S1x64, .f32⟩
  | .local _ .vmem, ⟨42, _⟩ => ⟨S10000x64, .f32⟩
  | .local _ .vmem, ⟨43, _⟩ => ⟨S10000x64, .f32⟩
  | .local _ .vmem, ⟨44, _⟩ => ⟨S2000x65, .f32⟩
  | .local _ .vmem, ⟨45, _⟩ => ⟨S65x64, .f32⟩
  | .local _ .vmem, ⟨46, _⟩ => ⟨S1x64, .f32⟩
  | .local _ .vmem, ⟨47, _⟩ => ⟨S64x1, .f32⟩
  | .local _ .vmem, ⟨48, _⟩ => ⟨S1x1, .f32⟩
  | .local _ .vmem, ⟨49, _⟩ => ⟨S2000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call0_cst : Ref sig .tc := ⟨.hbm, 32, rfl⟩
abbrev main_call0_v0 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_1 : Ref sig .tc := ⟨.hbm, 56, rfl⟩
abbrev main_v36 : Ref sig .tc := ⟨.hbm, 57, rfl⟩
abbrev main_v37 : Ref sig .tc := ⟨.hbm, 58, rfl⟩
abbrev main_c_2 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call1_cst : Ref sig .tc := ⟨.hbm, 66, rfl⟩
abbrev main_call1_v0 : Ref sig .tc := ⟨.hbm, 67, rfl⟩
abbrev main_v44 : Ref sig .tc := ⟨.hbm, 68, rfl⟩
abbrev main_cst_3 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_4 : Ref sig .tc := ⟨.hbm, 90, rfl⟩
abbrev main_v65 : Ref sig .tc := ⟨.hbm, 91, rfl⟩
abbrev main_v66 : Ref sig .tc := ⟨.hbm, 92, rfl⟩
abbrev main_c_5 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_call2_cst : Ref sig .tc := ⟨.hbm, 100, rfl⟩
abbrev main_call2_v0 : Ref sig .tc := ⟨.hbm, 101, rfl⟩
abbrev main_v73 : Ref sig .tc := ⟨.hbm, 102, rfl⟩
abbrev main_cst_6 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_c_7 : Ref sig .tc := ⟨.hbm, 124, rfl⟩
abbrev main_v94 : Ref sig .tc := ⟨.hbm, 125, rfl⟩
abbrev main_v95 : Ref sig .tc := ⟨.hbm, 126, rfl⟩
abbrev main_c_8 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_call3_cst : Ref sig .tc := ⟨.hbm, 134, rfl⟩
abbrev main_call3_v0 : Ref sig .tc := ⟨.hbm, 135, rfl⟩
abbrev main_v102 : Ref sig .tc := ⟨.hbm, 136, rfl⟩
abbrev main_cst_9 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_cst_10 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_cst_11 : Ref sig .tc := ⟨.hbm, 159, rfl⟩
abbrev main_v123 : Ref sig .tc := ⟨.hbm, 160, rfl⟩
abbrev main_cst_12 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_cst_13 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg7_1 : Ref sig .tc := ⟨.vmem, 43, rfl⟩
abbrev cc4_stg0_0 : Ref sig .tc := ⟨.vmem, 44, rfl⟩
abbrev cc4_stg1_0 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem7_1 : DmaSem sig := 43
abbrev cc4_sem0_0 : DmaSem sig := 44
abbrev cc4_sem1_0 : DmaSem sig := 45
abbrev cc4_sem2_0 : DmaSem sig := 46
abbrev cc4_sem3_0 : DmaSem sig := 47
abbrev cc4_sem4_0 : DmaSem sig := 48
abbrev cc4_sem5_0 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S10000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S2000x65 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S65x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S2000x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  slices_S4x16x64_S1x16x64_0_0_0 : S4x16x64.Slices ![0, 0, 0] S1x16x64
  shapeCasts_S1x16x64_S16x64 : S1x16x64.ShapeCasts S16x64
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x64 : S_.BroadcastsInDim S1000000x64 (![] : Fin 0 → Fin S1000000x64.rank)
  bcast_S_S100000x64 : S_.BroadcastsInDim S100000x64 (![] : Fin 0 → Fin S100000x64.rank)
  slices_S4_S1_0 : S4.Slices ![0] S1
  shapeCasts_S1_S_ : S1.ShapeCasts S_
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  shapeCasts_S_S1x1 : S_.ShapeCasts S1x1
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x64 : S1x1.Broadcasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S4x16x64_S1x16x64_1_0_0 : S4x16x64.Slices ![1, 0, 0] S1x16x64
  slices_S4_S1_1 : S4.Slices ![1] S1
  slices_S4x64x64_S1x64x64_1_0_0 : S4x64x64.Slices ![1, 0, 0] S1x64x64
  slices_S4x64_S1x64_1_0 : S4x64.Slices ![1, 0] S1x64
  slices_S4x16x64_S1x16x64_2_0_0 : S4x16x64.Slices ![2, 0, 0] S1x16x64
  slices_S4_S1_2 : S4.Slices ![2] S1
  slices_S4x64x64_S1x64x64_2_0_0 : S4x64x64.Slices ![2, 0, 0] S1x64x64
  slices_S4x64_S1x64_2_0 : S4x64.Slices ![2, 0] S1x64
  slices_S4x16x64_S1x16x64_3_0_0 : S4x16x64.Slices ![3, 0, 0] S1x16x64
  slices_S4_S1_3 : S4.Slices ![3] S1
  slices_S4x64x64_S1x64x64_3_0_0 : S4x64x64.Slices ![3, 0, 0] S1x64x64
  slices_S4x64_S1x64_3_0 : S4x64.Slices ![3, 0] S1x64
  bcast_S_S2000x64 : S_.BroadcastsInDim S2000x64 (![] : Fin 0 → Fin S2000x64.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S2000x1 : S_.BroadcastsInDim S2000x1 (![] : Fin 0 → Fin S2000x1.rank)
  bcast_S2000x1_S2000x64_0_1 : S2000x1.BroadcastsInDim S2000x64 (![0, 1] : Fin 2 → Fin S2000x64.rank)
  bcast_S2000_S2000x1_0 : S2000.BroadcastsInDim S2000x1 (![0] : Fin 1 → Fin S2000x1.rank)
  concatenates_S2000x64_S2000x1_S2000x65_d1 : Shape.Concatenates [S2000x64, S2000x1] S2000x65 1
  shapeCasts_S1_S1x1 : S1.ShapeCasts S1x1
  inb_S2000x65_S2000x65_0_0 : ∀ a, (![0, 0] : Fin 2 → Nat) a + S2000x65.size a ≤ S2000x65.size a
  h_S2000x65 : 0 < S2000x65.numel
  shapeCasts_S2000x65_S2000x65 : S2000x65.ShapeCasts S2000x65
  inb_S65x64_S65x64_0_0 : ∀ a, (![0, 0] : Fin 2 → Nat) a + S65x64.size a ≤ S65x64.size a
  h_S65x64 : 0 < S65x64.numel
  broadcasts_S1x64_S2000x64 : S1x64.Broadcasts S2000x64
  inb_S64x1_S64x1_0_0 : ∀ a, (![0, 0] : Fin 2 → Nat) a + S64x1.size a ≤ S64x1.size a
  h_S64x1 : 0 < S64x1.numel
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  dot_S1000000x16_S16x64_S1000000x64_1_0_0_1_n_n_wf : DotDims.WF S1000000x16 S16x64 S1000000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x64_S10000x64_1_0_0_1_n_n_wf : DotDims.WF S10000x64 S64x64 S10000x64 [1] [0] [0] [1] [] []
  scatter_S2000x64_S100000x1_S100000x64_1_0_0_1_wf : ScatterDims.WF S2000x64 S100000x1 S100000x64 [1] [0] [0] 1
  scatter_S2000x1_S100000x1_S100000x1_1_0_0_1_wf : ScatterDims.WF S2000x1 S100000x1 S100000x1 [1] [0] [0] 1
  dot_S2000x65_S65x64_S2000x64_1_0_0_1_n_n_wf : DotDims.WF S2000x65 S65x64 S2000x64 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x64.size a ≤ S100000x64.size a
  hwx0_7 : ∀ i : grid0.Coords, EltTy.bits .f32 = 32 ∨ (Rect.block (s := S100000x64) S10000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S100000x64.size a
  hwx1_7 : ∀ i : grid1.Coords, EltTy.bits .f32 = 32 ∨ (Rect.block (s := S100000x64) S10000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x64.size a ≤ S100000x64.size a
  hwx2_7 : ∀ i : grid2.Coords, EltTy.bits .f32 = 32 ∨ (Rect.block (s := S100000x64) S10000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S10000x64.size a ≤ S100000x64.size a
  hwx3_7 : ∀ i : grid3.Coords, EltTy.bits .f32 = 32 ∨ (Rect.block (s := S100000x64) S10000x64.size (cc3_transform_7 i) (hinb3_7 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S2000x65.size a ≤ S2000x65.size a
  hwx4_0 : ∀ i : grid4.Coords, EltTy.bits .f32 = 32 ∨ (Rect.block (s := S2000x65) S2000x65.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S65x64.size a ≤ S65x64.size a
  hwx4_1 : ∀ i : grid4.Coords, EltTy.bits .f32 = 32 ∨ (Rect.block (s := S65x64) S65x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x1.size a ≤ S64x1.size a
  hwx4_3 : ∀ i : grid4.Coords, EltTy.bits .f32 = 32 ∨ (Rect.block (s := S64x1) S64x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S2000x1.size a ≤ S2000x1.size a
  hwx4_5 : ∀ i : grid4.Coords, EltTy.bits .f32 = 32 ∨ (Rect.block (s := S2000x1) S2000x1.size (cc4_transform_5 i) (hinb4_5 i)).WholeWords (EltTy.packing .f32)

variable [Facts₀]

def dot_S1000000x16_S16x64_S1000000x64_1_0_0_1_n_n : DotDims S1000000x16 S16x64 S1000000x64 where
  lhsContracting := [1]
  rhsContracting := [0]
  lhsNonContracting := [0]
  rhsNonContracting := [1]
  lhsBatch := []
  rhsBatch := []
  wf := dot_S1000000x16_S16x64_S1000000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S2000x64_S100000x1_S100000x64_1_0_0_1 : ScatterDims S2000x64 S100000x1 S100000x64 where
  updateWindowDims := [1]
  insertedWindowDims := [0]
  scatterDimsToOperandDims := [0]
  indexVectorDim := 1
  wf := scatter_S2000x64_S100000x1_S100000x64_1_0_0_1_wf
def scatter_S2000x1_S100000x1_S100000x1_1_0_0_1 : ScatterDims S2000x1 S100000x1 S100000x1 where
  updateWindowDims := [1]
  insertedWindowDims := [0]
  scatterDimsToOperandDims := [0]
  indexVectorDim := 1
  wf := scatter_S2000x1_S100000x1_S100000x1_1_0_0_1_wf
def dot_S2000x65_S65x64_S2000x64_1_0_0_1_n_n : DotDims S2000x65 S65x64 S2000x64 where
  lhsContracting := [1]
  rhsContracting := [0]
  lhsNonContracting := [0]
  rhsNonContracting := [1]
  lhsBatch := []
  rhsBatch := []
  wf := dot_S2000x65_S65x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S10000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v32) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v58) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v60) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v61) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v61) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v76) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v87) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v80) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v88) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v84) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v89) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v90) S10000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v90) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v105) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v116) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v109) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v117) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v113) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v118) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v119) S10000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v132) S2000x65.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S65x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v133) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg13) S64x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v134) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v135) S2000x1.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S1000000x16 : Shape := ⟨2, ![1000000, 16]⟩
abbrev S100000 : Shape := ⟨1, ![100000]⟩
abbrev S2000 : Shape := ⟨1, ![2000]⟩
abbrev S4x16x64 : Shape := ⟨3, ![4, 16, 64]⟩
abbrev S4x64x64 : Shape := ⟨3, ![4, 64, 64]⟩
abbrev S4x64 : Shape := ⟨2, ![4, 64]⟩
abbrev S4 : Shape := ⟨1, ![4]⟩
abbrev S65x64 : Shape := ⟨2, ![65, 64]⟩
abbrev S64 : Shape := ⟨1, ![64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S1x16x64 : Shape := ⟨3, ![1, 16, 64]⟩
abbrev S16x64 : Shape := ⟨2, ![16, 64]⟩
abbrev S1000000x64 : Shape := ⟨2, ![1000000, 64]⟩
abbrev S_ : Shape := ⟨0, ![]⟩
abbrev S1000000x1 : Shape := ⟨2, ![1000000, 1]⟩
abbrev S1x64x64 : Shape := ⟨3, ![1, 64, 64]⟩
abbrev S64x64 : Shape := ⟨2, ![64, 64]⟩
abbrev S1x64 : Shape := ⟨2, ![1, 64]⟩
abbrev S2000x64 : Shape := ⟨2, ![2000, 64]⟩
abbrev S100000x1 : Shape := ⟨2, ![100000, 1]⟩
abbrev S2000x1 : Shape := ⟨2, ![2000, 1]⟩
abbrev S2000x65 : Shape := ⟨2, ![2000, 65]⟩
abbrev S1x1 : Shape := ⟨2, ![1, 1]⟩

abbrev nBuf : Space → Nat
  | .hbm => 243
  | .vmem => 0
  | .smem => 0
  | _ => 0

abbrev hbmTy0_0 (i : Nat) : BufTy := match i % 128 with
  | 0 => ⟨S100000x64, .f32⟩
  | 1 => ⟨S2x1000000, .i32⟩
  | 2 => ⟨S1000000x16, .f32⟩
  | 3 => ⟨S100000, .i32⟩
  | 4 => ⟨S2000, .f32⟩
  | 5 => ⟨S4x16x64, .f32⟩
  | 6 => ⟨S4x64x64, .f32⟩
  | 7 => ⟨S4x64, .f32⟩
  | 8 => ⟨S4x64x64, .f32⟩
  | 9 => ⟨S4x64, .f32⟩
  | 10 => ⟨S4, .f32⟩
  | 11 => ⟨S65x64, .f32⟩
  | 12 => ⟨S64, .f32⟩
  | 13 => ⟨S64x1, .f32⟩
  | 14 => ⟨S1, .f32⟩
  | 15 => ⟨S1x1000000, .i32⟩
  | 16 => ⟨S1000000, .i32⟩
  | 17 => ⟨S1x1000000, .i32⟩
  | 18 => ⟨S1000000, .i32⟩
  | 19 => ⟨S1x16x64, .f32⟩
  | 20 => ⟨S16x64, .f32⟩
  | 21 => ⟨S1000000x64, .f32⟩
  | 22 => ⟨S_, .i32⟩
  | 23 => ⟨S1000000, .i32⟩
  | 24 => ⟨S1000000, .i1⟩
  | 25 => ⟨S_, .i32⟩
  | 26 => ⟨S1000000, .i32⟩
  | 27 => ⟨S1000000, .i32⟩
  | 28 => ⟨S1000000, .i32⟩
  | 29 => ⟨S1000000x1, .i32⟩
  | 30 => ⟨S1000000x64, .f32⟩
  | 31 => ⟨S1000000x64, .f32⟩
  | 32 => ⟨S_, .f32⟩
  | 33 => ⟨S1000000x64, .f32⟩
  | 34 => ⟨S1000000x64, .f32⟩
  | 35 => ⟨S_, .f32⟩
  | 36 => ⟨S100000x64, .f32⟩
  | 37 => ⟨S1000000x1, .i32⟩
  | 38 => ⟨S100000x64, .f32⟩
  | 39 => ⟨S1, .f32⟩
  | 40 => ⟨S_, .f32⟩
  | 41 => ⟨S_, .f32⟩
  | 42 => ⟨S_, .f32⟩
  | 43 => ⟨S100000x64, .f32⟩
  | 44 => ⟨S100000x64, .f32⟩
  | 45 => ⟨S100000x64, .f32⟩
  | 46 => ⟨S1x64x64, .f32⟩
  | 47 => ⟨S64x64, .f32⟩
  | 48 => ⟨S100000x64, .f32⟩
  | 49 => ⟨S1x64, .f32⟩
  | 50 => ⟨S64, .f32⟩
  | 51 => ⟨S1x64, .f32⟩
  | 52 => ⟨S100000x64, .f32⟩
  | 53 => ⟨S100000x64, .f32⟩
  | 54 => ⟨S_, .f32⟩
  | 55 => ⟨S100000x64, .f32⟩
  | 56 => ⟨S100000x64, .f32⟩
  | 57 => ⟨S1x64x64, .f32⟩
  | 58 => ⟨S64x64, .f32⟩
  | 59 => ⟨S100000x64, .f32⟩
  | 60 => ⟨S1x64, .f32⟩
  | 61 => ⟨S64, .f32⟩
  | 62 => ⟨S1x64, .f32⟩
  | 63 => ⟨S100000x64, .f32⟩
  | 64 => ⟨S100000x64, .f32⟩
  | 65 => ⟨S_, .f32⟩
  | 66 => ⟨S100000x64, .f32⟩
  | 67 => ⟨S100000x64, .f32⟩
  | 68 => ⟨S1x16x64, .f32⟩
  | 69 => ⟨S16x64, .f32⟩
  | 70 => ⟨S1000000x64, .f32⟩
  | 71 => ⟨S_, .i32⟩
  | 72 => ⟨S1000000, .i32⟩
  | 73 => ⟨S1000000, .i1⟩
  | 74 => ⟨S_, .i32⟩
  | 75 => ⟨S1000000, .i32⟩
  | 76 => ⟨S1000000, .i32⟩
  | 77 => ⟨S1000000, .i32⟩
  | 78 => ⟨S1000000x1, .i32⟩
  | 79 => ⟨S1000000x64, .f32⟩
  | 80 => ⟨S1000000x64, .f32⟩
  | 81 => ⟨S_, .f32⟩
  | 82 => ⟨S1000000x64, .f32⟩
  | 83 => ⟨S1000000x64, .f32⟩
  | 84 => ⟨S_, .f32⟩
  | 85 => ⟨S100000x64, .f32⟩
  | 86 => ⟨S1000000x1, .i32⟩
  | 87 => ⟨S100000x64, .f32⟩
  | 88 => ⟨S1, .f32⟩
  | 89 => ⟨S_, .f32⟩
  | 90 => ⟨S_, .f32⟩
  | 91 => ⟨S_, .f32⟩
  | 92 => ⟨S100000x64, .f32⟩
  | 93 => ⟨S100000x64, .f32⟩
  | 94 => ⟨S100000x64, .f32⟩
  | 95 => ⟨S1x64x64, .f32⟩
  | 96 => ⟨S64x64, .f32⟩
  | 97 => ⟨S100000x64, .f32⟩
  | 98 => ⟨S1x64, .f32⟩
  | 99 => ⟨S64, .f32⟩
  | 100 => ⟨S1x64, .f32⟩
  | 101 => ⟨S100000x64, .f32⟩
  | 102 => ⟨S100000x64, .f32⟩
  | 103 => ⟨S_, .f32⟩
  | 104 => ⟨S100000x64, .f32⟩
  | 105 => ⟨S100000x64, .f32⟩
  | 106 => ⟨S1x64x64, .f32⟩
  | 107 => ⟨S64x64, .f32⟩
  | 108 => ⟨S100000x64, .f32⟩
  | 109 => ⟨S1x64, .f32⟩
  | 110 => ⟨S64, .f32⟩
  | 111 => ⟨S1x64, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S1x16x64, .f32⟩
  | 118 => ⟨S16x64, .f32⟩
  | 119 => ⟨S1000000x64, .f32⟩
  | 120 => ⟨S_, .i32⟩
  | 121 => ⟨S1000000, .i32⟩
  | 122 => ⟨S1000000, .i1⟩
  | 123 => ⟨S_, .i32⟩
  | 124 => ⟨S1000000, .i32⟩
  | 125 => ⟨S1000000, .i32⟩
  | 126 => ⟨S1000000, .i32⟩
  | 127 => ⟨S1000000x1, .i32⟩
  | _ => ⟨S100000x64, .f32⟩

abbrev hbmTy0_1 (i : Nat) : BufTy := match i % 128 with
  | 0 => ⟨S1000000x64, .f32⟩
  | 1 => ⟨S1000000x64, .f32⟩
  | 2 => ⟨S_, .f32⟩
  | 3 => ⟨S1000000x64, .f32⟩
  | 4 => ⟨S1000000x64, .f32⟩
  | 5 => ⟨S_, .f32⟩
  | 6 => ⟨S100000x64, .f32⟩
  | 7 => ⟨S1000000x1, .i32⟩
  | 8 => ⟨S100000x64, .f32⟩
  | 9 => ⟨S1, .f32⟩
  | 10 => ⟨S_, .f32⟩
  | 11 => ⟨S_, .f32⟩
  | 12 => ⟨S_, .f32⟩
  | 13 => ⟨S100000x64, .f32⟩
  | 14 => ⟨S100000x64, .f32⟩
  | 15 => ⟨S100000x64, .f32⟩
  | 16 => ⟨S1x64x64, .f32⟩
  | 17 => ⟨S64x64, .f32⟩
  | 18 => ⟨S100000x64, .f32⟩
  | 19 => ⟨S1x64, .f32⟩
  | 20 => ⟨S64, .f32⟩
  | 21 => ⟨S1x64, .f32⟩
  | 22 => ⟨S100000x64, .f32⟩
  | 23 => ⟨S100000x64, .f32⟩
  | 24 => ⟨S_, .f32⟩
  | 25 => ⟨S100000x64, .f32⟩
  | 26 => ⟨S100000x64, .f32⟩
  | 27 => ⟨S1x64x64, .f32⟩
  | 28 => ⟨S64x64, .f32⟩
  | 29 => ⟨S100000x64, .f32⟩
  | 30 => ⟨S1x64, .f32⟩
  | 31 => ⟨S64, .f32⟩
  | 32 => ⟨S1x64, .f32⟩
  | 33 => ⟨S100000x64, .f32⟩
  | 34 => ⟨S100000x64, .f32⟩
  | 35 => ⟨S_, .f32⟩
  | 36 => ⟨S100000x64, .f32⟩
  | 37 => ⟨S100000x64, .f32⟩
  | 38 => ⟨S1x16x64, .f32⟩
  | 39 => ⟨S16x64, .f32⟩
  | 40 => ⟨S1000000x64, .f32⟩
  | 41 => ⟨S_, .i32⟩
  | 42 => ⟨S1000000, .i32⟩
  | 43 => ⟨S1000000, .i1⟩
  | 44 => ⟨S_, .i32⟩
  | 45 => ⟨S1000000, .i32⟩
  | 46 => ⟨S1000000, .i32⟩
  | 47 => ⟨S1000000, .i32⟩
  | 48 => ⟨S1000000x1, .i32⟩
  | 49 => ⟨S1000000x64, .f32⟩
  | 50 => ⟨S1000000x64, .f32⟩
  | 51 => ⟨S_, .f32⟩
  | 52 => ⟨S1000000x64, .f32⟩
  | 53 => ⟨S1000000x64, .f32⟩
  | 54 => ⟨S_, .f32⟩
  | 55 => ⟨S100000x64, .f32⟩
  | 56 => ⟨S1000000x1, .i32⟩
  | 57 => ⟨S100000x64, .f32⟩
  | 58 => ⟨S1, .f32⟩
  | 59 => ⟨S_, .f32⟩
  | 60 => ⟨S_, .f32⟩
  | 61 => ⟨S_, .f32⟩
  | 62 => ⟨S100000x64, .f32⟩
  | 63 => ⟨S100000x64, .f32⟩
  | 64 => ⟨S100000x64, .f32⟩
  | 65 => ⟨S1x64x64, .f32⟩
  | 66 => ⟨S64x64, .f32⟩
  | 67 => ⟨S100000x64, .f32⟩
  | 68 => ⟨S1x64, .f32⟩
  | 69 => ⟨S64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S1x64x64, .f32⟩
  | 77 => ⟨S64x64, .f32⟩
  | 78 => ⟨S100000x64, .f32⟩
  | 79 => ⟨S1x64, .f32⟩
  | 80 => ⟨S64, .f32⟩
  | 81 => ⟨S1x64, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S_, .f32⟩
  | 88 => ⟨S2000x64, .f32⟩
  | 89 => ⟨S100000x1, .i32⟩
  | 90 => ⟨S2000x64, .f32⟩
  | 91 => ⟨S_, .f32⟩
  | 92 => ⟨S100000x1, .f32⟩
  | 93 => ⟨S_, .f32⟩
  | 94 => ⟨S2000x1, .f32⟩
  | 95 => ⟨S100000x1, .i32⟩
  | 96 => ⟨S2000x1, .f32⟩
  | 97 => ⟨S_, .f32⟩
  | 98 => ⟨S2000x1, .f32⟩
  | 99 => ⟨S2000x1, .f32⟩
  | 100 => ⟨S2000x64, .f32⟩
  | 101 => ⟨S2000x64, .f32⟩
  | 102 => ⟨S2000x1, .f32⟩
  | 103 => ⟨S2000x65, .f32⟩
  | 104 => ⟨S2000x64, .f32⟩
  | 105 => ⟨S1x64, .f32⟩
  | 106 => ⟨S2000x64, .f32⟩
  | 107 => ⟨S2000x64, .f32⟩
  | 108 => ⟨S_, .f32⟩
  | 109 => ⟨S2000x64, .f32⟩
  | 110 => ⟨S2000x64, .f32⟩
  | 111 => ⟨S2000x1, .f32⟩
  | 112 => ⟨S1x1, .f32⟩
  | 113 => ⟨S2000x1, .f32⟩
  | 114 => ⟨S2000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call0_cst : Ref sig .tc := ⟨.hbm, 32, rfl⟩
abbrev main_call0_v0 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_1 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call1_cst : Ref sig .tc := ⟨.hbm, 54, rfl⟩
abbrev main_call1_v0 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call2_cst : Ref sig .tc := ⟨.hbm, 65, rfl⟩
abbrev main_call2_v0 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_2 : Ref sig .tc := ⟨.hbm, 71, rfl⟩
abbrev main_v46 : Ref sig .tc := ⟨.hbm, 72, rfl⟩
abbrev main_v47 : Ref sig .tc := ⟨.hbm, 73, rfl⟩
abbrev main_c_3 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call3_cst : Ref sig .tc := ⟨.hbm, 81, rfl⟩
abbrev main_call3_v0 : Ref sig .tc := ⟨.hbm, 82, rfl⟩
abbrev main_v54 : Ref sig .tc := ⟨.hbm, 83, rfl⟩
abbrev main_cst_4 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_5 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_call4_cst : Ref sig .tc := ⟨.hbm, 103, rfl⟩
abbrev main_call4_v0 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_call5_cst : Ref sig .tc := ⟨.hbm, 114, rfl⟩
abbrev main_call5_v0 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_c_6 : Ref sig .tc := ⟨.hbm, 120, rfl⟩
abbrev main_v85 : Ref sig .tc := ⟨.hbm, 121, rfl⟩
abbrev main_v86 : Ref sig .tc := ⟨.hbm, 122, rfl⟩
abbrev main_c_7 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_call6_cst : Ref sig .tc := ⟨.hbm, 130, rfl⟩
abbrev main_call6_v0 : Ref sig .tc := ⟨.hbm, 131, rfl⟩
abbrev main_v93 : Ref sig .tc := ⟨.hbm, 132, rfl⟩
abbrev main_cst_8 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_9 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_call7_cst : Ref sig .tc := ⟨.hbm, 152, rfl⟩
abbrev main_call7_v0 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_call8_cst : Ref sig .tc := ⟨.hbm, 163, rfl⟩
abbrev main_call8_v0 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_c_10 : Ref sig .tc := ⟨.hbm, 169, rfl⟩
abbrev main_v124 : Ref sig .tc := ⟨.hbm, 170, rfl⟩
abbrev main_v125 : Ref sig .tc := ⟨.hbm, 171, rfl⟩
abbrev main_c_11 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_call9_cst : Ref sig .tc := ⟨.hbm, 179, rfl⟩
abbrev main_call9_v0 : Ref sig .tc := ⟨.hbm, 180, rfl⟩
abbrev main_v132 : Ref sig .tc := ⟨.hbm, 181, rfl⟩
abbrev main_cst_12 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_cst_13 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_call10_cst : Ref sig .tc := ⟨.hbm, 201, rfl⟩
abbrev main_call10_v0 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_call11_cst : Ref sig .tc := ⟨.hbm, 212, rfl⟩
abbrev main_call11_v0 : Ref sig .tc := ⟨.hbm, 213, rfl⟩
abbrev main_v159 : Ref sig .tc := ⟨.hbm, 214, rfl⟩
abbrev main_cst_14 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_cst_15 : Ref sig .tc := ⟨.hbm, 219, rfl⟩
abbrev main_v163 : Ref sig .tc := ⟨.hbm, 220, rfl⟩
abbrev main_cst_16 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_cst_17 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_call12_cst : Ref sig .tc := ⟨.hbm, 236, rfl⟩
abbrev main_call12_v0 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  slices_S4x16x64_S1x16x64_0_0_0 : S4x16x64.Slices ![0, 0, 0] S1x16x64
  shapeCasts_S1x16x64_S16x64 : S1x16x64.ShapeCasts S16x64
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x64 : S_.BroadcastsInDim S1000000x64 (![] : Fin 0 → Fin S1000000x64.rank)
  bcast_S_S100000x64 : S_.BroadcastsInDim S100000x64 (![] : Fin 0 → Fin S100000x64.rank)
  slices_S4_S1_0 : S4.Slices ![0] S1
  shapeCasts_S1_S_ : S1.ShapeCasts S_
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S4x16x64_S1x16x64_1_0_0 : S4x16x64.Slices ![1, 0, 0] S1x16x64
  slices_S4_S1_1 : S4.Slices ![1] S1
  slices_S4x64x64_S1x64x64_1_0_0 : S4x64x64.Slices ![1, 0, 0] S1x64x64
  slices_S4x64_S1x64_1_0 : S4x64.Slices ![1, 0] S1x64
  slices_S4x16x64_S1x16x64_2_0_0 : S4x16x64.Slices ![2, 0, 0] S1x16x64
  slices_S4_S1_2 : S4.Slices ![2] S1
  slices_S4x64x64_S1x64x64_2_0_0 : S4x64x64.Slices ![2, 0, 0] S1x64x64
  slices_S4x64_S1x64_2_0 : S4x64.Slices ![2, 0] S1x64
  slices_S4x16x64_S1x16x64_3_0_0 : S4x16x64.Slices ![3, 0, 0] S1x16x64
  slices_S4_S1_3 : S4.Slices ![3] S1
  slices_S4x64x64_S1x64x64_3_0_0 : S4x64x64.Slices ![3, 0, 0] S1x64x64
  slices_S4x64_S1x64_3_0 : S4x64.Slices ![3, 0] S1x64
  bcast_S_S2000x64 : S_.BroadcastsInDim S2000x64 (![] : Fin 0 → Fin S2000x64.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S2000x1 : S_.BroadcastsInDim S2000x1 (![] : Fin 0 → Fin S2000x1.rank)
  bcast_S2000x1_S2000x64_0_1 : S2000x1.BroadcastsInDim S2000x64 (![0, 1] : Fin 2 → Fin S2000x64.rank)
  bcast_S2000_S2000x1_0 : S2000.BroadcastsInDim S2000x1 (![0] : Fin 1 → Fin S2000x1.rank)
  concatenates_S2000x64_S2000x1_S2000x65_d1 : Shape.Concatenates [S2000x64, S2000x1] S2000x65 1
  bcast_S1x64_S2000x64_0_1 : S1x64.BroadcastsInDim S2000x64 (![0, 1] : Fin 2 → Fin S2000x64.rank)
  bcast_S1_S1x1_1 : S1.BroadcastsInDim S1x1 (![1] : Fin 1 → Fin S1x1.rank)
  bcast_S1x1_S2000x1_0_1 : S1x1.BroadcastsInDim S2000x1 (![0, 1] : Fin 2 → Fin S2000x1.rank)
  dot_S1000000x16_S16x64_S1000000x64_1_0_0_1_n_n_wf : DotDims.WF S1000000x16 S16x64 S1000000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  scatter_S2000x64_S100000x1_S100000x64_1_0_0_1_wf : ScatterDims.WF S2000x64 S100000x1 S100000x64 [1] [0] [0] 1
  scatter_S2000x1_S100000x1_S100000x1_1_0_0_1_wf : ScatterDims.WF S2000x1 S100000x1 S100000x1 [1] [0] [0] 1
  dot_S2000x65_S65x64_S2000x64_1_0_0_1_n_n_wf : DotDims.WF S2000x65 S65x64 S2000x64 [1] [0] [0] [1] [] []
  dot_S2000x64_S64x1_S2000x1_1_0_0_1_n_n_wf : DotDims.WF S2000x64 S64x1 S2000x1 [1] [0] [0] [1] [] []

variable [Facts₀]

def dot_S1000000x16_S16x64_S1000000x64_1_0_0_1_n_n : DotDims S1000000x16 S16x64 S1000000x64 where
  lhsContracting := [1]
  rhsContracting := [0]
  lhsNonContracting := [0]
  rhsNonContracting := [1]
  lhsBatch := []
  rhsBatch := []
  wf := dot_S1000000x16_S16x64_S1000000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S2000x64_S100000x1_S100000x64_1_0_0_1 : ScatterDims S2000x64 S100000x1 S100000x64 where
  updateWindowDims := [1]
  insertedWindowDims := [0]
  scatterDimsToOperandDims := [0]
  indexVectorDim := 1
  wf := scatter_S2000x64_S100000x1_S100000x64_1_0_0_1_wf
def scatter_S2000x1_S100000x1_S100000x1_1_0_0_1 : ScatterDims S2000x1 S100000x1 S100000x1 where
  updateWindowDims := [1]
  insertedWindowDims := [0]
  scatterDimsToOperandDims := [0]
  indexVectorDim := 1
  wf := scatter_S2000x1_S100000x1_S100000x1_1_0_0_1_wf
def dot_S2000x65_S65x64_S2000x64_1_0_0_1_n_n : DotDims S2000x65 S65x64 S2000x64 where
  lhsContracting := [1]
  rhsContracting := [0]
  lhsNonContracting := [0]
  rhsNonContracting := [1]
  lhsBatch := []
  rhsBatch := []
  wf := dot_S2000x65_S65x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

class Facts : Prop extends Facts₀ where

variable [Facts]
-- ==== Proof.KWrites.lean ====
/-
  Which buffers each stretch of host operations writes, and hence which it leaves alone.

  @main's host operations come in thirteen stretches (three before each of the four node-update regions: the edge
  projection and gather, the rectifier, the scatter-add and the parameter slices; one before the head).  Each operation
  writes its own result buffer and nothing else, so a buffer that is not a result of a stretch holds after the stretch
  what it held before.  The lists below name each stretch's result buffers; `keep0` … `keep4` say that a buffer outside a
  layer's three lists (outside the head stretch's list) is unchanged by them.
-/
import proofs.«143737_j50861002719555_2_alg».proof.Proof.Gen.KernelIdeal.Frame

set_option maxRecDepth 16384

noncomputable section

namespace Cert.KernelIdeal.Host

open Cert.KernelIdeal Cert.KernelIdeal.Gen Idealize.ShloMosaic Idealize.ShloMosaic.TcCoe Idealize.SL.Sem

variable {F : FTy → Type} [FloatOps F]

/-- The result buffers of `hostOps0`. -/
abbrev L0 : List (Ref sig .tc) := [main_v0, main_v1, main_v2, main_v3, main_v4, main_v5, main_v6, main_c, main_v7, main_v8, main_c_0, main_v9, main_v10, main_v11, main_v12, main_v13, main_v14]
theorem writes0 : (hostOps0 : List (HloOp τ sig (Elt F))).Forall fun op => op.writes ⊆ ((L0).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The result buffers of `hostOps0_1`. -/
abbrev L0_1 : List (Ref sig .tc) := [main_call0_cst, main_call0_v0, main_v15]
theorem writes0_1 : (hostOps0_1 : List (HloOp τ sig (Elt F))).Forall fun op => op.writes ⊆ ((L0_1).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The result buffers of `hostOps0_2`. -/
abbrev L0_2 : List (Ref sig .tc) := [main_cst, main_v16, main_v17, main_v18, main_v19, main_v20, main_v21, main_v22, main_v23, main_v24, main_v25, main_v26, main_v27, main_v28, main_v29, main_v30, main_v31]
theorem writes0_2 : (hostOps0_2 : List (HloOp τ sig (Elt F))).Forall fun op => op.writes ⊆ ((L0_2).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The result buffers of `hostOps1`. -/
abbrev L1 : List (Ref sig .tc) := [main_v33, main_v34, main_v35, main_c_1, main_v36, main_v37, main_c_2, main_v38, main_v39, main_v40, main_v41, main_v42, main_v43]
theorem writes1 : (hostOps1 : List (HloOp τ sig (Elt F))).Forall fun op => op.writes ⊆ ((L1).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The result buffers of `hostOps1_1`. -/
abbrev L1_1 : List (Ref sig .tc) := [main_call1_cst, main_call1_v0, main_v44]
theorem writes1_1 : (hostOps1_1 : List (HloOp τ sig (Elt F))).Forall fun op => op.writes ⊆ ((L1_1).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The result buffers of `hostOps1_2`. -/
abbrev L1_2 : List (Ref sig .tc) := [main_cst_3, main_v45, main_v46, main_v47, main_v48, main_v49, main_v50, main_v51, main_v52, main_v53, main_v54, main_v55, main_v56, main_v57, main_v58, main_v59, main_v60]
theorem writes1_2 : (hostOps1_2 : List (HloOp τ sig (Elt F))).Forall fun op => op.writes ⊆ ((L1_2).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The result buffers of `hostOps2`. -/
abbrev L2 : List (Ref sig .tc) := [main_v62, main_v63, main_v64, main_c_4, main_v65, main_v66, main_c_5, main_v67, main_v68, main_v69, main_v70, main_v71, main_v72]
theorem writes2 : (hostOps2 : List (HloOp τ sig (Elt F))).Forall fun op => op.writes ⊆ ((L2).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The result buffers of `hostOps2_1`. -/
abbrev L2_1 : List (Ref sig .tc) := [main_call2_cst, main_call2_v0, main_v73]
theorem writes2_1 : (hostOps2_1 : List (HloOp τ sig (Elt F))).Forall fun op => op.writes ⊆ ((L2_1).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The result buffers of `hostOps2_2`. -/
abbrev L2_2 : List (Ref sig .tc) := [main_cst_6, main_v74, main_v75, main_v76, main_v77, main_v78, main_v79, main_v80, main_v81, main_v82, main_v83, main_v84, main_v85, main_v86, main_v87, main_v88, main_v89]
theorem writes2_2 : (hostOps2_2 : List (HloOp τ sig (Elt F))).Forall fun op => op.writes ⊆ ((L2_2).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The result buffers of `hostOps3`. -/
abbrev L3 : List (Ref sig .tc) := [main_v91, main_v92, main_v93, main_c_7, main_v94, main_v95, main_c_8, main_v96, main_v97, main_v98, main_v99, main_v100, main_v101]
theorem writes3 : (hostOps3 : List (HloOp τ sig (Elt F))).Forall fun op => op.writes ⊆ ((L3).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The result buffers of `hostOps3_1`. -/
abbrev L3_1 : List (Ref sig .tc) := [main_call3_cst, main_call3_v0, main_v102]
theorem writes3_1 : (hostOps3_1 : List (HloOp τ sig (Elt F))).Forall fun op => op.writes ⊆ ((L3_1).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The result buffers of `hostOps3_2`. -/
abbrev L3_2 : List (Ref sig .tc) := [main_cst_9, main_v103, main_v104, main_v105, main_v106, main_v107, main_v108, main_v109, main_v110, main_v111, main_v112, main_v113, main_v114, main_v115, main_v116, main_v117, main_v118]
theorem writes3_2 : (hostOps3_2 : List (HloOp τ sig (Elt F))).Forall fun op => op.writes ⊆ ((L3_2).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The result buffers of `hostOps4`. -/
abbrev L4 : List (Ref sig .tc) := [main_cst_10, main_v120, main_v121, main_v122, main_cst_11, main_v123, main_cst_12, main_v124, main_v125, main_v126, main_cst_13, main_v127, main_v128, main_v129, main_v130, main_v131, main_v132, main_v133, main_v134]
theorem writes4 : (hostOps4 : List (HloOp τ sig (Elt F))).Forall fun op => op.writes ⊆ ((L4).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer none of layer 1's three stretches writes is unchanged by them. -/
theorem keep0 (Wb : Valuation τ sig (Elt F)) (r : Ref sig .tc) (h0 : r ∉ L0) (h1 : r ∉ L0_1) (h2 : r ∉ L0_2) :
    StableHlo.after hostOps0_2 (StableHlo.after hostOps0_1 (StableHlo.after hostOps0 Wb)) (Proc.devRef .tc r) = Wb (Proc.devRef .tc r) :=
  (StableHlo.after_of_writes_sub hostOps0_2 _ writes0_2 h2).trans
    ((StableHlo.after_of_writes_sub hostOps0_1 _ writes0_1 h1).trans (StableHlo.after_of_writes_sub hostOps0 _ writes0 h0))

/-- A buffer none of layer 2's three stretches writes is unchanged by them. -/
theorem keep1 (Wb : Valuation τ sig (Elt F)) (r : Ref sig .tc) (h0 : r ∉ L1) (h1 : r ∉ L1_1) (h2 : r ∉ L1_2) :
    StableHlo.after hostOps1_2 (StableHlo.after hostOps1_1 (StableHlo.after hostOps1 Wb)) (Proc.devRef .tc r) = Wb (Proc.devRef .tc r) :=
  (StableHlo.after_of_writes_sub hostOps1_2 _ writes1_2 h2).trans
    ((StableHlo.after_of_writes_sub hostOps1_1 _ writes1_1 h1).trans (StableHlo.after_of_writes_sub hostOps1 _ writes1 h0))

/-- A buffer none of layer 3's three stretches writes is unchanged by them. -/
theorem keep2 (Wb : Valuation τ sig (Elt F)) (r : Ref sig .tc) (h0 : r ∉ L2) (h1 : r ∉ L2_1) (h2 : r ∉ L2_2) :
    StableHlo.after hostOps2_2 (StableHlo.after hostOps2_1 (StableHlo.after hostOps2 Wb)) (Proc.devRef .tc r) = Wb (Proc.devRef .tc r) :=
  (StableHlo.after_of_writes_sub hostOps2_2 _ writes2_2 h2).trans
    ((StableHlo.after_of_writes_sub hostOps2_1 _ writes2_1 h1).trans (StableHlo.after_of_writes_sub hostOps2 _ writes2 h0))

/-- A buffer none of layer 4's three stretches writes is unchanged by them. -/
theorem keep3 (Wb : Valuation τ sig (Elt F)) (r : Ref sig .tc) (h0 : r ∉ L3) (h1 : r ∉ L3_1) (h2 : r ∉ L3_2) :
    StableHlo.after hostOps3_2 (StableHlo.after hostOps3_1 (StableHlo.after hostOps3 Wb)) (Proc.devRef .tc r) = Wb (Proc.devRef .tc r) :=
  (StableHlo.after_of_writes_sub hostOps3_2 _ writes3_2 h2).trans
    ((StableHlo.after_of_writes_sub hostOps3_1 _ writes3_1 h1).trans (StableHlo.after_of_writes_sub hostOps3 _ writes3 h0))

/-- A buffer the head's stretch does not write is unchanged by it. -/
theorem keep4 (Wb : Valuation τ sig (Elt F)) (r : Ref sig .tc) (h0 : r ∉ L4) :
    StableHlo.after hostOps4 Wb (Proc.devRef .tc r) = Wb (Proc.devRef .tc r) :=
  StableHlo.after_of_writes_sub hostOps4 _ writes4 h0

end Cert.KernelIdeal.Host

end
-- ==== Proof.HostChain.lean ====
/-
  The host-side chain of the network, as functions of tables (written with the reference program's own dimension
  records and side-condition witnesses; all at the extended reals).

  * `edgeRow`, `srcCol`, `dstCol`: a row of the 2 × 1000000 edge list as a vector of node numbers; the source numbers
    (negative ones wrapped by the table's height, as `x[src]` spells it) and the target numbers as columns.
  * `aggrOf X s d ea lin` (over the two vectors of node numbers) and `aggr X ei ea lin` (over the edge list): the messages  max(X[src] + ea · lin, 0)  summed at their targets into a 100000 × 64 table.
  * `linOf`, `matOf`, `vecOf`, `epsOf`: layer l's slice of a stacked parameter.
  * `hostNode`: the node update  max(max(((1 + e) · X + A) · W1 + b1, 0) · W2 + b2, 0)  as the reference spells it on whole
    tables.
  * `pooled`, `headIn`, `hostHead`: mean pooling by graph, the time feature appended as column 64, and the read-out.
-/
import proofs.«143737_j50861002719555_2_alg».proof.ReferenceIdeal
import proofs.«143737_j50861002719555_2_alg».proof.Proof.Gen.ReferenceIdeal
import Idealize.ShloMosaic.PureOps.Ideal

noncomputable section

namespace Cert.Gnn

open Cert.ReferenceIdeal Cert.ReferenceIdeal.Gen Idealize.ShloMosaic

def edgeRow (ei : IVec S2x1000000 32) (k : Nat) (h : S2x1000000.Slices ![k, 0] S1x1000000) : IVec S1000000 32 :=
  shapeCast S1000000 (extractStridedSlice S1x1000000 ![k, 0] ei h) shapeCasts_S1x1000000_S1000000

def srcCol (s : IVec S1000000 32) : IVec S1000000x1 32 :=
  broadcastInDim S1000000x1 ![0] bcast_S1000000_S1000000x1_0
    (select (cmpi .slt s (broadcastInDim S1000000 ![] bcast_S_S1000000 (constantI S_ 32 0#32)))
      (addi s (broadcastInDim S1000000 ![] bcast_S_S1000000 (constantI S_ 32 100000#32))) s)

def dstCol (d : IVec S1000000 32) : IVec S1000000x1 32 :=
  broadcastInDim S1000000x1 ![0] bcast_S1000000_S1000000x1_0 d

def aggrOf (X : FVec Ideal S100000x64 .f32) (s d : IVec S1000000 32) (ea : FVec Ideal S1000000x16 .f32)
    (lin : FVec Ideal S16x64 .f32) : FVec Ideal S100000x64 .f32 :=
  Host.scatterAdd scatter_S100000x64_S1000000x1_S1000000x64_1_0_0_1
    (broadcastInDim S100000x64 ![] bcast_S_S100000x64 (constant S_ .f32 0x00000000#32)) (dstCol d)
    (maximumf (addf (Host.gather gather_S100000x64_S1000000x1_S1000000x64_1_0_n_n_0_1_164 X (srcCol s))
        (Host.dotGeneral dot_S1000000x16_S16x64_S1000000x64_1_0_0_1_n_n none ea lin))
      (broadcastInDim S1000000x64 ![] bcast_S_S1000000x64 (constant S_ .f32 0x00000000#32)))

def aggr (X : FVec Ideal S100000x64 .f32) (ei : IVec S2x1000000 32) (ea : FVec Ideal S1000000x16 .f32)
    (lin : FVec Ideal S16x64 .f32) : FVec Ideal S100000x64 .f32 :=
  aggrOf X (edgeRow ei 0 slices_S2x1000000_S1x1000000_0_0) (edgeRow ei 1 slices_S2x1000000_S1x1000000_1_0) ea lin

def linOf (lin : FVec Ideal S4x16x64 .f32) (l : Nat) (h : S4x16x64.Slices ![l, 0, 0] S1x16x64) : FVec Ideal S16x64 .f32 :=
  shapeCast S16x64 (extractStridedSlice S1x16x64 ![l, 0, 0] lin h) shapeCasts_S1x16x64_S16x64
def matOf (W : FVec Ideal S4x64x64 .f32) (l : Nat) (h : S4x64x64.Slices ![l, 0, 0] S1x64x64) : FVec Ideal S64x64 .f32 :=
  shapeCast S64x64 (extractStridedSlice S1x64x64 ![l, 0, 0] W h) shapeCasts_S1x64x64_S64x64
def vecOf (b : FVec Ideal S4x64 .f32) (l : Nat) (h : S4x64.Slices ![l, 0] S1x64) : FVec Ideal S64 .f32 :=
  shapeCast S64 (extractStridedSlice S1x64 ![l, 0] b h) shapeCasts_S1x64_S64
def epsOf (e : FVec Ideal S4 .f32) (l : Nat) (h : S4.Slices ![l] S1) : FVec Ideal S_ .f32 :=
  shapeCast S_ (extractStridedSlice S1 ![l] e h) shapeCasts_S1_S_

def hostNode (X A : FVec Ideal S100000x64 .f32) (e : FVec Ideal S_ .f32) (W1 : FVec Ideal S64x64 .f32) (b1 : FVec Ideal S64 .f32)
    (W2 : FVec Ideal S64x64 .f32) (b2 : FVec Ideal S64 .f32) : FVec Ideal S100000x64 .f32 :=
  maximumf (addf (Host.dotGeneral dot_S100000x64_S64x64_S100000x64_1_0_0_1_n_n none
      (maximumf (addf (Host.dotGeneral dot_S100000x64_S64x64_S100000x64_1_0_0_1_n_n none
          (addf (mulf (broadcastInDim S100000x64 ![] bcast_S_S100000x64 (addf (constant S_ .f32 0x3F800000#32) e)) X) A) W1)
          (broadcastInDim S100000x64 ![0, 1] bcast_S1x64_S100000x64_0_1 (broadcastInDim S1x64 ![1] bcast_S64_S1x64_1 b1)))
        (broadcastInDim S100000x64 ![] bcast_S_S100000x64 (constant S_ .f32 0x00000000#32))) W2)
      (broadcastInDim S100000x64 ![0, 1] bcast_S1x64_S100000x64_0_1 (broadcastInDim S1x64 ![1] bcast_S64_S1x64_1 b2)))
    (broadcastInDim S100000x64 ![] bcast_S_S100000x64 (constant S_ .f32 0x00000000#32))

def pooled (X : FVec Ideal S100000x64 .f32) (batch : IVec S100000 32) : FVec Ideal S2000x64 .f32 :=
  Host.divf (Host.scatterAdd scatter_S2000x64_S100000x1_S100000x64_1_0_0_1
      (broadcastInDim S2000x64 ![] bcast_S_S2000x64 (constant S_ .f32 0x00000000#32))
      (broadcastInDim S100000x1 ![0] bcast_S100000_S100000x1_0 batch) X)
    (broadcastInDim S2000x64 ![0, 1] bcast_S2000x1_S2000x64_0_1
      (maximumf (Host.scatterAdd scatter_S2000x1_S100000x1_S100000x1_1_0_0_1
          (broadcastInDim S2000x1 ![] bcast_S_S2000x1 (constant S_ .f32 0x00000000#32))
          (broadcastInDim S100000x1 ![0] bcast_S100000_S100000x1_0 batch)
          (broadcastInDim S100000x1 ![] bcast_S_S100000x1 (constant S_ .f32 0x3F800000#32)))
        (broadcastInDim S2000x1 ![] bcast_S_S2000x1 (constant S_ .f32 0x3F800000#32))))

def headIn (P : FVec Ideal S2000x64 .f32) (tc : FVec Ideal S2000 .f32) : FVec Ideal S2000x65 .f32 :=
  concatenate S2000x65 1 [⟨S2000x64, P⟩, ⟨S2000x1, broadcastInDim S2000x1 ![0] bcast_S2000_S2000x1_0 tc⟩]
    concatenates_S2000x64_S2000x1_S2000x65_d1

def hostHead (H : FVec Ideal S2000x65 .f32) (W1 : FVec Ideal S65x64 .f32) (b1 : FVec Ideal S64 .f32) (W2 : FVec Ideal S64x1 .f32)
    (b2 : FVec Ideal S1 .f32) : FVec Ideal S2000x1 .f32 :=
  addf (Host.dotGeneral dot_S2000x64_S64x1_S2000x1_1_0_0_1_n_n none
      (maximumf (addf (Host.dotGeneral dot_S2000x65_S65x64_S2000x64_1_0_0_1_n_n none H W1)
          (broadcastInDim S2000x64 ![0, 1] bcast_S1x64_S2000x64_0_1 (broadcastInDim S1x64 ![1] bcast_S64_S1x64_1 b1)))
        (broadcastInDim S2000x64 ![] bcast_S_S2000x64 (constant S_ .f32 0x00000000#32))) W2)
    (broadcastInDim S2000x1 ![0, 1] bcast_S1x1_S2000x1_0_1 (broadcastInDim S1x1 ![1] bcast_S1_S1x1_1 b2))

/-- One layer on whole tables: the messages aggregated, then the node update, with layer l's slices of the stacked
    parameters. -/
def layer (l : Nat) (h5 : S4x16x64.Slices ![l, 0, 0] S1x16x64) (h6 : S4x64x64.Slices ![l, 0, 0] S1x64x64)
    (h7 : S4x64.Slices ![l, 0] S1x64) (h10 : S4.Slices ![l] S1)
    (X : FVec Ideal S100000x64 .f32) (ei : IVec S2x1000000 32) (ea : FVec Ideal S1000000x16 .f32)
    (lin : FVec Ideal S4x16x64 .f32) (W1 : FVec Ideal S4x64x64 .f32) (b1 : FVec Ideal S4x64 .f32)
    (W2 : FVec Ideal S4x64x64 .f32) (b2 : FVec Ideal S4x64 .f32) (eps : FVec Ideal S4 .f32) : FVec Ideal S100000x64 .f32 :=
  hostNode X (aggr X ei ea (linOf lin l h5)) (epsOf eps l h10) (matOf W1 l h6) (vecOf b1 l h7) (matOf W2 l h6) (vecOf b2 l h7)

/-- The whole network on whole tables. -/
def network (x : FVec Ideal S100000x64 .f32) (ei : IVec S2x1000000 32) (ea : FVec Ideal S1000000x16 .f32) (batch : IVec S100000 32)
    (tc : FVec Ideal S2000 .f32) (lin : FVec Ideal S4x16x64 .f32) (W1 : FVec Ideal S4x64x64 .f32) (b1 : FVec Ideal S4x64 .f32)
    (W2 : FVec Ideal S4x64x64 .f32) (b2 : FVec Ideal S4x64 .f32) (eps : FVec Ideal S4 .f32) (hW1 : FVec Ideal S65x64 .f32)
    (hb1 : FVec Ideal S64 .f32) (hW2 : FVec Ideal S64x1 .f32) (hb2 : FVec Ideal S1 .f32) : FVec Ideal S2000x1 .f32 :=
  hostHead (headIn (pooled
    (layer 3 slices_S4x16x64_S1x16x64_3_0_0 slices_S4x64x64_S1x64x64_3_0_0 slices_S4x64_S1x64_3_0 slices_S4_S1_3
      (layer 2 slices_S4x16x64_S1x16x64_2_0_0 slices_S4x64x64_S1x64x64_2_0_0 slices_S4x64_S1x64_2_0 slices_S4_S1_2
        (layer 1 slices_S4x16x64_S1x16x64_1_0_0 slices_S4x64x64_S1x64x64_1_0_0 slices_S4x64_S1x64_1_0 slices_S4_S1_1
          (layer 0 slices_S4x16x64_S1x16x64_0_0_0 slices_S4x64x64_S1x64x64_0_0_0 slices_S4x64_S1x64_0_0 slices_S4_S1_0
            x ei ea lin W1 b1 W2 b2 eps)
          ei ea lin W1 b1 W2 b2 eps)
        ei ea lin W1 b1 W2 b2 eps)
      ei ea lin W1 b1 W2 b2 eps) batch) tc) hW1 hb1 hW2 hb2

end Cert.Gnn

end
-- ==== Proof.KEntry.lean ====
/-
  What each kernel region finds in its tables, as the host chain's functions (HostChain.lean) of what the buffers
  held before the layer's host operations.

  Before a node-update region the host computes, from the feature table X and the edge list's two rows, the aggregated
  messages, and slices the layer's scalar, weights and biases out of the stacked parameters (the scalar cast to a
  1 × 1 table, each bias to a one-row table).  Before the head it pools the last feature table by graph, appends the time
  feature, and casts the two biases.  Each statement below reads one such buffer after the layer's stretches from an
  arbitrary valuation `Wb` before them: the operations' composed term, which is the host chain's function by unfolding.
-/
import proofs.«143737_j50861002719555_2_alg».proof.Proof.Gen.KernelIdeal.Frame
import proofs.«143737_j50861002719555_2_alg».proof.Proof.HostChain

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable (Wb : Valuation τ sig (Elt Ideal))

/-! ## Layer 1: the edge list's rows are read here -/

set_option maxHeartbeats 4000000 in
theorem e0_v1 : StableHlo.after hostOps0_2 (StableHlo.after hostOps0_1 (StableHlo.after hostOps0 Wb)) (Proc.devRef .tc main_v1)
    = Cert.Gnn.edgeRow (Wb (Proc.devRef .tc main_arg1)) 0 Cert.ReferenceIdeal.Gen.slices_S2x1000000_S1x1000000_0_0 := by
  after_results_simp
  rfl
set_option maxHeartbeats 4000000 in
theorem e0_v3 : StableHlo.after hostOps0_2 (StableHlo.after hostOps0_1 (StableHlo.after hostOps0 Wb)) (Proc.devRef .tc main_v3)
    = Cert.Gnn.edgeRow (Wb (Proc.devRef .tc main_arg1)) 1 Cert.ReferenceIdeal.Gen.slices_S2x1000000_S1x1000000_1_0 := by
  after_results_simp
  rfl
set_option maxHeartbeats 4000000 in
theorem e0_aggr : StableHlo.after hostOps0_2 (StableHlo.after hostOps0_1 (StableHlo.after hostOps0 Wb)) (Proc.devRef .tc main_v18)
    = Cert.Gnn.aggr (Wb (Proc.devRef .tc main_arg0)) (Wb (Proc.devRef .tc main_arg1)) (Wb (Proc.devRef .tc main_arg2))
        (Cert.Gnn.linOf (Wb (Proc.devRef .tc main_arg5)) 0 Cert.ReferenceIdeal.Gen.slices_S4x16x64_S1x16x64_0_0_0) := by
  after_results_simp
  rfl
set_option maxHeartbeats 4000000 in
theorem e0_eps : StableHlo.after hostOps0_2 (StableHlo.after hostOps0_1 (StableHlo.after hostOps0 Wb)) (Proc.devRef .tc main_v29)
    = shapeCast S1x1 (Cert.Gnn.epsOf (Wb (Proc.devRef .tc main_arg10)) 0 Cert.ReferenceIdeal.Gen.slices_S4_S1_0) shapeCasts_S_S1x1 := by
  after_results_simp
  rfl
set_option maxHeartbeats 4000000 in
theorem e0_w1 : StableHlo.after hostOps0_2 (StableHlo.after hostOps0_1 (StableHlo.after hostOps0 Wb)) (Proc.devRef .tc main_v22)
    = Cert.Gnn.matOf (Wb (Proc.devRef .tc main_arg6)) 0 Cert.ReferenceIdeal.Gen.slices_S4x64x64_S1x64x64_0_0_0 := by
  after_results_simp
  rfl
set_option maxHeartbeats 4000000 in
theorem e0_b1 : StableHlo.after hostOps0_2 (StableHlo.after hostOps0_1 (StableHlo.after hostOps0 Wb)) (Proc.devRef .tc main_v30)
    = shapeCast S1x64 (Cert.Gnn.vecOf (Wb (Proc.devRef .tc main_arg7)) 0 Cert.ReferenceIdeal.Gen.slices_S4x64_S1x64_0_0) shapeCasts_S64_S1x64 := by
  after_results_simp
  rfl
set_option maxHeartbeats 4000000 in
theorem e0_w2 : StableHlo.after hostOps0_2 (StableHlo.after hostOps0_1 (StableHlo.after hostOps0 Wb)) (Proc.devRef .tc main_v26)
    = Cert.Gnn.matOf (Wb (Proc.devRef .tc main_arg8)) 0 Cert.ReferenceIdeal.Gen.slices_S4x64x64_S1x64x64_0_0_0 := by
  after_results_simp
  rfl
set_option maxHeartbeats 4000000 in
theorem e0_b2 : StableHlo.after hostOps0_2 (StableHlo.after hostOps0_1 (StableHlo.after hostOps0 Wb)) (Proc.devRef .tc main_v31)
    = shapeCast S1x64 (Cert.Gnn.vecOf (Wb (Proc.devRef .tc main_arg9)) 0 Cert.ReferenceIdeal.Gen.slices_S4x64_S1x64_0_0) shapeCasts_S64_S1x64 := by
  after_results_simp
  rfl

/-! ## Layer 2 -/

set_option maxHeartbeats 4000000 in
theorem e1_aggr : StableHlo.after hostOps1_2 (StableHlo.after hostOps1_1 (StableHlo.after hostOps1 Wb)) (Proc.devRef .tc main_v47)
    = Cert.Gnn.aggrOf (Wb (Proc.devRef .tc main_v32)) (Wb (Proc.devRef .tc main_v1)) (Wb (Proc.devRef .tc main_v3)) (Wb (Proc.devRef .tc main_arg2))
        (Cert.Gnn.linOf (Wb (Proc.devRef .tc main_arg5)) 1 Cert.ReferenceIdeal.Gen.slices_S4x16x64_S1x16x64_1_0_0) := by
  after_results_simp
  rfl
set_option maxHeartbeats 4000000 in
theorem e1_eps : StableHlo.after hostOps1_2 (StableHlo.after hostOps1_1 (StableHlo.after hostOps1 Wb)) (Proc.devRef .tc main_v58)
    = shapeCast S1x1 (Cert.Gnn.epsOf (Wb (Proc.devRef .tc main_arg10)) 1 Cert.ReferenceIdeal.Gen.slices_S4_S1_1) shapeCasts_S_S1x1 := by
  after_results_simp
  rfl
set_option maxHeartbeats 4000000 in
theorem e1_w1 : StableHlo.after hostOps1_2 (StableHlo.after hostOps1_1 (StableHlo.after hostOps1 Wb)) (Proc.devRef .tc main_v51)
    = Cert.Gnn.matOf (Wb (Proc.devRef .tc main_arg6)) 1 Cert.ReferenceIdeal.Gen.slices_S4x64x64_S1x64x64_1_0_0 := by
  after_results_simp
  rfl
set_option maxHeartbeats 4000000 in
theorem e1_b1 : StableHlo.after hostOps1_2 (StableHlo.after hostOps1_1 (StableHlo.after hostOps1 Wb)) (Proc.devRef .tc main_v59)
    = shapeCast S1x64 (Cert.Gnn.vecOf (Wb (Proc.devRef .tc main_arg7)) 1 Cert.ReferenceIdeal.Gen.slices_S4x64_S1x64_1_0) shapeCasts_S64_S1x64 := by
  after_results_simp
  rfl
set_option maxHeartbeats 4000000 in
theorem e1_w2 : StableHlo.after hostOps1_2 (StableHlo.after hostOps1_1 (StableHlo.after hostOps1 Wb)) (Proc.devRef .tc main_v55)
    = Cert.Gnn.matOf (Wb (Proc.devRef .tc main_arg8)) 1 Cert.ReferenceIdeal.Gen.slices_S4x64x64_S1x64x64_1_0_0 := by
  after_results_simp
  rfl
set_option maxHeartbeats 4000000 in
theorem e1_b2 : StableHlo.after hostOps1_2 (StableHlo.after hostOps1_1 (StableHlo.after hostOps1 Wb)) (Proc.devRef .tc main_v60)
    = shapeCast S1x64 (Cert.Gnn.vecOf (Wb (Proc.devRef .tc main_arg9)) 1 Cert.ReferenceIdeal.Gen.slices_S4x64_S1x64_1_0) shapeCasts_S64_S1x64 := by
  after_results_simp
  rfl

/-! ## Layer 3 -/

set_option maxHeartbeats 4000000 in
theorem e2_aggr : StableHlo.after hostOps2_2 (StableHlo.after hostOps2_1 (StableHlo.after hostOps2 Wb)) (Proc.devRef .tc main_v76)
    = Cert.Gnn.aggrOf (Wb (Proc.devRef .tc main_v61)) (Wb (Proc.devRef .tc main_v1)) (Wb (Proc.devRef .tc main_v3)) (Wb (Proc.devRef .tc main_arg2))
        (Cert.Gnn.linOf (Wb (Proc.devRef .tc main_arg5)) 2 Cert.ReferenceIdeal.Gen.slices_S4x16x64_S1x16x64_2_0_0) := by
  after_results_simp
  rfl
set_option maxHeartbeats 4000000 in
theorem e2_eps : StableHlo.after hostOps2_2 (StableHlo.after hostOps2_1 (StableHlo.after hostOps2 Wb)) (Proc.devRef .tc main_v87)
    = shapeCast S1x1 (Cert.Gnn.epsOf (Wb (Proc.devRef .tc main_arg10)) 2 Cert.ReferenceIdeal.Gen.slices_S4_S1_2) shapeCasts_S_S1x1 := by
  after_results_simp
  rfl
set_option maxHeartbeats 4000000 in
theorem e2_w1 : StableHlo.after hostOps2_2 (StableHlo.after hostOps2_1 (StableHlo.after hostOps2 Wb)) (Proc.devRef .tc main_v80)
    = Cert.Gnn.matOf (Wb (Proc.devRef .tc main_arg6)) 2 Cert.ReferenceIdeal.Gen.slices_S4x64x64_S1x64x64_2_0_0 := by
  after_results_simp
  rfl
set_option maxHeartbeats 4000000 in
theorem e2_b1 : StableHlo.after hostOps2_2 (StableHlo.after hostOps2_1 (StableHlo.after hostOps2 Wb)) (Proc.devRef .tc main_v88)
    = shapeCast S1x64 (Cert.Gnn.vecOf (Wb (Proc.devRef .tc main_arg7)) 2 Cert.ReferenceIdeal.Gen.slices_S4x64_S1x64_2_0) shapeCasts_S64_S1x64 := by
  after_results_simp
  rfl
set_option maxHeartbeats 4000000 in
theorem e2_w2 : StableHlo.after hostOps2_2 (StableHlo.after hostOps2_1 (StableHlo.after hostOps2 Wb)) (Proc.devRef .tc main_v84)
    = Cert.Gnn.matOf (Wb (Proc.devRef .tc main_arg8)) 2 Cert.ReferenceIdeal.Gen.slices_S4x64x64_S1x64x64_2_0_0 := by
  after_results_simp
  rfl
set_option maxHeartbeats 4000000 in
theorem e2_b2 : StableHlo.after hostOps2_2 (StableHlo.after hostOps2_1 (StableHlo.after hostOps2 Wb)) (Proc.devRef .tc main_v89)
    = shapeCast S1x64 (Cert.Gnn.vecOf (Wb (Proc.devRef .tc main_arg9)) 2 Cert.ReferenceIdeal.Gen.slices_S4x64_S1x64_2_0) shapeCasts_S64_S1x64 := by
  after_results_simp
  rfl

/-! ## Layer 4 -/

set_option maxHeartbeats 4000000 in
theorem e3_aggr : StableHlo.after hostOps3_2 (StableHlo.after hostOps3_1 (StableHlo.after hostOps3 Wb)) (Proc.devRef .tc main_v105)
    = Cert.Gnn.aggrOf (Wb (Proc.devRef .tc main_v90)) (Wb (Proc.devRef .tc main_v1)) (Wb (Proc.devRef .tc main_v3)) (Wb (Proc.devRef .tc main_arg2))
        (Cert.Gnn.linOf (Wb (Proc.devRef .tc main_arg5)) 3 Cert.ReferenceIdeal.Gen.slices_S4x16x64_S1x16x64_3_0_0) := by
  after_results_simp
  rfl
set_option maxHeartbeats 4000000 in
theorem e3_eps : StableHlo.after hostOps3_2 (StableHlo.after hostOps3_1 (StableHlo.after hostOps3 Wb)) (Proc.devRef .tc main_v116)
    = shapeCast S1x1 (Cert.Gnn.epsOf (Wb (Proc.devRef .tc main_arg10)) 3 Cert.ReferenceIdeal.Gen.slices_S4_S1_3) shapeCasts_S_S1x1 := by
  after_results_simp
  rfl
set_option maxHeartbeats 4000000 in
theorem e3_w1 : StableHlo.after hostOps3_2 (StableHlo.after hostOps3_1 (StableHlo.after hostOps3 Wb)) (Proc.devRef .tc main_v109)
    = Cert.Gnn.matOf (Wb (Proc.devRef .tc main_arg6)) 3 Cert.ReferenceIdeal.Gen.slices_S4x64x64_S1x64x64_3_0_0 := by
  after_results_simp
  rfl
set_option maxHeartbeats 4000000 in
theorem e3_b1 : StableHlo.after hostOps3_2 (StableHlo.after hostOps3_1 (StableHlo.after hostOps3 Wb)) (Proc.devRef .tc main_v117)
    = shapeCast S1x64 (Cert.Gnn.vecOf (Wb (Proc.devRef .tc main_arg7)) 3 Cert.ReferenceIdeal.Gen.slices_S4x64_S1x64_3_0) shapeCasts_S64_S1x64 := by
  after_results_simp
  rfl
set_option maxHeartbeats 4000000 in
theorem e3_w2 : StableHlo.after hostOps3_2 (StableHlo.after hostOps3_1 (StableHlo.after hostOps3 Wb)) (Proc.devRef .tc main_v113)
    = Cert.Gnn.matOf (Wb (Proc.devRef .tc main_arg8)) 3 Cert.ReferenceIdeal.Gen.slices_S4x64x64_S1x64x64_3_0_0 := by
  after_results_simp
  rfl
set_option maxHeartbeats 4000000 in
theorem e3_b2 : StableHlo.after hostOps3_2 (StableHlo.after hostOps3_1 (StableHlo.after hostOps3 Wb)) (Proc.devRef .tc main_v118)
    = shapeCast S1x64 (Cert.Gnn.vecOf (Wb (Proc.devRef .tc main_arg9)) 3 Cert.ReferenceIdeal.Gen.slices_S4x64_S1x64_3_0) shapeCasts_S64_S1x64 := by
  after_results_simp
  rfl

/-! ## The head -/

set_option maxHeartbeats 4000000 in
theorem e4_in : StableHlo.after hostOps4 Wb (Proc.devRef .tc main_v132)
    = Cert.Gnn.headIn (Cert.Gnn.pooled (Wb (Proc.devRef .tc main_v119)) (Wb (Proc.devRef .tc main_arg3))) (Wb (Proc.devRef .tc main_arg4)) := by
  after_results_simp
  rfl
set_option maxHeartbeats 4000000 in
theorem e4_b1 : StableHlo.after hostOps4 Wb (Proc.devRef .tc main_v133) = shapeCast S1x64 (Wb (Proc.devRef .tc main_arg12)) shapeCasts_S64_S1x64 := by
  after_results_simp
  rfl
set_option maxHeartbeats 4000000 in
theorem e4_b2 : StableHlo.after hostOps4 Wb (Proc.devRef .tc main_v134) = shapeCast S1x1 (Wb (Proc.devRef .tc main_arg14)) shapeCasts_S1_S1x1 := by
  after_results_simp
  rfl

end Cert.KernelIdeal.Host

end
-- ==== Proof.RowMlp.lean ====
/-
  The mathematics of one graph-convolution node update and of the read-out head, entry by entry, on the extended
  reals.

  A node update. For a node with feature row x and aggregated message row a (64 entries each), a scalar e, two
  64 × 64 weight tables W1, W2 and two bias rows b1, b2, the updated row has entry q equal to

      max( Σ_k  max( Σ_j (e · x_j + a_j) · W1(j, k) + b1_k , z ) · W2(k, q) + b2_q , z )

  where z is the threshold of the rectifier (zero).  The update of a table of n nodes applies this to every row: row r
  of the result depends on row r of the two input tables only, which is why the table may be processed in bands
  of rows in any order.

  The head. For a pooled row h of 65 entries, a 65 × 64 table W1, a bias row b1, a column W2 of 64 entries and a scalar
  b2, the output is  Σ_k max( Σ_j h_j · W1(j, k) + b1_k , z ) · W2_k + b2.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Gnn

open Idealize.ShloMosaic Idealize.ShloMosaic.ValueIdx

/-- Entry q of the updated feature row of one node. -/
def rowMlp (e z : EReal) (W1 : Fin 64 → Fin 64 → EReal) (b1 : Fin 64 → EReal) (W2 : Fin 64 → Fin 64 → EReal)
    (b2 : Fin 64 → EReal) (x a : Fin 64 → EReal) (q : Fin 64) : EReal :=
  max (∑ k : Fin 64, max (∑ j : Fin 64, (e * x j + a j) * W1 j k + b1 k) z * W2 k q + b2 q) z

/-- The read-out of one pooled row. -/
def headRow (z : EReal) (W1 : Fin 65 → Fin 64 → EReal) (b1 : Fin 64 → EReal) (W2 : Fin 64 → EReal) (b2 : EReal)
    (h : Fin 65 → EReal) : EReal :=
  ∑ k : Fin 64, max (∑ j : Fin 65, h j * W1 j k + b1 k) z * W2 k + b2

/-- The unit the scalar of the update is added to, and the rectifier's threshold, as the two programs spell them. -/
abbrev one32 : EReal := Ideal.ofBits .f32 0x3F800000#32
abbrev zero32 : EReal := Ideal.ofBits .f32 0x00000000#32

/-- The node update of a table of n nodes, the scalar given as a 1 × 1 table and the biases as one-row tables. -/
def nodeTable (n : Nat) (X A : (⟨2, ![n, 64]⟩ : Shape).Idx → EReal) (E : (⟨2, ![1, 1]⟩ : Shape).Idx → EReal)
    (W1 : (⟨2, ![64, 64]⟩ : Shape).Idx → EReal) (B1 : (⟨2, ![1, 64]⟩ : Shape).Idx → EReal)
    (W2 : (⟨2, ![64, 64]⟩ : Shape).Idx → EReal) (B2 : (⟨2, ![1, 64]⟩ : Shape).Idx → EReal) :
    (⟨2, ![n, 64]⟩ : Shape).Idx → EReal := fun i =>
  rowMlp (one32 + E (ix2 (0 : Fin 1) (0 : Fin 1))) zero32 (fun j k => W1 (ix2 j k)) (fun k => B1 (ix2 (0 : Fin 1) k))
    (fun k q => W2 (ix2 k q)) (fun q => B2 (ix2 (0 : Fin 1) q)) (fun j => X (ix2 (i 0 : Fin n) j)) (fun j => A (ix2 (i 0 : Fin n) j)) (i 1 : Fin 64)

/-- The read-out of a table of 2000 pooled rows, the biases as one-row tables. -/
def headTable (H : (⟨2, ![2000, 65]⟩ : Shape).Idx → EReal) (W1 : (⟨2, ![65, 64]⟩ : Shape).Idx → EReal)
    (B1 : (⟨2, ![1, 64]⟩ : Shape).Idx → EReal) (W2 : (⟨2, ![64, 1]⟩ : Shape).Idx → EReal)
    (B2 : (⟨2, ![1, 1]⟩ : Shape).Idx → EReal) : (⟨2, ![2000, 1]⟩ : Shape).Idx → EReal := fun i =>
  headRow zero32 (fun j k => W1 (ix2 j k)) (fun k => B1 (ix2 (0 : Fin 1) k)) (fun k => W2 (ix2 k (0 : Fin 1)))
    (B2 (ix2 (0 : Fin 1) (0 : Fin 1))) (fun j => H (ix2 (i 0 : Fin 2000) j))

end Cert.Gnn

end
-- ==== Proof.LibDot.lean ====
/-
  Two reads at an index, for tables of any size.

  A matrix product. A product of an m × n table with an n × p table, as the dimension records of this certificate
  describe it (rows free on the left, columns free on the right, one contracted axis, no batch axis), sums over the
  positions of the contracted axis; entry (a, b) is  Σ_k l(a, k) · r(k, b)  with k running over `Fin n`. The sum
  over the record's own contraction index type is carried to `Fin n` along the bijection that reads its one
  coordinate.

  A vector along the rows. A vector b of n entries laid along each of m rows has entry b(j) at (r, j), whether it is
  laid by casting it to one row and repeating the row, or by placing it along axis 1 of a one-row table that is then
  repeated.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open scoped BigOperators

namespace Cert.Sage.LibDot

open Idealize.ShloMosaic Idealize.ShloMosaic.ValueIdx

/-- Entry (a, b) of a plain product as a sum over the contracted axis' positions `k : Fin n`: the record contracts one
    axis of extent n (`hr`, `hs`), its left index at output (a, b) and contraction position q is (a, q) and its
    right index (q, b) (`hl0` … `hr1`, coordinate by coordinate). -/
theorem sum_plain {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (l : (⟨2, ![m, n]⟩ : Shape).Idx → EReal) (r : (⟨2, ![n, p]⟩ : Shape).Idx → EReal) (a : Fin m) (b : Fin p) :
    ∑ k : d.contr.Idx, l (d.lhsIdx (ix2 a b) k) * r (d.rhsIdx (ix2 a b) k) = ∑ k : Fin n, l (ix2 a k) * r (ix2 k b) := by
  rw [← Equiv.sum_comp (contrEquiv1 d n hr hs).symm]
  refine Finset.sum_congr rfl fun k _ => ?_
  have hk := contrEquiv1_symm_val d n hr hs k
  have el : d.lhsIdx (ix2 a b) ((contrEquiv1 d n hr hs).symm k) = ix2 a k := funext fun x => Fin.ext (by
    match x with
    | ⟨0, _⟩ => exact hl0 _ _
    | ⟨1, _⟩ => exact (hl1 _ _).trans hk)
  have er : d.rhsIdx (ix2 a b) ((contrEquiv1 d n hr hs).symm k) = ix2 k b := funext fun x => Fin.ext (by
    match x with
    | ⟨0, _⟩ => exact (hr0 _ _).trans hk
    | ⟨1, _⟩ => exact hr1 _ _)
  rw [el, er]

variable {α : Type}

/-- A vector cast to one row and the row repeated down m rows: entry (r, j) is the vector's entry j. -/
theorem row_cast_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (r : Fin m) (j : Fin n) :
    broadcastTo ⟨2, ![m, n]⟩ (shapeCast ⟨2, ![1, n]⟩ x h1) hb (ix2 r j) = x (ix1 j) := by
  have e1 := broadcastTo_apply (shapeCast ⟨2, ![1, n]⟩ x h1) hb (ix2 r j) (ix2 (0 : Fin 1) j) (by
    intro a
    match a with
    | ⟨0, _⟩ => rfl
    | ⟨1, _⟩ =>
      show j.val = if n = 1 then 0 else j.val
      split
      · have := j.isLt; omega
      · rfl)
  have e2 := shapeCast_apply x h1 (ix2 (0 : Fin 1) j) (ix1 j) (by
    rw [Shape.rowMajor_val_two, Shape.rowMajor_val_one]; show j.val = 0 * n + j.val; omega)
  exact e1.trans e2

/-- A vector placed along axis 1 of a one-row table and the table repeated down m rows: entry (r, j) is the vector's
    entry j. -/
theorem row_dims_apply {m n : Nat} (x : (⟨1, ![n]⟩ : Shape).Idx → α)
    (hd : (⟨1, ![n]⟩ : Shape).BroadcastsInDim ⟨2, ![1, n]⟩ ![1])
    (hbc : (⟨2, ![1, n]⟩ : Shape).BroadcastsInDim ⟨2, ![m, n]⟩ ![0, 1]) (r : Fin m) (j : Fin n) :
    broadcastInDim ⟨2, ![m, n]⟩ ![0, 1] hbc (broadcastInDim ⟨2, ![1, n]⟩ ![1] hd x) (ix2 r j) = x (ix1 j) := by
  rw [broadcastInDim_oneRow_apply]
  refine broadcastInDim_apply ![1] hd x (ix2 (0 : Fin 1) j) (ix1 j) ?_
  intro a
  match a with
  | ⟨0, _⟩ =>
    show j.val = if n = 1 then 0 else j.val
    split
    · have := j.isLt; omega
    · rfl

end Cert.Sage.LibDot

end
-- ==== Proof.KPay.lean ====
/-
  What the node-update kernel and the head kernel store, read entry by entry on the extended reals.

  The node-update body loads a band of 10000 rows of the feature table x and of the aggregated messages a, the 1 × 1
  scalar table, two 64 × 64 weight tables and two one-row bias tables, and stores
      max( max( (1 + eps) · x + a) · W1 + b1 , 0 ) · W2 + b2 , 0 )
  with both products taken into a zero accumulator and every change of float format the identity on the extended reals.
  Entry (p, q) of the stored band is therefore the node update of row p of the band (RowMlp.lean), the product's sum
  over its contracted axis carried to a sum over `Fin 64`.  The head body is read the same way.
-/
import proofs.«143737_j50861002719555_2_alg».proof.Proof.Gen.KernelIdeal.Skeleton
import proofs.«143737_j50861002719555_2_alg».proof.Proof.RowMlp
import proofs.«143737_j50861002719555_2_alg».proof.Proof.LibDot

noncomputable section

open scoped BigOperators

namespace Cert.KernelIdeal.Pay

open Cert.KernelIdeal Cert.KernelIdeal.Gen Idealize.ShloMosaic Idealize.ShloMosaic.ValueIdx Cert.Gnn Cert.Sage

/-! ## The three products' index maps, coordinate by coordinate -/

abbrev dN := dot_S10000x64_S64x64_S10000x64_1_0_0_1_n_n
abbrev dH1 := dot_S2000x65_S65x64_S2000x64_1_0_0_1_n_n
abbrev dH2 := dot_S2000x64_S64x1_S2000x1_1_0_0_1_n_n

theorem dN_l0 (i : S10000x64.Idx) (q : dN.contr.Idx) : (dN.lhsIdx i q 0).val = (i 0).val := by
  unfold DotDims.lhsIdx
  rw [dif_neg (show ¬(0 : Fin S10000x64.rank) ∈ dN.lhsBatch by decide), dif_pos (show (0 : Fin S10000x64.rank) ∈ dN.lhsNonContracting by decide)]
  rfl
theorem dN_l1 (i : S10000x64.Idx) (q : dN.contr.Idx) : (dN.lhsIdx i q 1).val = (q ⟨0, by decide⟩).val :=
  dN.lhsIdx_val_of_single rfl i q
theorem dN_r0 (i : S10000x64.Idx) (q : dN.contr.Idx) : (dN.rhsIdx i q 0).val = (q ⟨0, by decide⟩).val :=
  dN.rhsIdx_val_of_single rfl i q
theorem dN_r1 (i : S10000x64.Idx) (q : dN.contr.Idx) : (dN.rhsIdx i q 1).val = (i 1).val := by
  unfold DotDims.rhsIdx
  rw [dif_neg (show ¬(1 : Fin S64x64.rank) ∈ dN.rhsBatch by decide), dif_pos (show (1 : Fin S64x64.rank) ∈ dN.rhsNonContracting by decide)]
  rfl

theorem dH1_l0 (i : S2000x64.Idx) (q : dH1.contr.Idx) : (dH1.lhsIdx i q 0).val = (i 0).val := by
  unfold DotDims.lhsIdx
  rw [dif_neg (show ¬(0 : Fin S2000x65.rank) ∈ dH1.lhsBatch by decide), dif_pos (show (0 : Fin S2000x65.rank) ∈ dH1.lhsNonContracting by decide)]
  rfl
theorem dH1_l1 (i : S2000x64.Idx) (q : dH1.contr.Idx) : (dH1.lhsIdx i q 1).val = (q ⟨0, by decide⟩).val :=
  dH1.lhsIdx_val_of_single rfl i q
theorem dH1_r0 (i : S2000x64.Idx) (q : dH1.contr.Idx) : (dH1.rhsIdx i q 0).val = (q ⟨0, by decide⟩).val :=
  dH1.rhsIdx_val_of_single rfl i q
theorem dH1_r1 (i : S2000x64.Idx) (q : dH1.contr.Idx) : (dH1.rhsIdx i q 1).val = (i 1).val := by
  unfold DotDims.rhsIdx
  rw [dif_neg (show ¬(1 : Fin S65x64.rank) ∈ dH1.rhsBatch by decide), dif_pos (show (1 : Fin S65x64.rank) ∈ dH1.rhsNonContracting by decide)]
  rfl

theorem dH2_l0 (i : S2000x1.Idx) (q : dH2.contr.Idx) : (dH2.lhsIdx i q 0).val = (i 0).val := by
  unfold DotDims.lhsIdx
  rw [dif_neg (show ¬(0 : Fin S2000x64.rank) ∈ dH2.lhsBatch by decide), dif_pos (show (0 : Fin S2000x64.rank) ∈ dH2.lhsNonContracting by decide)]
  rfl
theorem dH2_l1 (i : S2000x1.Idx) (q : dH2.contr.Idx) : (dH2.lhsIdx i q 1).val = (q ⟨0, by decide⟩).val :=
  dH2.lhsIdx_val_of_single rfl i q
theorem dH2_r0 (i : S2000x1.Idx) (q : dH2.contr.Idx) : (dH2.rhsIdx i q 0).val = (q ⟨0, by decide⟩).val :=
  dH2.rhsIdx_val_of_single rfl i q
theorem dH2_r1 (i : S2000x1.Idx) (q : dH2.contr.Idx) : (dH2.rhsIdx i q 1).val = (i 1).val := by
  unfold DotDims.rhsIdx
  rw [dif_neg (show ¬(1 : Fin S64x1.rank) ∈ dH2.rhsBatch by decide), dif_pos (show (1 : Fin S64x1.rank) ∈ dH2.rhsNonContracting by decide)]
  rfl

/-! ## A product into a zero accumulator, at an entry -/

theorem mmN (l : FVec Ideal S10000x64 .bf16) (r : FVec Ideal S64x64 .bf16) (p : Fin 10000) (q : Fin 64) :
    matmul dN none l r (constant S10000x64 .f32 0x00000000#32) (ix2 p q) = ∑ k : Fin 64, l (ix2 p k) * r (ix2 k q) :=
  (Ideal.matmul_constant_zero_apply dN none l r (ix2 p q)).trans
    (LibDot.sum_plain dN rfl rfl dN_l0 dN_l1 dN_r0 dN_r1 l r p q)

theorem mmH1 (l : FVec Ideal S2000x65 .bf16) (r : FVec Ideal S65x64 .bf16) (p : Fin 2000) (q : Fin 64) :
    matmul dH1 none l r (constant S2000x64 .f32 0x00000000#32) (ix2 p q) = ∑ k : Fin 65, l (ix2 p k) * r (ix2 k q) :=
  (Ideal.matmul_constant_zero_apply dH1 none l r (ix2 p q)).trans
    (LibDot.sum_plain dH1 rfl rfl dH1_l0 dH1_l1 dH1_r0 dH1_r1 l r p q)

theorem mmH2 (l : FVec Ideal S2000x64 .bf16) (r : FVec Ideal S64x1 .bf16) (p : Fin 2000) (q : Fin 1) :
    matmul dH2 none l r (constant S2000x1 .f32 0x00000000#32) (ix2 p q) = ∑ k : Fin 64, l (ix2 p k) * r (ix2 k q) :=
  (Ideal.matmul_constant_zero_apply dH2 none l r (ix2 p q)).trans
    (LibDot.sum_plain dH2 rfl rfl dH2_l0 dH2_l1 dH2_r0 dH2_r1 l r p q)

/-! ## One-row and one-entry tables repeated down the rows -/

/-- A one-row table repeated down m rows reads, at (r, j), the row's entry j. -/
theorem rowTo_apply {m n : Nat} (y : (⟨2, ![1, n]⟩ : Shape).Idx → EReal) (hb : (⟨2, ![1, n]⟩ : Shape).Broadcasts ⟨2, ![m, n]⟩)
    (r : Fin m) (j : Fin n) : broadcastTo ⟨2, ![m, n]⟩ y hb (ix2 r j) = y (ix2 (0 : Fin 1) j) :=
  broadcastTo_apply y hb (ix2 r j) (ix2 (0 : Fin 1) j) (by
    intro a
    match a with
    | ⟨0, _⟩ => rfl
    | ⟨1, _⟩ =>
      show j.val = if n = 1 then 0 else j.val
      split
      · have := j.isLt; omega
      · rfl)

/-- A one-entry table repeated over an m × n table reads that entry everywhere. -/
theorem oneTo_apply {m n : Nat} (y : (⟨2, ![1, 1]⟩ : Shape).Idx → EReal) (hb : (⟨2, ![1, 1]⟩ : Shape).Broadcasts ⟨2, ![m, n]⟩)
    (r : Fin m) (j : Fin n) : broadcastTo ⟨2, ![m, n]⟩ y hb (ix2 r j) = y (ix2 (0 : Fin 1) (0 : Fin 1)) :=
  broadcastTo_apply y hb (ix2 r j) (ix2 (0 : Fin 1) (0 : Fin 1)) (by
    intro a
    match a with
    | ⟨0, _⟩ => rfl
    | ⟨1, _⟩ => rfl)

/-! ## The stored values -/

/-- The node-update body's stored band is the node update of the band's rows. -/
theorem k0_pay1_eq (x0 x1 : Vec Ideal S10000x64 .f32) (x2 : Vec Ideal S1x1 .f32) (x3 : Vec Ideal S64x64 .f32)
    (x4 : Vec Ideal S1x64 .f32) (x5 : Vec Ideal S64x64 .f32) (x6 : Vec Ideal S1x64 .f32) :
    k0_pay1 x0 x1 x2 x3 x4 x5 x6 = nodeTable 10000 x0 x1 x2 x3 x4 x5 x6 := by
  funext i
  obtain ⟨p, q, rfl⟩ : ∃ (p : Fin 10000) (q : Fin 64), i = ix2 p q := ⟨i 0, i 1, eq_ix2 i⟩
  unfold k0_pay1 nodeTable rowMlp
  simp only [shapeCast_self]
  show max (matmul (F := Ideal) dN none _ _ (constant S10000x64 .f32 0x00000000#32) (ix2 p q) + broadcastTo S10000x64 x6 broadcasts_S1x64_S10000x64 (ix2 p q)) zero32 = _
  rw [mmN, rowTo_apply]
  refine congrArg (fun s => max (s + x6 (ix2 (0 : Fin 1) q)) zero32) (Finset.sum_congr rfl fun k _ => ?_)
  show max (matmul (F := Ideal) dN none _ _ (constant S10000x64 .f32 0x00000000#32) (ix2 p k) + broadcastTo S10000x64 x4 broadcasts_S1x64_S10000x64 (ix2 p k)) zero32 * x5 (ix2 k q) = _
  rw [mmN, rowTo_apply]
  refine congrArg (fun s => max (s + x4 (ix2 (0 : Fin 1) k)) zero32 * x5 (ix2 k q)) (Finset.sum_congr rfl fun j _ => ?_)
  show (broadcastTo S10000x64 (fun y => one32 + x2 y) broadcasts_S1x1_S10000x64 (ix2 p j) * x0 (ix2 p j) + x1 (ix2 p j)) * x3 (ix2 j k) = _
  rw [oneTo_apply]

/-- The same for the node update of layer 2 (the four bodies are one text). -/
theorem k1_pay1_eq (x0 x1 : Vec Ideal S10000x64 .f32) (x2 : Vec Ideal S1x1 .f32) (x3 : Vec Ideal S64x64 .f32)
    (x4 : Vec Ideal S1x64 .f32) (x5 : Vec Ideal S64x64 .f32) (x6 : Vec Ideal S1x64 .f32) :
    k1_pay1 x0 x1 x2 x3 x4 x5 x6 = nodeTable 10000 x0 x1 x2 x3 x4 x5 x6 := by
  funext i
  obtain ⟨p, q, rfl⟩ : ∃ (p : Fin 10000) (q : Fin 64), i = ix2 p q := ⟨i 0, i 1, eq_ix2 i⟩
  unfold k1_pay1 nodeTable rowMlp
  simp only [shapeCast_self]
  show max (matmul (F := Ideal) dN none _ _ (constant S10000x64 .f32 0x00000000#32) (ix2 p q) + broadcastTo S10000x64 x6 broadcasts_S1x64_S10000x64 (ix2 p q)) zero32 = _
  rw [mmN, rowTo_apply]
  refine congrArg (fun s => max (s + x6 (ix2 (0 : Fin 1) q)) zero32) (Finset.sum_congr rfl fun k _ => ?_)
  show max (matmul (F := Ideal) dN none _ _ (constant S10000x64 .f32 0x00000000#32) (ix2 p k) + broadcastTo S10000x64 x4 broadcasts_S1x64_S10000x64 (ix2 p k)) zero32 * x5 (ix2 k q) = _
  rw [mmN, rowTo_apply]
  refine congrArg (fun s => max (s + x4 (ix2 (0 : Fin 1) k)) zero32 * x5 (ix2 k q)) (Finset.sum_congr rfl fun j _ => ?_)
  show (broadcastTo S10000x64 (fun y => one32 + x2 y) broadcasts_S1x1_S10000x64 (ix2 p j) * x0 (ix2 p j) + x1 (ix2 p j)) * x3 (ix2 j k) = _
  rw [oneTo_apply]

/-- The same for the node update of layer 3 (the four bodies are one text). -/
theorem k2_pay1_eq (x0 x1 : Vec Ideal S10000x64 .f32) (x2 : Vec Ideal S1x1 .f32) (x3 : Vec Ideal S64x64 .f32)
    (x4 : Vec Ideal S1x64 .f32) (x5 : Vec Ideal S64x64 .f32) (x6 : Vec Ideal S1x64 .f32) :
    k2_pay1 x0 x1 x2 x3 x4 x5 x6 = nodeTable 10000 x0 x1 x2 x3 x4 x5 x6 := by
  funext i
  obtain ⟨p, q, rfl⟩ : ∃ (p : Fin 10000) (q : Fin 64), i = ix2 p q := ⟨i 0, i 1, eq_ix2 i⟩
  unfold k2_pay1 nodeTable rowMlp
  simp only [shapeCast_self]
  show max (matmul (F := Ideal) dN none _ _ (constant S10000x64 .f32 0x00000000#32) (ix2 p q) + broadcastTo S10000x64 x6 broadcasts_S1x64_S10000x64 (ix2 p q)) zero32 = _
  rw [mmN, rowTo_apply]
  refine congrArg (fun s => max (s + x6 (ix2 (0 : Fin 1) q)) zero32) (Finset.sum_congr rfl fun k _ => ?_)
  show max (matmul (F := Ideal) dN none _ _ (constant S10000x64 .f32 0x00000000#32) (ix2 p k) + broadcastTo S10000x64 x4 broadcasts_S1x64_S10000x64 (ix2 p k)) zero32 * x5 (ix2 k q) = _
  rw [mmN, rowTo_apply]
  refine congrArg (fun s => max (s + x4 (ix2 (0 : Fin 1) k)) zero32 * x5 (ix2 k q)) (Finset.sum_congr rfl fun j _ => ?_)
  show (broadcastTo S10000x64 (fun y => one32 + x2 y) broadcasts_S1x1_S10000x64 (ix2 p j) * x0 (ix2 p j) + x1 (ix2 p j)) * x3 (ix2 j k) = _
  rw [oneTo_apply]

/-- The same for the node update of layer 4 (the four bodies are one text). -/
theorem k3_pay1_eq (x0 x1 : Vec Ideal S10000x64 .f32) (x2 : Vec Ideal S1x1 .f32) (x3 : Vec Ideal S64x64 .f32)
    (x4 : Vec Ideal S1x64 .f32) (x5 : Vec Ideal S64x64 .f32) (x6 : Vec Ideal S1x64 .f32) :
    k3_pay1 x0 x1 x2 x3 x4 x5 x6 = nodeTable 10000 x0 x1 x2 x3 x4 x5 x6 := by
  funext i
  obtain ⟨p, q, rfl⟩ : ∃ (p : Fin 10000) (q : Fin 64), i = ix2 p q := ⟨i 0, i 1, eq_ix2 i⟩
  unfold k3_pay1 nodeTable rowMlp
  simp only [shapeCast_self]
  show max (matmul (F := Ideal) dN none _ _ (constant S10000x64 .f32 0x00000000#32) (ix2 p q) + broadcastTo S10000x64 x6 broadcasts_S1x64_S10000x64 (ix2 p q)) zero32 = _
  rw [mmN, rowTo_apply]
  refine congrArg (fun s => max (s + x6 (ix2 (0 : Fin 1) q)) zero32) (Finset.sum_congr rfl fun k _ => ?_)
  show max (matmul (F := Ideal) dN none _ _ (constant S10000x64 .f32 0x00000000#32) (ix2 p k) + broadcastTo S10000x64 x4 broadcasts_S1x64_S10000x64 (ix2 p k)) zero32 * x5 (ix2 k q) = _
  rw [mmN, rowTo_apply]
  refine congrArg (fun s => max (s + x4 (ix2 (0 : Fin 1) k)) zero32 * x5 (ix2 k q)) (Finset.sum_congr rfl fun j _ => ?_)
  show (broadcastTo S10000x64 (fun y => one32 + x2 y) broadcasts_S1x1_S10000x64 (ix2 p j) * x0 (ix2 p j) + x1 (ix2 p j)) * x3 (ix2 j k) = _
  rw [oneTo_apply]

/-- The head body's stored column is the read-out of the pooled rows. -/
theorem k4_pay1_eq (x0 : Vec Ideal S2000x65 .f32) (x1 : Vec Ideal S65x64 .f32) (x2 : Vec Ideal S1x64 .f32)
    (x3 : Vec Ideal S64x1 .f32) (x4 : Vec Ideal S1x1 .f32) :
    k4_pay1 x0 x1 x2 x3 x4 = headTable x0 x1 x2 x3 x4 := by
  funext i
  obtain ⟨p, q, rfl⟩ : ∃ (p : Fin 2000) (q : Fin 1), i = ix2 p q := ⟨i 0, i 1, eq_ix2 i⟩
  have hq : q = 0 := Subsingleton.elim _ _
  subst hq
  unfold k4_pay1 headTable headRow
  simp only [shapeCast_self]
  show matmul (F := Ideal) dH2 none _ _ (constant S2000x1 .f32 0x00000000#32) (ix2 p 0) + broadcastTo S2000x1 x4 broadcasts_S1x1_S2000x1 (ix2 p 0) = _
  rw [mmH2, oneTo_apply]
  refine congrArg (fun s => s + x4 (ix2 (0 : Fin 1) (0 : Fin 1))) (Finset.sum_congr rfl fun k _ => ?_)
  show max (matmul (F := Ideal) dH1 none _ _ (constant S2000x64 .f32 0x00000000#32) (ix2 p k) + broadcastTo S2000x64 x2 broadcasts_S1x64_S2000x64 (ix2 p k)) zero32 * x3 (ix2 k 0) = _
  rw [mmH1, rowTo_apply]
  rfl

end Cert.KernelIdeal.Pay

end
-- ==== Proof.Band.lean ====
/-
  Two tables of node rows that agree on one row give the same updated row.

  The node update of a table (RowMlp.lean) reads, for the entry (r, q) of its result, row r of the feature table and
  row r of the message table and nothing else of them.  So if row r of one pair of tables is row r' of another pair,
  and the scalar, weights and biases are the same, entry (r, q) of the first update is entry (r', q) of the second.
  This is what lets a table be updated band by band: a band's row p is the whole table's row (band start + p).
-/
import proofs.«143737_j50861002719555_2_alg».proof.Proof.RowMlp

noncomputable section

open scoped BigOperators

namespace Cert.Gnn

open Idealize.ShloMosaic Idealize.ShloMosaic.ValueIdx

theorem nodeTable_band {n n' : Nat} (X A : (⟨2, ![n, 64]⟩ : Shape).Idx → EReal) (X' A' : (⟨2, ![n', 64]⟩ : Shape).Idx → EReal)
    (E E' : (⟨2, ![1, 1]⟩ : Shape).Idx → EReal) (W1 W1' : (⟨2, ![64, 64]⟩ : Shape).Idx → EReal)
    (B1 B1' : (⟨2, ![1, 64]⟩ : Shape).Idx → EReal) (W2 W2' : (⟨2, ![64, 64]⟩ : Shape).Idx → EReal)
    (B2 B2' : (⟨2, ![1, 64]⟩ : Shape).Idx → EReal) (r : Fin n) (r' : Fin n') (q : Fin 64)
    (hX : ∀ j : Fin 64, X (ix2 r j) = X' (ix2 r' j)) (hA : ∀ j : Fin 64, A (ix2 r j) = A' (ix2 r' j))
    (hE : E = E') (hW1 : W1 = W1') (hB1 : B1 = B1') (hW2 : W2 = W2') (hB2 : B2 = B2') :
    nodeTable n X A E W1 B1 W2 B2 (ix2 r q) = nodeTable n' X' A' E' W1' B1' W2' B2' (ix2 r' q) := by
  subst hE hW1 hB1 hW2 hB2
  show rowMlp _ _ _ _ _ _ (fun j => X (ix2 r j)) (fun j => A (ix2 r j)) q
     = rowMlp _ _ _ _ _ _ (fun j => X' (ix2 r' j)) (fun j => A' (ix2 r' j)) q
  rw [funext hX, funext hA]

end Cert.Gnn

end
-- ==== Proof.KRegion0.lean ====
/-
  The node update of layer 1, band by band, is the node update of the whole table.

  The region processes the 100000-row feature table in ten bands of 10000 rows: at grid point t it reads rows
  [10000·t, 10000·t + 10000) of the feature table and of the message table, the whole scalar, weight and bias tables,
  and writes the same band of rows of its output table.  A band's stored row p is the node update of the band's
  row p (KPay.lean), which is row 10000·t + p of the whole tables (Band.lean); the ten bands cover every row once.
  So the output table ends holding the node update of the whole tables as the region found them.
-/
import proofs.«143737_j50861002719555_2_alg».proof.Proof.Gen.KernelIdeal.Frame
import proofs.«143737_j50861002719555_2_alg».proof.Proof.KPay
import proofs.«143737_j50861002719555_2_alg».proof.Proof.Band

set_option maxRecDepth 16384

noncomputable section

namespace Cert.KernelIdeal.Reg0

open Cert.KernelIdeal Cert.KernelIdeal.Gen Idealize.ShloMosaic Idealize.ShloMosaic.TcCoe Idealize.ShloMosaic.ValueIdx
open Idealize.SL.Sem Cert.Gnn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row tables and the output move one band per point, the small
    tables stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- What the output table ends holding: the node update of the tables the region finds. -/
def G (c : Dev nD) : S100000x64.Idx → EReal :=
  nodeTable 100000 (V c main_arg0) (V c main_v18) (V c main_v29) (V c main_v22) (V c main_v30) (V c main_v26) (V c main_v31)

/-! ## The small tables' one block is the table -/

theorem blk2 (c : Dev nD) (t : Fin cfg0.N) : iblk0 V c 2 t = V c main_v29 := by
  obtain ⟨-, -, -, -, e0, e1, -⟩ := idx_facts t
  funext y
  show V c main_v29 (((cfg0.win 2).blk t).view.emb y) = V c main_v29 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 1 + 1 * (y 1).val = (y 1).val; omega
theorem blk3 (c : Dev nD) (t : Fin cfg0.N) : iblk0 V c 3 t = V c main_v22 := by
  obtain ⟨-, -, -, -, -, -, e0, e1, -⟩ := idx_facts t
  funext y
  show V c main_v22 (((cfg0.win 3).blk t).view.emb y) = V c main_v22 y
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega
theorem blk4 (c : Dev nD) (t : Fin cfg0.N) : iblk0 V c 4 t = V c main_v30 := by
  obtain ⟨-, -, -, -, -, -, -, -, e0, e1, -⟩ := idx_facts t
  funext y
  show V c main_v30 (((cfg0.win 4).blk t).view.emb y) = V c main_v30 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega
theorem blk5 (c : Dev nD) (t : Fin cfg0.N) : iblk0 V c 5 t = V c main_v26 := by
  obtain ⟨-, -, -, -, -, -, -, -, -, -, e0, e1, -⟩ := idx_facts t
  funext y
  show V c main_v26 (((cfg0.win 5).blk t).view.emb y) = V c main_v26 y
  refine congrArg _ (funext fun a => Fin.ext ?_)
  match a with
  | ⟨0, _⟩ => show win0_5.index t (0 : Fin 2) * 64 + 1 * (y 0).val = (y 0).val; omega
  | ⟨1, _⟩ => show win0_5.index t (1 : Fin 2) * 64 + 1 * (y 1).val = (y 1).val; omega
theorem blk6 (c : Dev nD) (t : Fin cfg0.N) : iblk0 V c 6 t = V c main_v31 := by
  obtain ⟨-, -, -, -, -, -, -, -, -, -, -, -, e0, e1, -⟩ := idx_facts t
  funext y
  show V c main_v31 (((cfg0.win 6).blk t).view.emb y) = V c main_v31 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 64 + 1 * (y 1).val = (y 1).val; omega

/-! ## What a point writes back -/

/-- Point t writes back band t of the node update of the whole tables. -/
theorem flushed_eq (c : Dev nD) (t : Fin cfg0.N) :
    (dat0 V c).flushed 7 t = ((cfg0.win 7).blk t).view.read (Elt Ideal) (G V c) := by
  show (cfg0.win 7).cut (grid0.coords t) ((dat0 V c).after 7 t) = _
  rw [after0_7]
  unfold out0_7
  rw [View.canon_unit_zero hz]
  simp only [View.ld_unit_zero (S := S10000x64) hz, View.ld_unit_zero (S := S1x1) hz, View.ld_unit_zero (S := S64x64) hz,
    View.ld_unit_zero (S := S1x64) hz]
  rw [Pay.k0_pay1_eq, blk2 V c t, blk3 V c t, blk4 V c t, blk5 V c t, blk6 V c t]
  obtain ⟨e00, e01, e10, e11, -, -, -, -, -, -, -, -, -, -, e70, e71⟩ := idx_facts t
  have ht : t.val < 10 := lt_of_lt_of_eq t.isLt N_0
  funext j
  obtain ⟨p, q, rfl⟩ : ∃ (p : Fin 10000) (q : Fin 64), j = ix2 p q := ⟨j 0, j 1, eq_ix2 j⟩
  have hp : p.val < 10000 := p.isLt
  have hr : t.val * 10000 + p.val < 100000 := by omega
  have hemb : ((cfg0.win 7).blk t).view.emb (ix2 p q) = ix2 (⟨t.val * 10000 + p.val, hr⟩ : Fin 100000) q := by
    funext a; apply Fin.ext
    match a with
    | ⟨0, _⟩ => show win0_7.index t (0 : Fin 2) * 10000 + 1 * p.val = t.val * 10000 + p.val; omega
    | ⟨1, _⟩ => show win0_7.index t (1 : Fin 2) * 64 + 1 * q.val = q.val; omega
  show nodeTable 10000 (iblk0 V c 0 t) (iblk0 V c 1 t) (V c main_v29) (V c main_v22) (V c main_v30) (V c main_v26) (V c main_v31) (ix2 p q)
     = G V c (((cfg0.win 7).blk t).view.emb (ix2 p q))
  rw [hemb]
  refine nodeTable_band (iblk0 V c 0 t) (iblk0 V c 1 t) (V c main_arg0) (V c main_v18) _ _ _ _ _ _ _ _ _ _ p ⟨_, hr⟩ q
    (fun j => ?_) (fun j => ?_) rfl rfl rfl rfl rfl
  · show V c main_arg0 (((cfg0.win 0).blk t).view.emb (ix2 p j)) = V c main_arg0 (ix2 (⟨t.val * 10000 + p.val, hr⟩ : Fin 100000) j)
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 64 + 1 * j.val = j.val; omega
  · show V c main_v18 (((cfg0.win 1).blk t).view.emb (ix2 p j)) = V c main_v18 (ix2 (⟨t.val * 10000 + p.val, hr⟩ : Fin 100000) j)
    refine congrArg _ (funext fun a => Fin.ext ?_)
    match a with
    | ⟨0, _⟩ => show win0_1.index t (0 : Fin 2) * 10000 + 1 * p.val = t.val * 10000 + p.val; omega
    | ⟨1, _⟩ => show win0_1.index t (1 : Fin 2) * 64 + 1 * j.val = j.val; omega

/-! ## The bands cover the table -/

theorem mem_blk (t : Fin cfg0.N) (i : S100000x64.Idx) :
    i ∈ ((cfg0.win 7).blk t).view.set ↔ ∀ a : Fin 2, win0_7.index t a * S10000x64.size a ≤ (i a).val
      ∧ (i a).val < win0_7.index t a * S10000x64.size a + S10000x64.size a := by
  show i ∈ ((View.whole main_v32).slice (win0_7.rect t)).set ↔ _
  rw [View.set_slice_whole, Rect.mem_set_unit]
  exact Iff.rfl

/-- Row r lies in the band of point r / 10000. -/
theorem cover (i : S100000x64.Idx) :
    ∃ t : Fin cfg0.N, (cfg0.win 7).flush t = true ∧ i ∈ ((cfg0.win 7).blk t).view.set := by
  have hi0 : (i 0).val < 100000 := (i 0).isLt
  have hi1 : (i 1).val < 64 := (i 1).isLt
  have hlt : (i 0).val / 10000 < grid0.N := lt_of_lt_of_eq (by omega : (i 0).val / 10000 < 10) N_0.symm
  obtain ⟨-, -, -, -, -, -, -, -, -, -, -, -, -, -, e70, e71⟩ := idx_facts ⟨(i 0).val / 10000, hlt⟩
  have e70' : win0_7.index ⟨(i 0).val / 10000, hlt⟩ (0 : Fin 2) = (i 0).val / 10000 := e70
  refine ⟨⟨(i 0).val / 10000, hlt⟩, flush0_7 _, ?_⟩
  rw [mem_blk]
  intro a
  match a with
  | ⟨0, _⟩ =>
    show win0_7.index ⟨(i 0).val / 10000, hlt⟩ (0 : Fin 2) * 10000 ≤ (i 0).val
      ∧ (i 0).val < win0_7.index ⟨(i 0).val / 10000, hlt⟩ (0 : Fin 2) * 10000 + 10000
    omega
  | ⟨1, _⟩ =>
    show win0_7.index ⟨(i 0).val / 10000, hlt⟩ (1 : Fin 2) * 64 ≤ (i 1).val
      ∧ (i 1).val < win0_7.index ⟨(i 0).val / 10000, hlt⟩ (1 : Fin 2) * 64 + 64
    omega

/-- The output table after the region: the node update of the tables as the region found them. -/
theorem final (c : Dev nD) : (dat0 V c).arrAt 7 cfg0.N = G V c :=
  (dat0 V c).arrAt_eq_of_cover 7 (G V c) (fun t _ => flushed_eq V c t) cover

end Cert.KernelIdeal.Reg0

end
-- ==== Proof.KRegion1.lean ====
/-
  The node update of layer 2, band by band, is the node update of the whole table.

  The region processes the 100000-row feature table in ten bands of 10000 rows: at grid point t it reads rows
  [10000·t, 10000·t + 10000) of the feature table and of the message table, the whole scalar, weight and bias tables,
  and writes the same band of rows of its output table.  A band's stored row p is the node update of the band's
  row p (KPay.lean), which is row 10000·t + p of the whole tables (Band.lean); the ten bands cover every row once.
  So the output table ends holding the node update of the whole tables as the region found them.
-/
import proofs.«143737_j50861002719555_2_alg».proof.Proof.Gen.KernelIdeal.Frame
import proofs.«143737_j50861002719555_2_alg».proof.Proof.KPay
import proofs.«143737_j50861002719555_2_alg».proof.Proof.Band

set_option maxRecDepth 16384

noncomputable section

namespace Cert.KernelIdeal.Reg1

open Cert.KernelIdeal Cert.KernelIdeal.Gen Idealize.ShloMosaic Idealize.ShloMosaic.TcCoe Idealize.ShloMosaic.ValueIdx
open Idealize.SL.Sem Cert.Gnn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row tables and the output move one band per point, the small
    tables stay at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- What the output table ends holding: the node update of the tables the region finds. -/
def G (c : Dev nD) : S100000x64.Idx → EReal :=
  nodeTable 100000 (V c main_v32) (V c main_v47) (V c main_v58) (V c main_v51) (V c main_v59) (V c main_v55) (V c main_v60)

/-! ## The small tables' one block is the table -/

theorem blk2 (c : Dev nD) (t : Fin cfg1.N) : iblk1 V c 2 t = V c main_v58 := by
  obtain ⟨-, -, -, -, e0, e1, -⟩ := idx_facts t
  funext y
  show V c main_v58 (((cfg1.win 2).blk t).view.emb y) = V c main_v58 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 1 + 1 * (y 1).val = (y 1).val; omega
theorem blk3 (c : Dev nD) (t : Fin cfg1.N) : iblk1 V c 3 t = V c main_v51 := by
  obtain ⟨-, -, -, -, -, -, e0, e1, -⟩ := idx_facts t
  funext y
  show V c main_v51 (((cfg1.win 3).blk t).view.emb y) = V c main_v51 y
  refine congrArg _ (funext fun a => Fin.ext ?_)
  match a with
  | ⟨0, _⟩ => show win1_3.index t (0 : Fin 2) * 64 + 1 * (y 0).val = (y 0).val; omega
  | ⟨1, _⟩ => show win1_3.index t (1 : Fin 2) * 64 + 1 * (y 1).val = (y 1).val; omega
theorem blk4 (c : Dev nD) (t : Fin cfg1.N) : iblk1 V c 4 t = V c main_v59 := by
  obtain ⟨-, -, -, -, -, -, -, -, e0, e1, -⟩ := idx_facts t
  funext y
  show V c main_v59 (((cfg1.win 4).blk t).view.emb y) = V c main_v59 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 64 + 1 * (y 1).val = (y 1).val; omega
theorem blk5 (c : Dev nD) (t : Fin cfg1.N) : iblk1 V c 5 t = V c main_v55 := by
  obtain ⟨-, -, -, -, -, -, -, -, -, -, e0, e1, -⟩ := idx_facts t
  funext y
  show V c main_v55 (((cfg1.win 5).blk t).view.emb y) = V c main_v55 y
  refine congrArg _ (funext fun a => Fin.ext ?_)
  match a with
  | ⟨0, _⟩ => show win1_5.index t (0 : Fin 2) * 64 + 1 * (y 0).val = (y 0).val; omega
  | ⟨1, _⟩ => show win1_5.index t (1 : Fin 2) * 64 + 1 * (y 1).val = (y 1).val; omega
theorem blk6 (c : Dev nD) (t : Fin cfg1.N) : iblk1 V c 6 t = V c main_v60 := by
  obtain ⟨-, -, -, -, -, -, -, -, -, -, -, -, e0, e1, -⟩ := idx_facts t
  funext y
  show V c main_v60 (((cfg1.win 6).blk t).view.emb y) = V c main_v60 y
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 64 + 1 * (y 1).val = (y 1).val; omega

/-! ## What a point writes back -/

/-- Point t writes back band t of the node update of the whole tables. -/
theorem flushed_eq (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S10000x64) hz, View.ld_unit_zero (S := S1x1) hz, View.ld_unit_zero (S := S64x64) hz,
    View.ld_unit_zero (S := S1x64) hz]
  rw [Pay.k1_pay1_eq, blk2 V c t, blk3 V c t, blk4 V c t, blk5 V c t, blk6 V c t]
  obtain ⟨e00, e01, e10, e11, -, -, -, -, -, -, -, -, -, -, e70, e71⟩ := idx_facts t
  have ht : t.val < 10 := lt_of_lt_of_eq t.isLt N_1
  funext j
  obtain ⟨p, q, rfl⟩ : ∃ (p : Fin 10000) (q : Fin 64), j = ix2 p q := ⟨j 0, j 1, eq_ix2 j⟩
  have hp : p.val < 10000 := p.isLt
  have hr : t.val * 10000 + p.val < 100000 := by omega
  have hemb : ((cfg1.win 7).blk t).view.emb (ix2 p q) = ix2 (⟨t.val * 10000 + p.val, hr⟩ : Fin 100000) q := by
    funext a; apply Fin.ext
    match a with
    | ⟨0, _⟩ => show win1_7.index t (0 : Fin 2) * 10000 + 1 * p.val = t.val * 10000 + p.val; omega
    | ⟨1, _⟩ => show win1_7.index t (1 : Fin 2) * 64 + 1 * q.val = q.val; omega
  show nodeTable 10000 (iblk1 V c 0 t) (iblk1 V c 1 t) (V c main_v58) (V c main_v51) (V c main_v59) (V c main_v55) (V c main_v60) (ix2 p q)
     = G V c (((cfg1.win 7).blk t).view.emb (ix2 p q))
  rw [hemb]
  refine nodeTable_band (iblk1 V c 0 t) (iblk1 V c 1 t) (V c main_v32) (V c main_v47) _ _ _ _ _ _ _ _ _ _ p ⟨_, hr⟩ q
    (fun j => ?_) (fun j => ?_) rfl rfl rfl rfl rfl
  · show V c main_v32 (((cfg1.win 0).blk t).view.emb (ix2 p j)) = V c main_v32 (ix2 (⟨t.val * 10000 + p.val, hr⟩ : Fin 100000) j)
    refine congrArg _ (funext fun a => Fin.ext ?_)
    match a with
    | ⟨0, _⟩ => show win1_0.index t (0 : Fin 2) * 10000 + 1 * p.val = t.val * 10000 + p.val; omega
    | ⟨1, _⟩ => show win1_0.index t (1 : Fin 2) * 64 + 1 * j.val = j.val; omega
  · show V c main_v47 (((cfg1.win 1).blk t).view.emb (ix2 p j)) = V c main_v47 (ix2 (⟨t.val * 10000 + p.val, hr⟩ : Fin 100000) j)
    refine congrArg _ (funext fun a => Fin.ext ?_)
    match a with
    | ⟨0, _⟩ => show win1_1.index t (0 : Fin 2) * 10000 + 1 * p.val = t.val * 10000 + p.val; omega
    | ⟨1, _⟩ => show win1_1.index t (1 : Fin 2) * 64 + 1 * j.val = j.val; omega

/-! ## The bands cover the table -/

theorem mem_blk (t : Fin cfg1.N) (i : S100000x64.Idx) :
    i ∈ ((cfg1.win 7).blk t).view.set ↔ ∀ a : Fin 2, win1_7.index t a * S10000x64.size a ≤ (i a).val
      ∧ (i a).val < win1_7.index t a * S10000x64.size a + S10000x64.size a := by
  show i ∈ ((View.whole main_v61).slice (win1_7.rect t)).set ↔ _
  rw [View.set_slice_whole, Rect.mem_set_unit]
  exact Iff.rfl

/-- Row r lies in the band of point r / 10000. -/
theorem cover (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  have hlt : (i 0).val / 10000 < grid1.N := lt_of_lt_of_eq (by omega : (i 0).val / 10000 < 10) N_1.symm
  obtain ⟨-, -, -, -, -, -, -, -, -, -, -, -, -, -, e70, e71⟩ := idx_facts ⟨(i 0).val / 10000, hlt⟩
  have e70' : win1_7.index ⟨(i 0).val / 10000, hlt⟩ (0 : Fin 2) = (i 0).val / 10000 := e70
  refine ⟨⟨(i 0).val / 10000, hlt⟩, flush1_7 _, ?_⟩
  rw [mem_blk]
  intro a
  match a with
  | ⟨0, _⟩ =>
    show win1_7.index ⟨(i 0).val / 10000, hlt⟩ (0 : Fin 2) * 10000 ≤ (i 0).val
      ∧ (i 0).val < win1_7.index ⟨(i 0).val / 10000, hlt⟩ (0 : Fin 2) * 10000 + 10000
    omega
  | ⟨1, _⟩ =>
    show win1_7.index ⟨(i 0).val / 10000, hlt⟩ (1 : Fin 2) * 64 ≤ (i 1).val
      ∧ (i 1).val < win1_7.index ⟨(i 0).val / 10000, hlt⟩ (1 : Fin 2) * 64 + 64
    omega

/-- The output table after the region: the node update of the tables as the region found them. -/
theorem final (c : Dev nD) : (dat1 V c).arrAt 7 cfg1.N = G V c :=
  (dat1 V c).arrAt_eq_of_cover 7 (G V c) (fun t _ => flushed_eq V c t) cover

end Cert.KernelIdeal.Reg1

end
-- ==== Proof.KRegion2.lean ====
/-
  The node update of layer 3, band by band, is the node update of the whole table.

  The region processes the 100000-row feature table in ten bands of 10000 rows: at grid point t it reads rows
  [10000·t, 10000·t + 10000) of the feature table and of the message table, the whole scalar, weight and bias tables,
  and writes the same band of rows of its output table.  A band's stored row p is the node update of the band's
  row p (KPay.lean), which is row 10000·t + p of the whole tables (Band.lean); the ten bands cover every row once.
  So the output table ends holding the node update of the whole tables as the region found them.
-/
import proofs.«143737_j50861002719555_2_alg».proof.Proof.Gen.KernelIdeal.Frame
import proofs.«143737_j50861002719555_2_alg».proof.Proof.KPay
import proofs.«143737_j50861002719555_2_alg».proof.Proof.Band

set_option maxRecDepth 16384

noncomputable section

namespace Cert.KernelIdeal.Reg2

open Cert.KernelIdeal Cert.KernelIdeal.Gen Idealize.ShloMosaic Idealize.ShloMosaic.TcCoe Idealize.ShloMosaic.ValueIdx
open Idealize.SL.Sem Cert.Gnn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row tables and the output move one band per point, the small
    tables stay at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- What the output table ends holding: the node update of the tables the region finds. -/
def G (c : Dev nD) : S100000x64.Idx → EReal :=
  nodeTable 100000 (V c main_v61) (V c main_v76) (V c main_v87) (V c main_v80) (V c main_v88) (V c main_v84) (V c main_v89)

/-! ## The small tables' one block is the table -/

theorem blk2 (c : Dev nD) (t : Fin cfg2.N) : iblk2 V c 2 t = V c main_v87 := by
  obtain ⟨-, -, -, -, e0, e1, -⟩ := idx_facts t
  funext y
  show V c main_v87 (((cfg2.win 2).blk t).view.emb y) = V c main_v87 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 1 + 1 * (y 1).val = (y 1).val; omega
theorem blk3 (c : Dev nD) (t : Fin cfg2.N) : iblk2 V c 3 t = V c main_v80 := by
  obtain ⟨-, -, -, -, -, -, e0, e1, -⟩ := idx_facts t
  funext y
  show V c main_v80 (((cfg2.win 3).blk t).view.emb y) = V c main_v80 y
  refine congrArg _ (funext fun a => Fin.ext ?_)
  match a with
  | ⟨0, _⟩ => show win2_3.index t (0 : Fin 2) * 64 + 1 * (y 0).val = (y 0).val; omega
  | ⟨1, _⟩ => show win2_3.index t (1 : Fin 2) * 64 + 1 * (y 1).val = (y 1).val; omega
theorem blk4 (c : Dev nD) (t : Fin cfg2.N) : iblk2 V c 4 t = V c main_v88 := by
  obtain ⟨-, -, -, -, -, -, -, -, e0, e1, -⟩ := idx_facts t
  funext y
  show V c main_v88 (((cfg2.win 4).blk t).view.emb y) = V c main_v88 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 64 + 1 * (y 1).val = (y 1).val; omega
theorem blk5 (c : Dev nD) (t : Fin cfg2.N) : iblk2 V c 5 t = V c main_v84 := by
  obtain ⟨-, -, -, -, -, -, -, -, -, -, e0, e1, -⟩ := idx_facts t
  funext y
  show V c main_v84 (((cfg2.win 5).blk t).view.emb y) = V c main_v84 y
  refine congrArg _ (funext fun a => Fin.ext ?_)
  match a with
  | ⟨0, _⟩ => show win2_5.index t (0 : Fin 2) * 64 + 1 * (y 0).val = (y 0).val; omega
  | ⟨1, _⟩ => show win2_5.index t (1 : Fin 2) * 64 + 1 * (y 1).val = (y 1).val; omega
theorem blk6 (c : Dev nD) (t : Fin cfg2.N) : iblk2 V c 6 t = V c main_v89 := by
  obtain ⟨-, -, -, -, -, -, -, -, -, -, -, -, e0, e1, -⟩ := idx_facts t
  funext y
  show V c main_v89 (((cfg2.win 6).blk t).view.emb y) = V c main_v89 y
  refine congrArg _ (funext fun a => Fin.ext ?_)
  match a with
  | ⟨0, _⟩ => show win2_6.index t (0 : Fin 2) * 1 + 1 * (y 0).val = (y 0).val; omega
  | ⟨1, _⟩ => show win2_6.index t (1 : Fin 2) * 64 + 1 * (y 1).val = (y 1).val; omega

/-! ## What a point writes back -/

/-- Point t writes back band t of the node update of the whole tables. -/
theorem flushed_eq (c : Dev nD) (t : Fin cfg2.N) :
    (dat2 V c).flushed 7 t = ((cfg2.win 7).blk t).view.read (Elt Ideal) (G V c) := by
  show (cfg2.win 7).cut (grid2.coords t) ((dat2 V c).after 7 t) = _
  rw [after2_7]
  unfold out2_7
  rw [View.canon_unit_zero hz]
  simp only [View.ld_unit_zero (S := S10000x64) hz, View.ld_unit_zero (S := S1x1) hz, View.ld_unit_zero (S := S64x64) hz,
    View.ld_unit_zero (S := S1x64) hz]
  rw [Pay.k2_pay1_eq, blk2 V c t, blk3 V c t, blk4 V c t, blk5 V c t, blk6 V c t]
  obtain ⟨e00, e01, e10, e11, -, -, -, -, -, -, -, -, -, -, e70, e71⟩ := idx_facts t
  have ht : t.val < 10 := lt_of_lt_of_eq t.isLt N_2
  funext j
  obtain ⟨p, q, rfl⟩ : ∃ (p : Fin 10000) (q : Fin 64), j = ix2 p q := ⟨j 0, j 1, eq_ix2 j⟩
  have hp : p.val < 10000 := p.isLt
  have hr : t.val * 10000 + p.val < 100000 := by omega
  have hemb : ((cfg2.win 7).blk t).view.emb (ix2 p q) = ix2 (⟨t.val * 10000 + p.val, hr⟩ : Fin 100000) q := by
    funext a; apply Fin.ext
    match a with
    | ⟨0, _⟩ => show win2_7.index t (0 : Fin 2) * 10000 + 1 * p.val = t.val * 10000 + p.val; omega
    | ⟨1, _⟩ => show win2_7.index t (1 : Fin 2) * 64 + 1 * q.val = q.val; omega
  show nodeTable 10000 (iblk2 V c 0 t) (iblk2 V c 1 t) (V c main_v87) (V c main_v80) (V c main_v88) (V c main_v84) (V c main_v89) (ix2 p q)
     = G V c (((cfg2.win 7).blk t).view.emb (ix2 p q))
  rw [hemb]
  refine nodeTable_band (iblk2 V c 0 t) (iblk2 V c 1 t) (V c main_v61) (V c main_v76) _ _ _ _ _ _ _ _ _ _ p ⟨_, hr⟩ q
    (fun j => ?_) (fun j => ?_) rfl rfl rfl rfl rfl
  · show V c main_v61 (((cfg2.win 0).blk t).view.emb (ix2 p j)) = V c main_v61 (ix2 (⟨t.val * 10000 + p.val, hr⟩ : Fin 100000) j)
    refine congrArg _ (funext fun a => Fin.ext ?_)
    match a with
    | ⟨0, _⟩ => show win2_0.index t (0 : Fin 2) * 10000 + 1 * p.val = t.val * 10000 + p.val; omega
    | ⟨1, _⟩ => show win2_0.index t (1 : Fin 2) * 64 + 1 * j.val = j.val; omega
  · show V c main_v76 (((cfg2.win 1).blk t).view.emb (ix2 p j)) = V c main_v76 (ix2 (⟨t.val * 10000 + p.val, hr⟩ : Fin 100000) j)
    refine congrArg _ (funext fun a => Fin.ext ?_)
    match a with
    | ⟨0, _⟩ => show win2_1.index t (0 : Fin 2) * 10000 + 1 * p.val = t.val * 10000 + p.val; omega
    | ⟨1, _⟩ => show win2_1.index t (1 : Fin 2) * 64 + 1 * j.val = j.val; omega

/-! ## The bands cover the table -/

theorem mem_blk (t : Fin cfg2.N) (i : S100000x64.Idx) :
    i ∈ ((cfg2.win 7).blk t).view.set ↔ ∀ a : Fin 2, win2_7.index t a * S10000x64.size a ≤ (i a).val
      ∧ (i a).val < win2_7.index t a * S10000x64.size a + S10000x64.size a := by
  show i ∈ ((View.whole main_v90).slice (win2_7.rect t)).set ↔ _
  rw [View.set_slice_whole, Rect.mem_set_unit]
  exact Iff.rfl

/-- Row r lies in the band of point r / 10000. -/
theorem cover (i : S100000x64.Idx) :
    ∃ t : Fin cfg2.N, (cfg2.win 7).flush t = true ∧ i ∈ ((cfg2.win 7).blk t).view.set := by
  have hi0 : (i 0).val < 100000 := (i 0).isLt
  have hi1 : (i 1).val < 64 := (i 1).isLt
  have hlt : (i 0).val / 10000 < grid2.N := lt_of_lt_of_eq (by omega : (i 0).val / 10000 < 10) N_2.symm
  obtain ⟨-, -, -, -, -, -, -, -, -, -, -, -, -, -, e70, e71⟩ := idx_facts ⟨(i 0).val / 10000, hlt⟩
  have e70' : win2_7.index ⟨(i 0).val / 10000, hlt⟩ (0 : Fin 2) = (i 0).val / 10000 := e70
  refine ⟨⟨(i 0).val / 10000, hlt⟩, flush2_7 _, ?_⟩
  rw [mem_blk]
  intro a
  match a with
  | ⟨0, _⟩ =>
    show win2_7.index ⟨(i 0).val / 10000, hlt⟩ (0 : Fin 2) * 10000 ≤ (i 0).val
      ∧ (i 0).val < win2_7.index ⟨(i 0).val / 10000, hlt⟩ (0 : Fin 2) * 10000 + 10000
    omega
  | ⟨1, _⟩ =>
    show win2_7.index ⟨(i 0).val / 10000, hlt⟩ (1 : Fin 2) * 64 ≤ (i 1).val
      ∧ (i 1).val < win2_7.index ⟨(i 0).val / 10000, hlt⟩ (1 : Fin 2) * 64 + 64
    omega

/-- The output table after the region: the node update of the tables as the region found them. -/
theorem final (c : Dev nD) : (dat2 V c).arrAt 7 cfg2.N = G V c :=
  (dat2 V c).arrAt_eq_of_cover 7 (G V c) (fun t _ => flushed_eq V c t) cover

end Cert.KernelIdeal.Reg2

end
-- ==== Proof.KRegion3.lean ====
/-
  The node update of layer 4, band by band, is the node update of the whole table.

  The region processes the 100000-row feature table in ten bands of 10000 rows: at grid point t it reads rows
  [10000·t, 10000·t + 10000) of the feature table and of the message table, the whole scalar, weight and bias tables,
  and writes the same band of rows of its output table.  A band's stored row p is the node update of the band's
  row p (KPay.lean), which is row 10000·t + p of the whole tables (Band.lean); the ten bands cover every row once.
  So the output table ends holding the node update of the whole tables as the region found them.
-/
import proofs.«143737_j50861002719555_2_alg».proof.Proof.Gen.KernelIdeal.Frame
import proofs.«143737_j50861002719555_2_alg».proof.Proof.KPay
import proofs.«143737_j50861002719555_2_alg».proof.Proof.Band

set_option maxRecDepth 16384

noncomputable section

namespace Cert.KernelIdeal.Reg3

open Cert.KernelIdeal Cert.KernelIdeal.Gen Idealize.ShloMosaic Idealize.ShloMosaic.TcCoe Idealize.ShloMosaic.ValueIdx
open Idealize.SL.Sem Cert.Gnn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row tables and the output move one band per point, the small
    tables stay at their one block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- What the output table ends holding: the node update of the tables the region finds. -/
def G (c : Dev nD) : S100000x64.Idx → EReal :=
  nodeTable 100000 (V c main_v90) (V c main_v105) (V c main_v116) (V c main_v109) (V c main_v117) (V c main_v113) (V c main_v118)

/-! ## The small tables' one block is the table -/

theorem blk2 (c : Dev nD) (t : Fin cfg3.N) : iblk3 V c 2 t = V c main_v116 := by
  obtain ⟨-, -, -, -, e0, e1, -⟩ := idx_facts t
  funext y
  show V c main_v116 (((cfg3.win 2).blk t).view.emb y) = V c main_v116 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 1 + 1 * (y 1).val = (y 1).val; omega
theorem blk3 (c : Dev nD) (t : Fin cfg3.N) : iblk3 V c 3 t = V c main_v109 := by
  obtain ⟨-, -, -, -, -, -, e0, e1, -⟩ := idx_facts t
  funext y
  show V c main_v109 (((cfg3.win 3).blk t).view.emb y) = V c main_v109 y
  refine congrArg _ (funext fun a => Fin.ext ?_)
  match a with
  | ⟨0, _⟩ => show win3_3.index t (0 : Fin 2) * 64 + 1 * (y 0).val = (y 0).val; omega
  | ⟨1, _⟩ => show win3_3.index t (1 : Fin 2) * 64 + 1 * (y 1).val = (y 1).val; omega
theorem blk4 (c : Dev nD) (t : Fin cfg3.N) : iblk3 V c 4 t = V c main_v117 := by
  obtain ⟨-, -, -, -, -, -, -, -, e0, e1, -⟩ := idx_facts t
  funext y
  show V c main_v117 (((cfg3.win 4).blk t).view.emb y) = V c main_v117 y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 64 + 1 * (y 1).val = (y 1).val; omega
theorem blk5 (c : Dev nD) (t : Fin cfg3.N) : iblk3 V c 5 t = V c main_v113 := by
  obtain ⟨-, -, -, -, -, -, -, -, -, -, e0, e1, -⟩ := idx_facts t
  funext y
  show V c main_v113 (((cfg3.win 5).blk t).view.emb y) = V c main_v113 y
  refine congrArg _ (funext fun a => Fin.ext ?_)
  match a with
  | ⟨0, _⟩ => show win3_5.index t (0 : Fin 2) * 64 + 1 * (y 0).val = (y 0).val; omega
  | ⟨1, _⟩ => show win3_5.index t (1 : Fin 2) * 64 + 1 * (y 1).val = (y 1).val; omega
theorem blk6 (c : Dev nD) (t : Fin cfg3.N) : iblk3 V c 6 t = V c main_v118 := by
  obtain ⟨-, -, -, -, -, -, -, -, -, -, -, -, e0, e1, -⟩ := idx_facts t
  funext y
  show V c main_v118 (((cfg3.win 6).blk t).view.emb y) = V c main_v118 y
  refine congrArg _ (funext fun a => Fin.ext ?_)
  match a with
  | ⟨0, _⟩ => show win3_6.index t (0 : Fin 2) * 1 + 1 * (y 0).val = (y 0).val; omega
  | ⟨1, _⟩ => show win3_6.index t (1 : Fin 2) * 64 + 1 * (y 1).val = (y 1).val; omega

/-! ## What a point writes back -/

/-- Point t writes back band t of the node update of the whole tables. -/
theorem flushed_eq (c : Dev nD) (t : Fin cfg3.N) :
    (dat3 V c).flushed 7 t = ((cfg3.win 7).blk t).view.read (Elt Ideal) (G V c) := by
  show (cfg3.win 7).cut (grid3.coords t) ((dat3 V c).after 7 t) = _
  rw [after3_7]
  unfold out3_7
  rw [View.canon_unit_zero hz]
  simp only [View.ld_unit_zero (S := S10000x64) hz, View.ld_unit_zero (S := S1x1) hz, View.ld_unit_zero (S := S64x64) hz,
    View.ld_unit_zero (S := S1x64) hz]
  rw [Pay.k3_pay1_eq, blk2 V c t, blk3 V c t, blk4 V c t, blk5 V c t, blk6 V c t]
  obtain ⟨e00, e01, e10, e11, -, -, -, -, -, -, -, -, -, -, e70, e71⟩ := idx_facts t
  have ht : t.val < 10 := lt_of_lt_of_eq t.isLt N_3
  funext j
  obtain ⟨p, q, rfl⟩ : ∃ (p : Fin 10000) (q : Fin 64), j = ix2 p q := ⟨j 0, j 1, eq_ix2 j⟩
  have hp : p.val < 10000 := p.isLt
  have hr : t.val * 10000 + p.val < 100000 := by omega
  have hemb : ((cfg3.win 7).blk t).view.emb (ix2 p q) = ix2 (⟨t.val * 10000 + p.val, hr⟩ : Fin 100000) q := by
    funext a; apply Fin.ext
    match a with
    | ⟨0, _⟩ => show win3_7.index t (0 : Fin 2) * 10000 + 1 * p.val = t.val * 10000 + p.val; omega
    | ⟨1, _⟩ => show win3_7.index t (1 : Fin 2) * 64 + 1 * q.val = q.val; omega
  show nodeTable 10000 (iblk3 V c 0 t) (iblk3 V c 1 t) (V c main_v116) (V c main_v109) (V c main_v117) (V c main_v113) (V c main_v118) (ix2 p q)
     = G V c (((cfg3.win 7).blk t).view.emb (ix2 p q))
  rw [hemb]
  refine nodeTable_band (iblk3 V c 0 t) (iblk3 V c 1 t) (V c main_v90) (V c main_v105) _ _ _ _ _ _ _ _ _ _ p ⟨_, hr⟩ q
    (fun j => ?_) (fun j => ?_) rfl rfl rfl rfl rfl
  · show V c main_v90 (((cfg3.win 0).blk t).view.emb (ix2 p j)) = V c main_v90 (ix2 (⟨t.val * 10000 + p.val, hr⟩ : Fin 100000) j)
    refine congrArg _ (funext fun a => Fin.ext ?_)
    match a with
    | ⟨0, _⟩ => show win3_0.index t (0 : Fin 2) * 10000 + 1 * p.val = t.val * 10000 + p.val; omega
    | ⟨1, _⟩ => show win3_0.index t (1 : Fin 2) * 64 + 1 * j.val = j.val; omega
  · show V c main_v105 (((cfg3.win 1).blk t).view.emb (ix2 p j)) = V c main_v105 (ix2 (⟨t.val * 10000 + p.val, hr⟩ : Fin 100000) j)
    refine congrArg _ (funext fun a => Fin.ext ?_)
    match a with
    | ⟨0, _⟩ => show win3_1.index t (0 : Fin 2) * 10000 + 1 * p.val = t.val * 10000 + p.val; omega
    | ⟨1, _⟩ => show win3_1.index t (1 : Fin 2) * 64 + 1 * j.val = j.val; omega

/-! ## The bands cover the table -/

theorem mem_blk (t : Fin cfg3.N) (i : S100000x64.Idx) :
    i ∈ ((cfg3.win 7).blk t).view.set ↔ ∀ a : Fin 2, win3_7.index t a * S10000x64.size a ≤ (i a).val
      ∧ (i a).val < win3_7.index t a * S10000x64.size a + S10000x64.size a := by
  show i ∈ ((View.whole main_v119).slice (win3_7.rect t)).set ↔ _
  rw [View.set_slice_whole, Rect.mem_set_unit]
  exact Iff.rfl

/-- Row r lies in the band of point r / 10000. -/
theorem cover (i : S100000x64.Idx) :
    ∃ t : Fin cfg3.N, (cfg3.win 7).flush t = true ∧ i ∈ ((cfg3.win 7).blk t).view.set := by
  have hi0 : (i 0).val < 100000 := (i 0).isLt
  have hi1 : (i 1).val < 64 := (i 1).isLt
  have hlt : (i 0).val / 10000 < grid3.N := lt_of_lt_of_eq (by omega : (i 0).val / 10000 < 10) N_3.symm
  obtain ⟨-, -, -, -, -, -, -, -, -, -, -, -, -, -, e70, e71⟩ := idx_facts ⟨(i 0).val / 10000, hlt⟩
  have e70' : win3_7.index ⟨(i 0).val / 10000, hlt⟩ (0 : Fin 2) = (i 0).val / 10000 := e70
  refine ⟨⟨(i 0).val / 10000, hlt⟩, flush3_7 _, ?_⟩
  rw [mem_blk]
  intro a
  match a with
  | ⟨0, _⟩ =>
    show win3_7.index ⟨(i 0).val / 10000, hlt⟩ (0 : Fin 2) * 10000 ≤ (i 0).val
      ∧ (i 0).val < win3_7.index ⟨(i 0).val / 10000, hlt⟩ (0 : Fin 2) * 10000 + 10000
    omega
  | ⟨1, _⟩ =>
    show win3_7.index ⟨(i 0).val / 10000, hlt⟩ (1 : Fin 2) * 64 ≤ (i 1).val
      ∧ (i 1).val < win3_7.index ⟨(i 0).val / 10000, hlt⟩ (1 : Fin 2) * 64 + 64
    omega

/-- The output table after the region: the node update of the tables as the region found them. -/
theorem final (c : Dev nD) : (dat3 V c).arrAt 7 cfg3.N = G V c :=
  (dat3 V c).arrAt_eq_of_cover 7 (G V c) (fun t _ => flushed_eq V c t) cover

end Cert.KernelIdeal.Reg3

end
-- ==== Proof.KRegion4.lean ====
/-
  The read-out head is one block: the region's single grid point reads the whole pooled table, the whole weight and
  bias tables, and writes the whole 2000 × 1 output, which therefore ends holding the read-out (RowMlp.lean,
  KPay.lean) of the tables as the region found them.
-/
import proofs.«143737_j50861002719555_2_alg».proof.Proof.Gen.KernelIdeal.Frame
import proofs.«143737_j50861002719555_2_alg».proof.Proof.KPay

set_option maxRecDepth 16384

noncomputable section

namespace Cert.KernelIdeal.Reg4

open Cert.KernelIdeal Cert.KernelIdeal.Gen Idealize.ShloMosaic Idealize.ShloMosaic.TcCoe Idealize.ShloMosaic.ValueIdx
open Idealize.SL.Sem Cert.Gnn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window sits at its one block. -/
theorem idx_facts : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 ∧ True :=
  (by decide +kernel : ∀ t : Fin grid4.N, _)

/-- What the output ends holding: the read-out of the tables the region finds. -/
def G (c : Dev nD) : S2000x1.Idx → EReal :=
  headTable (V c main_v132) (V c main_arg11) (V c main_v133) (V c main_arg13) (V c main_v134)

/-! ## Each window's one block is its table -/

theorem blk0 (c : Dev nD) (t : Fin cfg4.N) : iblk4 V c 0 t = V c main_v132 := by
  obtain ⟨e0, e1, -⟩ := idx_facts t
  funext y
  show V c main_v132 (((cfg4.win 0).blk t).view.emb y) = V c main_v132 y
  refine congrArg _ (funext fun a => Fin.ext ?_)
  match a with
  | ⟨0, _⟩ => show win4_0.index t (0 : Fin 2) * 2000 + 1 * (y 0).val = (y 0).val; omega
  | ⟨1, _⟩ => show win4_0.index t (1 : Fin 2) * 65 + 1 * (y 1).val = (y 1).val; omega
theorem blk1 (c : Dev nD) (t : Fin cfg4.N) : iblk4 V c 1 t = V c main_arg11 := by
  obtain ⟨-, -, e0, e1, -⟩ := idx_facts t
  funext y
  show V c main_arg11 (((cfg4.win 1).blk t).view.emb y) = V c main_arg11 y
  refine congrArg _ (funext fun a => Fin.ext ?_)
  match a with
  | ⟨0, _⟩ => show win4_1.index t (0 : Fin 2) * 65 + 1 * (y 0).val = (y 0).val; omega
  | ⟨1, _⟩ => show win4_1.index t (1 : Fin 2) * 64 + 1 * (y 1).val = (y 1).val; omega
theorem blk2 (c : Dev nD) (t : Fin cfg4.N) : iblk4 V c 2 t = V c main_v133 := by
  obtain ⟨-, -, -, -, e0, e1, -⟩ := idx_facts t
  funext y
  show V c main_v133 (((cfg4.win 2).blk t).view.emb y) = V c main_v133 y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 64 + 1 * (y 1).val = (y 1).val; omega
theorem blk3 (c : Dev nD) (t : Fin cfg4.N) : iblk4 V c 3 t = V c main_arg13 := by
  obtain ⟨-, -, -, -, -, -, e0, e1, -⟩ := idx_facts t
  funext y
  show V c main_arg13 (((cfg4.win 3).blk t).view.emb y) = V c main_arg13 y
  refine congrArg _ (funext fun a => Fin.ext ?_)
  match a with
  | ⟨0, _⟩ => show win4_3.index t (0 : Fin 2) * 64 + 1 * (y 0).val = (y 0).val; omega
  | ⟨1, _⟩ => show win4_3.index t (1 : Fin 2) * 1 + 1 * (y 1).val = (y 1).val; omega
theorem blk4 (c : Dev nD) (t : Fin cfg4.N) : iblk4 V c 4 t = V c main_v134 := by
  obtain ⟨-, -, -, -, -, -, -, -, e0, e1, -⟩ := idx_facts t
  funext y
  show V c main_v134 (((cfg4.win 4).blk t).view.emb y) = V c main_v134 y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 1 + 1 * (y 1).val = (y 1).val; omega

/-! ## What the point writes back, and the cover -/

theorem flushed_eq (c : Dev nD) (t : Fin cfg4.N) :
    (dat4 V c).flushed 5 t = ((cfg4.win 5).blk t).view.read (Elt Ideal) (G V c) := by
  show (cfg4.win 5).cut (grid4.coords t) ((dat4 V c).after 5 t) = _
  rw [after4_5]
  unfold out4_5
  rw [View.canon_unit_zero hz]
  simp only [View.ld_unit_zero (S := S2000x65) hz, View.ld_unit_zero (S := S65x64) hz, View.ld_unit_zero (S := S1x64) hz,
    View.ld_unit_zero (S := S64x1) hz, View.ld_unit_zero (S := S1x1) hz]
  rw [Pay.k4_pay1_eq, blk0 V c t, blk1 V c t, blk2 V c t, blk3 V c t, blk4 V c t]
  obtain ⟨-, -, -, -, -, -, -, -, -, -, e50, e51, -⟩ := idx_facts t
  funext j
  show G V c j = G V c (((cfg4.win 5).blk t).view.emb j)
  refine congrArg _ (funext fun a => Fin.ext ?_)
  match a with
  | ⟨0, _⟩ => show (j 0).val = win4_5.index t (0 : Fin 2) * 2000 + 1 * (j 0).val; omega
  | ⟨1, _⟩ => show (j 1).val = win4_5.index t (1 : Fin 2) * 1 + 1 * (j 1).val; omega

theorem mem_blk (t : Fin cfg4.N) (i : S2000x1.Idx) :
    i ∈ ((cfg4.win 5).blk t).view.set ↔ ∀ a : Fin 2, win4_5.index t a * S2000x1.size a ≤ (i a).val
      ∧ (i a).val < win4_5.index t a * S2000x1.size a + S2000x1.size a := by
  show i ∈ ((View.whole main_v135).slice (win4_5.rect t)).set ↔ _
  rw [View.set_slice_whole, Rect.mem_set_unit]
  exact Iff.rfl

theorem cover (i : S2000x1.Idx) :
    ∃ t : Fin cfg4.N, (cfg4.win 5).flush t = true ∧ i ∈ ((cfg4.win 5).blk t).view.set := by
  have hi0 : (i 0).val < 2000 := (i 0).isLt
  have hi1 : (i 1).val < 1 := (i 1).isLt
  have hlt : 0 < grid4.N := lt_of_lt_of_eq (by omega : 0 < 1) N_4.symm
  obtain ⟨-, -, -, -, -, -, -, -, -, -, e50, e51, -⟩ := idx_facts ⟨0, hlt⟩
  refine ⟨⟨0, hlt⟩, flush4_5 _, ?_⟩
  rw [mem_blk]
  intro a
  match a with
  | ⟨0, _⟩ =>
    show win4_5.index ⟨0, hlt⟩ (0 : Fin 2) * 2000 ≤ (i 0).val ∧ (i 0).val < win4_5.index ⟨0, hlt⟩ (0 : Fin 2) * 2000 + 2000
    omega
  | ⟨1, _⟩ =>
    show win4_5.index ⟨0, hlt⟩ (1 : Fin 2) * 1 ≤ (i 1).val ∧ (i 1).val < win4_5.index ⟨0, hlt⟩ (1 : Fin 2) * 1 + 1
    omega

/-- The output after the region: the read-out of the tables as the region found them. -/
theorem final (c : Dev nD) : (dat4 V c).arrAt 5 cfg4.N = G V c :=
  (dat4 V c).arrAt_eq_of_cover 5 (G V c) (fun t _ => flushed_eq V c t) cover

end Cert.KernelIdeal.Reg4

end
-- ==== Proof.HostMath.lean ====
/-
  The reference's host spelling of the node update and of the read-out is the entry-by-entry form.

  On whole tables the reference computes  max(max(((1 + e) · X + A) · W1 + b1, 0) · W2 + b2, 0)  with host matrix
  products (sums over the contracted axis, no accumulator), the scalar 1 + e repeated over the table, each bias
  vector laid along every row, and the rectifier's zero repeated over the table.  Read at entry (p, q) this is the
  node update of row p (RowMlp.lean): the product's sum carried to a sum over `Fin 64`, a repeated scalar read as the
  scalar, a bias row read at its column.  The read-out is read the same way.  No finiteness is used: the two
  spellings are the same sums of the same products.
-/
import proofs.«143737_j50861002719555_2_alg».proof.Proof.HostChain
import proofs.«143737_j50861002719555_2_alg».proof.Proof.RowMlp
import proofs.«143737_j50861002719555_2_alg».proof.Proof.LibDot

noncomputable section

open scoped BigOperators

namespace Cert.Gnn

open Cert.ReferenceIdeal Cert.ReferenceIdeal.Gen Idealize.ShloMosaic Idealize.ShloMosaic.ValueIdx Cert.Sage

/-! ## The three products' index maps, coordinate by coordinate -/

abbrev rN := dot_S100000x64_S64x64_S100000x64_1_0_0_1_n_n
abbrev rH1 := dot_S2000x65_S65x64_S2000x64_1_0_0_1_n_n
abbrev rH2 := dot_S2000x64_S64x1_S2000x1_1_0_0_1_n_n

theorem rN_l0 (i : S100000x64.Idx) (q : rN.contr.Idx) : (rN.lhsIdx i q 0).val = (i 0).val := by
  unfold DotDims.lhsIdx
  rw [dif_neg (show ¬(0 : Fin S100000x64.rank) ∈ rN.lhsBatch by decide), dif_pos (show (0 : Fin S100000x64.rank) ∈ rN.lhsNonContracting by decide)]
  rfl
theorem rN_l1 (i : S100000x64.Idx) (q : rN.contr.Idx) : (rN.lhsIdx i q 1).val = (q ⟨0, by decide⟩).val :=
  rN.lhsIdx_val_of_single rfl i q
theorem rN_r0 (i : S100000x64.Idx) (q : rN.contr.Idx) : (rN.rhsIdx i q 0).val = (q ⟨0, by decide⟩).val :=
  rN.rhsIdx_val_of_single rfl i q
theorem rN_r1 (i : S100000x64.Idx) (q : rN.contr.Idx) : (rN.rhsIdx i q 1).val = (i 1).val := by
  unfold DotDims.rhsIdx
  rw [dif_neg (show ¬(1 : Fin S64x64.rank) ∈ rN.rhsBatch by decide), dif_pos (show (1 : Fin S64x64.rank) ∈ rN.rhsNonContracting by decide)]
  rfl

theorem rH1_l0 (i : S2000x64.Idx) (q : rH1.contr.Idx) : (rH1.lhsIdx i q 0).val = (i 0).val := by
  unfold DotDims.lhsIdx
  rw [dif_neg (show ¬(0 : Fin S2000x65.rank) ∈ rH1.lhsBatch by decide), dif_pos (show (0 : Fin S2000x65.rank) ∈ rH1.lhsNonContracting by decide)]
  rfl
theorem rH1_l1 (i : S2000x64.Idx) (q : rH1.contr.Idx) : (rH1.lhsIdx i q 1).val = (q ⟨0, by decide⟩).val :=
  rH1.lhsIdx_val_of_single rfl i q
theorem rH1_r0 (i : S2000x64.Idx) (q : rH1.contr.Idx) : (rH1.rhsIdx i q 0).val = (q ⟨0, by decide⟩).val :=
  rH1.rhsIdx_val_of_single rfl i q
theorem rH1_r1 (i : S2000x64.Idx) (q : rH1.contr.Idx) : (rH1.rhsIdx i q 1).val = (i 1).val := by
  unfold DotDims.rhsIdx
  rw [dif_neg (show ¬(1 : Fin S65x64.rank) ∈ rH1.rhsBatch by decide), dif_pos (show (1 : Fin S65x64.rank) ∈ rH1.rhsNonContracting by decide)]
  rfl

theorem rH2_l0 (i : S2000x1.Idx) (q : rH2.contr.Idx) : (rH2.lhsIdx i q 0).val = (i 0).val := by
  unfold DotDims.lhsIdx
  rw [dif_neg (show ¬(0 : Fin S2000x64.rank) ∈ rH2.lhsBatch by decide), dif_pos (show (0 : Fin S2000x64.rank) ∈ rH2.lhsNonContracting by decide)]
  rfl
theorem rH2_l1 (i : S2000x1.Idx) (q : rH2.contr.Idx) : (rH2.lhsIdx i q 1).val = (q ⟨0, by decide⟩).val :=
  rH2.lhsIdx_val_of_single rfl i q
theorem rH2_r0 (i : S2000x1.Idx) (q : rH2.contr.Idx) : (rH2.rhsIdx i q 0).val = (q ⟨0, by decide⟩).val :=
  rH2.rhsIdx_val_of_single rfl i q
theorem rH2_r1 (i : S2000x1.Idx) (q : rH2.contr.Idx) : (rH2.rhsIdx i q 1).val = (i 1).val := by
  unfold DotDims.rhsIdx
  rw [dif_neg (show ¬(1 : Fin S64x1.rank) ∈ rH2.rhsBatch by decide), dif_pos (show (1 : Fin S64x1.rank) ∈ rH2.rhsNonContracting by decide)]
  rfl

/-! ## A host product at an entry -/

theorem dgN (l : FVec Ideal S100000x64 .f32) (r : FVec Ideal S64x64 .f32) (p : Fin 100000) (q : Fin 64) :
    Host.dotGeneral (F := Ideal) rN none l r (ix2 p q) = ∑ k : Fin 64, l (ix2 p k) * r (ix2 k q) := by
  show FloatOps.dotGeneral rN none _ l r (ix2 p q) = _
  rw [Ideal.dotGeneral_apply]
  exact LibDot.sum_plain rN rfl rfl rN_l0 rN_l1 rN_r0 rN_r1 l r p q

theorem dgH1 (l : FVec Ideal S2000x65 .f32) (r : FVec Ideal S65x64 .f32) (p : Fin 2000) (q : Fin 64) :
    Host.dotGeneral (F := Ideal) rH1 none l r (ix2 p q) = ∑ k : Fin 65, l (ix2 p k) * r (ix2 k q) := by
  show FloatOps.dotGeneral rH1 none _ l r (ix2 p q) = _
  rw [Ideal.dotGeneral_apply]
  exact LibDot.sum_plain rH1 rfl rfl rH1_l0 rH1_l1 rH1_r0 rH1_r1 l r p q

theorem dgH2 (l : FVec Ideal S2000x64 .f32) (r : FVec Ideal S64x1 .f32) (p : Fin 2000) (q : Fin 1) :
    Host.dotGeneral (F := Ideal) rH2 none l r (ix2 p q) = ∑ k : Fin 64, l (ix2 p k) * r (ix2 k q) := by
  show FloatOps.dotGeneral rH2 none _ l r (ix2 p q) = _
  rw [Ideal.dotGeneral_apply]
  exact LibDot.sum_plain rH2 rfl rfl rH2_l0 rH2_l1 rH2_r0 rH2_r1 l r p q

/-- A scalar repeated over a table reads the scalar everywhere. -/
theorem scalarTo_apply {t : Shape} (y : S_.Idx → EReal) (h : S_.BroadcastsInDim t ![]) (j : t.Idx) :
    broadcastInDim t ![] h y j = y ix0 :=
  broadcastInDim_apply ![] h y j ix0 (fun a => a.elim0)

/-! ## The two spellings agree -/

/-- The scalar as a 1 × 1 table, and a vector as a one-row table: how the entry-by-entry form takes them. -/
def cell (e : FVec Ideal S_ .f32) : (⟨2, ![1, 1]⟩ : Shape).Idx → EReal := fun _ => e ix0
def rowOf {n : Nat} (b : (⟨1, ![n]⟩ : Shape).Idx → EReal) : (⟨2, ![1, n]⟩ : Shape).Idx → EReal := fun i => b (ix1 (i 1 : Fin n))

theorem hostNode_eq (X A : FVec Ideal S100000x64 .f32) (e : FVec Ideal S_ .f32) (W1 : FVec Ideal S64x64 .f32)
    (b1 : FVec Ideal S64 .f32) (W2 : FVec Ideal S64x64 .f32) (b2 : FVec Ideal S64 .f32) :
    hostNode X A e W1 b1 W2 b2 = nodeTable 100000 X A (cell e) W1 (rowOf b1) W2 (rowOf b2) := by
  funext i
  obtain ⟨p, q, rfl⟩ : ∃ (p : Fin 100000) (q : Fin 64), i = ix2 p q := ⟨i 0, i 1, eq_ix2 i⟩
  unfold hostNode nodeTable rowMlp cell rowOf
  show max (Host.dotGeneral (F := Ideal) rN none _ W2 (ix2 p q)
        + broadcastInDim S100000x64 ![0, 1] bcast_S1x64_S100000x64_0_1 (broadcastInDim S1x64 ![1] bcast_S64_S1x64_1 b2) (ix2 p q))
      (broadcastInDim S100000x64 ![] bcast_S_S100000x64 (constant (F := Ideal) S_ .f32 0x00000000#32) (ix2 p q)) = _
  rw [dgN, LibDot.row_dims_apply, scalarTo_apply]
  refine congrArg (fun s => max (s + b2 (ix1 q)) zero32) (Finset.sum_congr rfl fun k _ => ?_)
  show max (Host.dotGeneral (F := Ideal) rN none _ W1 (ix2 p k)
        + broadcastInDim S100000x64 ![0, 1] bcast_S1x64_S100000x64_0_1 (broadcastInDim S1x64 ![1] bcast_S64_S1x64_1 b1) (ix2 p k))
      (broadcastInDim S100000x64 ![] bcast_S_S100000x64 (constant (F := Ideal) S_ .f32 0x00000000#32) (ix2 p k)) * W2 (ix2 k q) = _
  rw [dgN, LibDot.row_dims_apply, scalarTo_apply]
  refine congrArg (fun s => max (s + b1 (ix1 k)) zero32 * W2 (ix2 k q)) (Finset.sum_congr rfl fun j _ => ?_)
  show (broadcastInDim S100000x64 ![] bcast_S_S100000x64 (fun y => one32 + e y) (ix2 p j) * X (ix2 p j) + A (ix2 p j)) * W1 (ix2 j k) = _
  rw [scalarTo_apply]

theorem hostHead_eq (H : FVec Ideal S2000x65 .f32) (W1 : FVec Ideal S65x64 .f32) (b1 : FVec Ideal S64 .f32)
    (W2 : FVec Ideal S64x1 .f32) (b2 : FVec Ideal S1 .f32) :
    hostHead H W1 b1 W2 b2 = headTable H W1 (rowOf b1) W2 (rowOf b2) := by
  funext i
  obtain ⟨p, q, rfl⟩ : ∃ (p : Fin 2000) (q : Fin 1), i = ix2 p q := ⟨i 0, i 1, eq_ix2 i⟩
  have hq : q = 0 := Subsingleton.elim _ _
  subst hq
  unfold hostHead headTable headRow rowOf
  show Host.dotGeneral (F := Ideal) rH2 none _ W2 (ix2 p 0)
      + broadcastInDim S2000x1 ![0, 1] bcast_S1x1_S2000x1_0_1 (broadcastInDim S1x1 ![1] bcast_S1_S1x1_1 b2) (ix2 p 0) = _
  rw [dgH2, LibDot.row_dims_apply]
  refine congrArg (fun s => s + b2 (ix1 (0 : Fin 1))) (Finset.sum_congr rfl fun k _ => ?_)
  show max (Host.dotGeneral (F := Ideal) rH1 none _ W1 (ix2 p k)
        + broadcastInDim S2000x64 ![0, 1] bcast_S1x64_S2000x64_0_1 (broadcastInDim S1x64 ![1] bcast_S64_S1x64_1 b1) (ix2 p k))
      (broadcastInDim S2000x64 ![] bcast_S_S2000x64 (constant (F := Ideal) S_ .f32 0x00000000#32) (ix2 p k)) * W2 (ix2 k 0) = _
  rw [dgH1, LibDot.row_dims_apply, scalarTo_apply]
  rfl

/-! ## The same tables in the kernel's spelling: a scalar cast to 1 × 1, a vector cast to one row -/

theorem nodeTable_congr {n : Nat} (X A : (⟨2, ![n, 64]⟩ : Shape).Idx → EReal)
    (E E' : (⟨2, ![1, 1]⟩ : Shape).Idx → EReal) (W1 : (⟨2, ![64, 64]⟩ : Shape).Idx → EReal)
    (B1 B1' : (⟨2, ![1, 64]⟩ : Shape).Idx → EReal) (W2 : (⟨2, ![64, 64]⟩ : Shape).Idx → EReal)
    (B2 B2' : (⟨2, ![1, 64]⟩ : Shape).Idx → EReal)
    (hE : E (ix2 (0 : Fin 1) (0 : Fin 1)) = E' (ix2 (0 : Fin 1) (0 : Fin 1)))
    (hB1 : ∀ k : Fin 64, B1 (ix2 (0 : Fin 1) k) = B1' (ix2 (0 : Fin 1) k))
    (hB2 : ∀ k : Fin 64, B2 (ix2 (0 : Fin 1) k) = B2' (ix2 (0 : Fin 1) k)) :
    nodeTable n X A E W1 B1 W2 B2 = nodeTable n X A E' W1 B1' W2 B2' := by
  funext i
  unfold nodeTable
  rw [hE, funext hB1, funext hB2]

theorem headTable_congr (H : (⟨2, ![2000, 65]⟩ : Shape).Idx → EReal) (W1 : (⟨2, ![65, 64]⟩ : Shape).Idx → EReal)
    (B1 B1' : (⟨2, ![1, 64]⟩ : Shape).Idx → EReal) (W2 : (⟨2, ![64, 1]⟩ : Shape).Idx → EReal)
    (B2 B2' : (⟨2, ![1, 1]⟩ : Shape).Idx → EReal)
    (hB1 : ∀ k : Fin 64, B1 (ix2 (0 : Fin 1) k) = B1' (ix2 (0 : Fin 1) k))
    (hB2 : B2 (ix2 (0 : Fin 1) (0 : Fin 1)) = B2' (ix2 (0 : Fin 1) (0 : Fin 1))) :
    headTable H W1 B1 W2 B2 = headTable H W1 B1' W2 B2' := by
  funext i
  unfold headTable
  rw [hB2, funext hB1]

/-- A scalar cast to a 1 × 1 table holds the scalar. -/
theorem cast_cell (e : S_.Idx → EReal) (h : S_.ShapeCasts ⟨2, ![1, 1]⟩) :
    shapeCast ⟨2, ![1, 1]⟩ e h (ix2 (0 : Fin 1) (0 : Fin 1)) = e ix0 :=
  congrArg e (eq_ix0 _)

/-- A vector cast to a one-row table holds the vector along the row. -/
theorem cast_row {n : Nat} (b : (⟨1, ![n]⟩ : Shape).Idx → EReal) (h : (⟨1, ![n]⟩ : Shape).ShapeCasts ⟨2, ![1, n]⟩) (k : Fin n) :
    shapeCast ⟨2, ![1, n]⟩ b h (ix2 (0 : Fin 1) k) = b (ix1 k) :=
  shapeCast_apply b h (ix2 (0 : Fin 1) k) (ix1 k) (by
    rw [Shape.rowMajor_val_two, Shape.rowMajor_val_one]; show k.val = 0 * n + k.val; omega)

end Cert.Gnn

end
-- ==== Proof.KChain.lean ====
/-
  The idealized kernel's result is the network on whole tables.

  Walking @main's segment boundaries from the launch: before each node-update region the host operations leave the
  aggregated messages and the layer's parameter slices in the region's tables (KEntry.lean), the region leaves the node
  update of those tables in its output (KRegion0–3.lean), which in the reference's host spelling is one `layer` of the
  network (HostMath.lean); the buffers later segments read again (the edge list's two rows, the argument tables) are
  written by no later segment (KWrites.lean).  After four layers the head's host operations pool the features and
  append the time feature, and the head region leaves the read-out (KRegion4.lean).  So the result buffer at the last
  boundary holds `network` of the launch contents of the argument tables.
-/
import proofs.«143737_j50861002719555_2_alg».proof.Proof.KWrites
import proofs.«143737_j50861002719555_2_alg».proof.Proof.KEntry
import proofs.«143737_j50861002719555_2_alg».proof.Proof.KRegion0
import proofs.«143737_j50861002719555_2_alg».proof.Proof.KRegion1
import proofs.«143737_j50861002719555_2_alg».proof.Proof.KRegion2
import proofs.«143737_j50861002719555_2_alg».proof.Proof.KRegion3
import proofs.«143737_j50861002719555_2_alg».proof.Proof.KRegion4
import proofs.«143737_j50861002719555_2_alg».proof.Proof.HostMath

set_option maxRecDepth 16384

noncomputable section

namespace Cert.KernelIdeal.Host

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg)

/-- What a segment boundary's contents `Wb` hold in the buffers later segments read again: the edge list's two rows
    (computed once, before the first layer) and the argument tables at their launch contents. -/
structure Base (c : Dev nD) (Wb : Valuation τ sig (Elt Ideal)) : Prop where
  v1 : Wb (Proc.devRef .tc main_v1) = Cert.Gnn.edgeRow (m ((c : Thread nD τ).loc main_arg1)) 0 Cert.ReferenceIdeal.Gen.slices_S2x1000000_S1x1000000_0_0
  v3 : Wb (Proc.devRef .tc main_v3) = Cert.Gnn.edgeRow (m ((c : Thread nD τ).loc main_arg1)) 1 Cert.ReferenceIdeal.Gen.slices_S2x1000000_S1x1000000_1_0
  a2 : Wb (Proc.devRef .tc main_arg2) = m ((c : Thread nD τ).loc main_arg2)
  a3 : Wb (Proc.devRef .tc main_arg3) = m ((c : Thread nD τ).loc main_arg3)
  a4 : Wb (Proc.devRef .tc main_arg4) = m ((c : Thread nD τ).loc main_arg4)
  a5 : Wb (Proc.devRef .tc main_arg5) = m ((c : Thread nD τ).loc main_arg5)
  a6 : Wb (Proc.devRef .tc main_arg6) = m ((c : Thread nD τ).loc main_arg6)
  a7 : Wb (Proc.devRef .tc main_arg7) = m ((c : Thread nD τ).loc main_arg7)
  a8 : Wb (Proc.devRef .tc main_arg8) = m ((c : Thread nD τ).loc main_arg8)
  a9 : Wb (Proc.devRef .tc main_arg9) = m ((c : Thread nD τ).loc main_arg9)
  a10 : Wb (Proc.devRef .tc main_arg10) = m ((c : Thread nD τ).loc main_arg10)
  a11 : Wb (Proc.devRef .tc main_arg11) = m ((c : Thread nD τ).loc main_arg11)
  a12 : Wb (Proc.devRef .tc main_arg12) = m ((c : Thread nD τ).loc main_arg12)
  a13 : Wb (Proc.devRef .tc main_arg13) = m ((c : Thread nD τ).loc main_arg13)
  a14 : Wb (Proc.devRef .tc main_arg14) = m ((c : Thread nD τ).loc main_arg14)

/-- A node update in the kernel's spelling of its small tables is the host chain's node update. -/
theorem node_eq (X A : FVec Ideal Cert.ReferenceIdeal.S100000x64 .f32) (e : FVec Ideal Cert.ReferenceIdeal.S_ .f32)
    (W1 : FVec Ideal Cert.ReferenceIdeal.S64x64 .f32) (b1 : FVec Ideal Cert.ReferenceIdeal.S64 .f32)
    (W2 : FVec Ideal Cert.ReferenceIdeal.S64x64 .f32) (b2 : FVec Ideal Cert.ReferenceIdeal.S64 .f32)
    (h1 : S_.ShapeCasts S1x1) (h2 : S64.ShapeCasts S1x64) :
    Cert.Gnn.nodeTable 100000 X A (shapeCast S1x1 e h1) W1 (shapeCast S1x64 b1 h2) W2 (shapeCast S1x64 b2 h2)
      = Cert.Gnn.hostNode X A e W1 b1 W2 b2 :=
  (Cert.Gnn.nodeTable_congr X A _ (Cert.Gnn.cell e) W1 _ (Cert.Gnn.rowOf b1) W2 _ (Cert.Gnn.rowOf b2)
    (Cert.Gnn.cast_cell e h1) (fun k => Cert.Gnn.cast_row b1 h2 k) (fun k => Cert.Gnn.cast_row b2 h2 k)).trans
    (Cert.Gnn.hostNode_eq X A e W1 b1 W2 b2).symm

/-! ## Layer 1, from the launch -/

theorem W0_arg (c : Dev nD) (r : Ref sig .tc) : W0 m ρ c (Proc.devRef .tc r) = m ((c : Thread nD τ).loc r) := rfl

theorem out0 (c : Dev nD) :
    W4 m ρ c (Proc.devRef .tc main_v32)
      = Cert.Gnn.layer 0 Cert.ReferenceIdeal.Gen.slices_S4x16x64_S1x16x64_0_0_0 Cert.ReferenceIdeal.Gen.slices_S4x64x64_S1x64x64_0_0_0 Cert.ReferenceIdeal.Gen.slices_S4x64_S1x64_0_0 Cert.ReferenceIdeal.Gen.slices_S4_S1_0 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [W4_arr m ρ c 7, Reg0.final (V3 m ρ) c]
  unfold Reg0.G
  have hx : V3 m ρ c main_arg0 = (m ((c : Thread nD τ).loc main_arg0)) := (keep0 (W0 m ρ c) main_arg0 (by decide) (by decide) (by decide)).trans (W0_arg m ρ c main_arg0)
  have ha : V3 m ρ c main_v18 = _ := e0_aggr (W0 m ρ c)
  have he : V3 m ρ c main_v29 = _ := e0_eps (W0 m ρ c)
  have hw1 : V3 m ρ c main_v22 = _ := e0_w1 (W0 m ρ c)
  have hb1 : V3 m ρ c main_v30 = _ := e0_b1 (W0 m ρ c)
  have hw2 : V3 m ρ c main_v26 = _ := e0_w2 (W0 m ρ c)
  have hb2 : V3 m ρ c main_v31 = _ := e0_b2 (W0 m ρ c)
  rw [hx, ha, he, hw1, hb1, hw2, hb2]
  exact node_eq _ _ _ _ _ _ _ _ _

theorem step0 (c : Dev nD) (r : Ref sig .tc) (hne : ∀ w, Pipeline.arrRef spec0 w ≠ r) (h0 : r ∉ L0) (h1 : r ∉ L0_1) (h2 : r ∉ L0_2) :
    W4 m ρ c (Proc.devRef .tc r) = m ((c : Thread nD τ).loc r) :=
  (W4_of_ne m ρ c r hne).trans ((keep0 (W0 m ρ c) r h0 h1 h2).trans (W0_arg m ρ c r))

theorem base4 (c : Dev nD) : Base m c (W4 m ρ c) where
  v1 := (W4_of_ne m ρ c main_v1 (by decide)).trans (e0_v1 (W0 m ρ c))
  v3 := (W4_of_ne m ρ c main_v3 (by decide)).trans (e0_v3 (W0 m ρ c))
  a2 := step0 m ρ c main_arg2 (by decide) (by decide) (by decide) (by decide)
  a3 := step0 m ρ c main_arg3 (by decide) (by decide) (by decide) (by decide)
  a4 := step0 m ρ c main_arg4 (by decide) (by decide) (by decide) (by decide)
  a5 := step0 m ρ c main_arg5 (by decide) (by decide) (by decide) (by decide)
  a6 := step0 m ρ c main_arg6 (by decide) (by decide) (by decide) (by decide)
  a7 := step0 m ρ c main_arg7 (by decide) (by decide) (by decide) (by decide)
  a8 := step0 m ρ c main_arg8 (by decide) (by decide) (by decide) (by decide)
  a9 := step0 m ρ c main_arg9 (by decide) (by decide) (by decide) (by decide)
  a10 := step0 m ρ c main_arg10 (by decide) (by decide) (by decide) (by decide)
  a11 := step0 m ρ c main_arg11 (by decide) (by decide) (by decide) (by decide)
  a12 := step0 m ρ c main_arg12 (by decide) (by decide) (by decide) (by decide)
  a13 := step0 m ρ c main_arg13 (by decide) (by decide) (by decide) (by decide)
  a14 := step0 m ρ c main_arg14 (by decide) (by decide) (by decide) (by decide)

/-! ## Layer 2 -/

theorem out1 (c : Dev nD) (hB : Base m c (W4 m ρ c)) (X : FVec Ideal Cert.ReferenceIdeal.S100000x64 .f32)
    (hX : W4 m ρ c (Proc.devRef .tc main_v32) = X) :
    W8 m ρ c (Proc.devRef .tc main_v61)
      = Cert.Gnn.layer 1 Cert.ReferenceIdeal.Gen.slices_S4x16x64_S1x16x64_1_0_0 Cert.ReferenceIdeal.Gen.slices_S4x64x64_S1x64x64_1_0_0 Cert.ReferenceIdeal.Gen.slices_S4x64_S1x64_1_0 Cert.ReferenceIdeal.Gen.slices_S4_S1_1 X (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [W8_arr m ρ c 7, Reg1.final (V7 m ρ) c]
  unfold Reg1.G
  have hx : V7 m ρ c main_v32 = X := (keep1 (W4 m ρ c) main_v32 (by decide) (by decide) (by decide)).trans hX
  have ha : V7 m ρ c main_v47 = _ := e1_aggr (W4 m ρ c)
  have he : V7 m ρ c main_v58 = _ := e1_eps (W4 m ρ c)
  have hw1 : V7 m ρ c main_v51 = _ := e1_w1 (W4 m ρ c)
  have hb1 : V7 m ρ c main_v59 = _ := e1_b1 (W4 m ρ c)
  have hw2 : V7 m ρ c main_v55 = _ := e1_w2 (W4 m ρ c)
  have hb2 : V7 m ρ c main_v60 = _ := e1_b2 (W4 m ρ c)
  rw [hx, ha, he, hw1, hb1, hw2, hb2, hX, hB.v1, hB.v3, hB.a2, hB.a5, hB.a6, hB.a7, hB.a8, hB.a9, hB.a10]
  exact node_eq _ _ _ _ _ _ _ _ _

theorem step1 (c : Dev nD) (r : Ref sig .tc) (hne : ∀ w, Pipeline.arrRef spec1 w ≠ r) (h0 : r ∉ L1) (h1 : r ∉ L1_1) (h2 : r ∉ L1_2) :
    W8 m ρ c (Proc.devRef .tc r) = W4 m ρ c (Proc.devRef .tc r) :=
  (W8_of_ne m ρ c r hne).trans (keep1 (W4 m ρ c) r h0 h1 h2)

theorem base8 (c : Dev nD) (hB : Base m c (W4 m ρ c)) : Base m c (W8 m ρ c) where
  v1 := (step1 m ρ c main_v1 (by decide) (by decide) (by decide) (by decide)).trans hB.v1
  v3 := (step1 m ρ c main_v3 (by decide) (by decide) (by decide) (by decide)).trans hB.v3
  a2 := (step1 m ρ c main_arg2 (by decide) (by decide) (by decide) (by decide)).trans hB.a2
  a3 := (step1 m ρ c main_arg3 (by decide) (by decide) (by decide) (by decide)).trans hB.a3
  a4 := (step1 m ρ c main_arg4 (by decide) (by decide) (by decide) (by decide)).trans hB.a4
  a5 := (step1 m ρ c main_arg5 (by decide) (by decide) (by decide) (by decide)).trans hB.a5
  a6 := (step1 m ρ c main_arg6 (by decide) (by decide) (by decide) (by decide)).trans hB.a6
  a7 := (step1 m ρ c main_arg7 (by decide) (by decide) (by decide) (by decide)).trans hB.a7
  a8 := (step1 m ρ c main_arg8 (by decide) (by decide) (by decide) (by decide)).trans hB.a8
  a9 := (step1 m ρ c main_arg9 (by decide) (by decide) (by decide) (by decide)).trans hB.a9
  a10 := (step1 m ρ c main_arg10 (by decide) (by decide) (by decide) (by decide)).trans hB.a10
  a11 := (step1 m ρ c main_arg11 (by decide) (by decide) (by decide) (by decide)).trans hB.a11
  a12 := (step1 m ρ c main_arg12 (by decide) (by decide) (by decide) (by decide)).trans hB.a12
  a13 := (step1 m ρ c main_arg13 (by decide) (by decide) (by decide) (by decide)).trans hB.a13
  a14 := (step1 m ρ c main_arg14 (by decide) (by decide) (by decide) (by decide)).trans hB.a14

/-! ## Layer 3 -/

theorem out2 (c : Dev nD) (hB : Base m c (W8 m ρ c)) (X : FVec Ideal Cert.ReferenceIdeal.S100000x64 .f32)
    (hX : W8 m ρ c (Proc.devRef .tc main_v61) = X) :
    W12 m ρ c (Proc.devRef .tc main_v90)
      = Cert.Gnn.layer 2 Cert.ReferenceIdeal.Gen.slices_S4x16x64_S1x16x64_2_0_0 Cert.ReferenceIdeal.Gen.slices_S4x64x64_S1x64x64_2_0_0 Cert.ReferenceIdeal.Gen.slices_S4x64_S1x64_2_0 Cert.ReferenceIdeal.Gen.slices_S4_S1_2 X (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [W12_arr m ρ c 7, Reg2.final (V11 m ρ) c]
  unfold Reg2.G
  have hx : V11 m ρ c main_v61 = X := (keep2 (W8 m ρ c) main_v61 (by decide) (by decide) (by decide)).trans hX
  have ha : V11 m ρ c main_v76 = _ := e2_aggr (W8 m ρ c)
  have he : V11 m ρ c main_v87 = _ := e2_eps (W8 m ρ c)
  have hw1 : V11 m ρ c main_v80 = _ := e2_w1 (W8 m ρ c)
  have hb1 : V11 m ρ c main_v88 = _ := e2_b1 (W8 m ρ c)
  have hw2 : V11 m ρ c main_v84 = _ := e2_w2 (W8 m ρ c)
  have hb2 : V11 m ρ c main_v89 = _ := e2_b2 (W8 m ρ c)
  rw [hx, ha, he, hw1, hb1, hw2, hb2, hX, hB.v1, hB.v3, hB.a2, hB.a5, hB.a6, hB.a7, hB.a8, hB.a9, hB.a10]
  exact node_eq _ _ _ _ _ _ _ _ _

theorem step2 (c : Dev nD) (r : Ref sig .tc) (hne : ∀ w, Pipeline.arrRef spec2 w ≠ r) (h0 : r ∉ L2) (h1 : r ∉ L2_1) (h2 : r ∉ L2_2) :
    W12 m ρ c (Proc.devRef .tc r) = W8 m ρ c (Proc.devRef .tc r) :=
  (W12_of_ne m ρ c r hne).trans (keep2 (W8 m ρ c) r h0 h1 h2)

theorem base12 (c : Dev nD) (hB : Base m c (W8 m ρ c)) : Base m c (W12 m ρ c) where
  v1 := (step2 m ρ c main_v1 (by decide) (by decide) (by decide) (by decide)).trans hB.v1
  v3 := (step2 m ρ c main_v3 (by decide) (by decide) (by decide) (by decide)).trans hB.v3
  a2 := (step2 m ρ c main_arg2 (by decide) (by decide) (by decide) (by decide)).trans hB.a2
  a3 := (step2 m ρ c main_arg3 (by decide) (by decide) (by decide) (by decide)).trans hB.a3
  a4 := (step2 m ρ c main_arg4 (by decide) (by decide) (by decide) (by decide)).trans hB.a4
  a5 := (step2 m ρ c main_arg5 (by decide) (by decide) (by decide) (by decide)).trans hB.a5
  a6 := (step2 m ρ c main_arg6 (by decide) (by decide) (by decide) (by decide)).trans hB.a6
  a7 := (step2 m ρ c main_arg7 (by decide) (by decide) (by decide) (by decide)).trans hB.a7
  a8 := (step2 m ρ c main_arg8 (by decide) (by decide) (by decide) (by decide)).trans hB.a8
  a9 := (step2 m ρ c main_arg9 (by decide) (by decide) (by decide) (by decide)).trans hB.a9
  a10 := (step2 m ρ c main_arg10 (by decide) (by decide) (by decide) (by decide)).trans hB.a10
  a11 := (step2 m ρ c main_arg11 (by decide) (by decide) (by decide) (by decide)).trans hB.a11
  a12 := (step2 m ρ c main_arg12 (by decide) (by decide) (by decide) (by decide)).trans hB.a12
  a13 := (step2 m ρ c main_arg13 (by decide) (by decide) (by decide) (by decide)).trans hB.a13
  a14 := (step2 m ρ c main_arg14 (by decide) (by decide) (by decide) (by decide)).trans hB.a14

/-! ## Layer 4 -/

theorem out3 (c : Dev nD) (hB : Base m c (W12 m ρ c)) (X : FVec Ideal Cert.ReferenceIdeal.S100000x64 .f32)
    (hX : W12 m ρ c (Proc.devRef .tc main_v90) = X) :
    W16 m ρ c (Proc.devRef .tc main_v119)
      = Cert.Gnn.layer 3 Cert.ReferenceIdeal.Gen.slices_S4x16x64_S1x16x64_3_0_0 Cert.ReferenceIdeal.Gen.slices_S4x64x64_S1x64x64_3_0_0 Cert.ReferenceIdeal.Gen.slices_S4x64_S1x64_3_0 Cert.ReferenceIdeal.Gen.slices_S4_S1_3 X (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [W16_arr m ρ c 7, Reg3.final (V15 m ρ) c]
  unfold Reg3.G
  have hx : V15 m ρ c main_v90 = X := (keep3 (W12 m ρ c) main_v90 (by decide) (by decide) (by decide)).trans hX
  have ha : V15 m ρ c main_v105 = _ := e3_aggr (W12 m ρ c)
  have he : V15 m ρ c main_v116 = _ := e3_eps (W12 m ρ c)
  have hw1 : V15 m ρ c main_v109 = _ := e3_w1 (W12 m ρ c)
  have hb1 : V15 m ρ c main_v117 = _ := e3_b1 (W12 m ρ c)
  have hw2 : V15 m ρ c main_v113 = _ := e3_w2 (W12 m ρ c)
  have hb2 : V15 m ρ c main_v118 = _ := e3_b2 (W12 m ρ c)
  rw [hx, ha, he, hw1, hb1, hw2, hb2, hX, hB.v1, hB.v3, hB.a2, hB.a5, hB.a6, hB.a7, hB.a8, hB.a9, hB.a10]
  exact node_eq _ _ _ _ _ _ _ _ _

theorem step3 (c : Dev nD) (r : Ref sig .tc) (hne : ∀ w, Pipeline.arrRef spec3 w ≠ r) (h0 : r ∉ L3) (h1 : r ∉ L3_1) (h2 : r ∉ L3_2) :
    W16 m ρ c (Proc.devRef .tc r) = W12 m ρ c (Proc.devRef .tc r) :=
  (W16_of_ne m ρ c r hne).trans (keep3 (W12 m ρ c) r h0 h1 h2)

theorem base16 (c : Dev nD) (hB : Base m c (W12 m ρ c)) : Base m c (W16 m ρ c) where
  v1 := (step3 m ρ c main_v1 (by decide) (by decide) (by decide) (by decide)).trans hB.v1
  v3 := (step3 m ρ c main_v3 (by decide) (by decide) (by decide) (by decide)).trans hB.v3
  a2 := (step3 m ρ c main_arg2 (by decide) (by decide) (by decide) (by decide)).trans hB.a2
  a3 := (step3 m ρ c main_arg3 (by decide) (by decide) (by decide) (by decide)).trans hB.a3
  a4 := (step3 m ρ c main_arg4 (by decide) (by decide) (by decide) (by decide)).trans hB.a4
  a5 := (step3 m ρ c main_arg5 (by decide) (by decide) (by decide) (by decide)).trans hB.a5
  a6 := (step3 m ρ c main_arg6 (by decide) (by decide) (by decide) (by decide)).trans hB.a6
  a7 := (step3 m ρ c main_arg7 (by decide) (by decide) (by decide) (by decide)).trans hB.a7
  a8 := (step3 m ρ c main_arg8 (by decide) (by decide) (by decide) (by decide)).trans hB.a8
  a9 := (step3 m ρ c main_arg9 (by decide) (by decide) (by decide) (by decide)).trans hB.a9
  a10 := (step3 m ρ c main_arg10 (by decide) (by decide) (by decide) (by decide)).trans hB.a10
  a11 := (step3 m ρ c main_arg11 (by decide) (by decide) (by decide) (by decide)).trans hB.a11
  a12 := (step3 m ρ c main_arg12 (by decide) (by decide) (by decide) (by decide)).trans hB.a12
  a13 := (step3 m ρ c main_arg13 (by decide) (by decide) (by decide) (by decide)).trans hB.a13
  a14 := (step3 m ρ c main_arg14 (by decide) (by decide) (by decide) (by decide)).trans hB.a14

/-! ## The head -/

theorem head_eq (H : FVec Ideal Cert.ReferenceIdeal.S2000x65 .f32) (W1 : FVec Ideal Cert.ReferenceIdeal.S65x64 .f32)
    (b1 : FVec Ideal Cert.ReferenceIdeal.S64 .f32) (W2 : FVec Ideal Cert.ReferenceIdeal.S64x1 .f32)
    (b2 : FVec Ideal Cert.ReferenceIdeal.S1 .f32) (h1 : S64.ShapeCasts S1x64) (h2 : S1.ShapeCasts S1x1) :
    Cert.Gnn.headTable H W1 (shapeCast S1x64 b1 h1) W2 (shapeCast S1x1 b2 h2) = Cert.Gnn.hostHead H W1 b1 W2 b2 :=
  (Cert.Gnn.headTable_congr H W1 _ (Cert.Gnn.rowOf b1) W2 _ (Cert.Gnn.rowOf b2)
    (fun k => Cert.Gnn.cast_row b1 h1 k) (Cert.Gnn.cast_row b2 h2 (0 : Fin 1))).trans
    (Cert.Gnn.hostHead_eq H W1 b1 W2 b2).symm

theorem out4 (c : Dev nD) (hB : Base m c (W16 m ρ c)) (X : FVec Ideal Cert.ReferenceIdeal.S100000x64 .f32)
    (hX : W16 m ρ c (Proc.devRef .tc main_v119) = X) :
    W18 m ρ c (Proc.devRef .tc main_v135)
      = Cert.Gnn.hostHead (Cert.Gnn.headIn (Cert.Gnn.pooled X (m ((c : Thread nD τ).loc main_arg3))) (m ((c : Thread nD τ).loc main_arg4))) (m ((c : Thread nD τ).loc main_arg11)) (m ((c : Thread nD τ).loc main_arg12)) (m ((c : Thread nD τ).loc main_arg13)) (m ((c : Thread nD τ).loc main_arg14)) := by
  rw [W18_arr m ρ c 5, Reg4.final (V17 m ρ) c]
  unfold Reg4.G
  have hin : V17 m ρ c main_v132 = _ := e4_in (W16 m ρ c)
  have hw1 : V17 m ρ c main_arg11 = _ := (keep4 (W16 m ρ c) main_arg11 (by decide)).trans hB.a11
  have hb1 : V17 m ρ c main_v133 = _ := e4_b1 (W16 m ρ c)
  have hw2 : V17 m ρ c main_arg13 = _ := (keep4 (W16 m ρ c) main_arg13 (by decide)).trans hB.a13
  have hb2 : V17 m ρ c main_v134 = _ := e4_b2 (W16 m ρ c)
  rw [hin, hw1, hb1, hw2, hb2, hX, hB.a3, hB.a4, hB.a12, hB.a14]
  exact head_eq _ _ _ _ _ _ _

/-! ## The whole walk -/

/-- The result buffer at the last segment boundary holds the network of the argument tables' launch contents. -/
theorem result (c : Dev nD) :
    W18 m ρ c (Proc.devRef .tc main_v135)
      = Cert.Gnn.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have b4 := base4 m ρ c
  have b8 := base8 m ρ c b4
  have b12 := base12 m ρ c b8
  have b16 := base16 m ρ c b12
  have o0 := out0 m ρ c
  have o1 := out1 m ρ c b4 _ o0
  have o2 := out2 m ρ c b8 _ o1
  have o3 := out3 m ρ c b12 _ o2
  exact out4 m ρ c b16 _ o3

end Cert.KernelIdeal.Host

end
-- ==== Proof.RefTerm.lean ====
/-
  The reference's result term is the network on whole tables: the generated run states the result as the composed
  term of @main's 228 host operations over the argument tables; grouping that term by layer (the aggregated messages,
  the node update, four times; the pooling; the read-out) gives `network` (HostChain.lean) by unfolding the names.
-/
import proofs.«143737_j50861002719555_2_alg».proof.Proof.RefRun
import proofs.«143737_j50861002719555_2_alg».proof.Proof.HostChain

set_option maxRecDepth 16384

noncomputable section

namespace Cert.ReferenceIdeal.RefTerm

open Cert.ReferenceIdeal Cert.ReferenceIdeal.Gen Idealize.ShloMosaic Idealize.ShloMosaic.TcCoe Idealize.SL.Sem

set_option maxHeartbeats 4000000 in
theorem res_eq (m : (ℓ : Loc nD τ sig) → Buf (Elt Ideal) ℓ) (c : Dev nD) :
    Cert.ReferenceIdeal.ValueP.res_main_v181 (F := Ideal) m c
      = Cert.Gnn.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  unfold Cert.ReferenceIdeal.ValueP.res_main_v181 Cert.Gnn.network Cert.Gnn.layer Cert.Gnn.hostHead Cert.Gnn.headIn Cert.Gnn.pooled
    Cert.Gnn.hostNode Cert.Gnn.aggr Cert.Gnn.aggrOf Cert.Gnn.srcCol Cert.Gnn.dstCol Cert.Gnn.edgeRow Cert.Gnn.linOf Cert.Gnn.matOf
    Cert.Gnn.vecOf Cert.Gnn.epsOf
  rfl

end Cert.ReferenceIdeal.RefTerm

end
-- ==== Proof.lean ====
/-
  The certificate of the graph network's node-update and read-out kernels against the plain reference, on the extended
  reals.

  The program runs four graph-convolution layers and a read-out head.  In each layer the host gathers the source rows of
  a million edges, adds the projected edge features, rectifies, and sums the messages at their targets; a Pallas region
  then updates the 100000 node rows in ten bands of 10000 rows,
      x' = max( max( ((1 + eps) · x + aggr) · W1 + b1 , 0 ) · W2 + b2 , 0 ),
  with products into a zero accumulator and changes of float format that are the identity on the extended reals.
  After the fourth layer the host pools the node rows by graph and appends the time feature, and a one-block region
  computes  max(h · W1 + b1, 0) · W2 + b2.  The reference computes the same formulas with whole-table host products.

  Both programs' results are `network` (Proof/HostChain.lean) of the argument tables:
  * the kernel's, by walking its segments (Proof/KChain.lean): the host operations are the reference's own, and a region's
    band-by-band update is the update of the whole table because an updated row depends on its own row only and the bands
    cover the rows (Proof/KRegion0–4.lean, Proof/Band.lean, Proof/KPay.lean, Proof/RowMlp.lean);
  * the reference's, by grouping its run's composed term by layer (Proof/RefTerm.lean);
  the kernel's product into a zero accumulator and the host's product are the same sum over the contracted axis, so no
  finiteness of the inputs is used.  The ideal pass rewrote nothing, so `preserves` is `True`; the frames are the
  generated ones (the reference's is its run with the result dropped).
-/
import proofs.«143737_j50861002719555_2_alg».proof.Defs
import proofs.«143737_j50861002719555_2_alg».proof.Proof.Gen.Kernel
import proofs.«143737_j50861002719555_2_alg».proof.Proof.Gen.Kernel.Skeleton
import proofs.«143737_j50861002719555_2_alg».proof.Proof.Gen.Kernel.Launch
import proofs.«143737_j50861002719555_2_alg».proof.Proof.Gen.Kernel.Points
import proofs.«143737_j50861002719555_2_alg».proof.Proof.Gen.Kernel.Frame
import proofs.«143737_j50861002719555_2_alg».proof.Proof.Gen.KernelIdeal
import proofs.«143737_j50861002719555_2_alg».proof.Proof.Gen.KernelIdeal.Skeleton
import proofs.«143737_j50861002719555_2_alg».proof.Proof.Gen.KernelIdeal.Launch
import proofs.«143737_j50861002719555_2_alg».proof.Proof.Gen.KernelIdeal.Points
import proofs.«143737_j50861002719555_2_alg».proof.Proof.Gen.KernelIdeal.Frame
import proofs.«143737_j50861002719555_2_alg».proof.Proof.Gen.ReferenceIdeal
import proofs.«143737_j50861002719555_2_alg».proof.Proof.Gen.Pre_finite_inputs
import proofs.«143737_j50861002719555_2_alg».proof.Proof.KRun
import proofs.«143737_j50861002719555_2_alg».proof.Proof.KChain
import proofs.«143737_j50861002719555_2_alg».proof.Proof.RefRun
import proofs.«143737_j50861002719555_2_alg».proof.Proof.RefTerm
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both runs end with the result at the network of the argument tables, which agree. -/
theorem algebraic : Cert.algebraic_KernelIdeal_ReferenceIdeal := by
  intro m ρ m' ρ' _ hagree
  refine ⟨fun c => Cert.Gnn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun _ h c => ⟨(h c).1.trans (Cert.KernelIdeal.Host.result m ρ c), (h c).2⟩)
      (Cert.KernelIdeal.RunOut.run_out (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefTerm.res_eq]
    obtain ⟨h0, h1, h2, h3, h4, h5, h6, h7, h8, h9, h10, h11, h12, h13, h14⟩ := hagree c
    rw [h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
